-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v89)) (v1 : (c : Dev Cert.KernelIdeal.nD) → Buf (Elt Ideal) ((c.tc : Thread Cert.KernelIdeal.nD Cert.KernelIdeal.τ).loc Cert.KernelIdeal.main_v76_0)) (v2 : (c : Dev Cert.KernelIdeal.nD) → Buf (Elt Ideal) ((c.tc : Thread Cert.KernelIdeal.nD Cert.KernelIdeal.τ).loc Cert.KernelIdeal.main_v76_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v89) = v0 c
          ∧ r.2.mem ((c.tc : Thread Cert.KernelIdeal.nD Cert.KernelIdeal.τ).loc Cert.KernelIdeal.main_v76_0) = v1 c
          ∧ r.2.mem ((c.tc : Thread Cert.KernelIdeal.nD Cert.KernelIdeal.τ).loc Cert.KernelIdeal.main_v76_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v160) = v0 c
          ∧ r.2.mem ((c.tc : Thread Cert.ReferenceIdeal.nD Cert.ReferenceIdeal.τ).loc Cert.ReferenceIdeal.main_v141) = v1 c
          ∧ r.2.mem ((c.tc : Thread Cert.ReferenceIdeal.nD Cert.ReferenceIdeal.τ).loc Cert.ReferenceIdeal.main_v147) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S100000 : Shape := ⟨1, ![100000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x50 : Shape := ⟨2, ![64, 50]⟩
abbrev S50x10 : Shape := ⟨2, ![50, 10]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x50 : S_.BroadcastsInDim S64x50 (![] : Fin 0 → Fin S64x50.rank)
  reducesTo_S64x50_S_d0_1 : S64x50.ReducesTo [0, 1] S_
  bcast_S_S50x10 : S_.BroadcastsInDim S50x10 (![] : Fin 0 → Fin S50x10.rank)
  reducesTo_S50x10_S_d0_1 : S50x10.ReducesTo [0, 1] S_

variable [Facts]

def fn_part3 {F : FTy → Type} [FloatOps F] (main_v48 : IVec S_ 1) (main_v49 : FVec F S50x10 .f32) (main_v50 : FVec F S50x10 .f32) : IVec S_ 1 :=
  let main_v51 : IVec S50x10 1 := cmpf .olt main_v49 main_v50
  let main_c_19 : IVec S_ 1 := constantI S_ 1 1#1
  let main_v52 : IVec S_ 1 := (fun x v => Host.reduce IntOp.andi x v reducesTo_S50x10_S_d0_1 h_S_) main_v51 main_c_19
  let main_v53 : IVec S_ 1 := andi main_v48 main_v52
  main_v53

def fn_part2 {F : FTy → Type} [FloatOps F] (main_arg10 : FVec F S128x64 .f32) (main_arg11 : FVec F S64 .f32) (main_arg12 : FVec F S64x50 .f32) (main_arg13 : FVec F S50x10 .f32) (main_v33 : IVec S_ 1) : IVec S_ 1 :=
  let main_v34 : FVec F S128x64 .f32 := Host.absf main_arg10
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S64 .f32 := Host.absf main_arg11
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x50 .f32 := Host.absf main_arg12
  let main_cst_16 : FVec F S_ .f32 := constant S_ .f32 0x7F800000#32
  let main_v45 : FVec F S64x50 .f32 := broadcastInDim S64x50 ![] bcast_S_S64x50 main_cst_16
  let main_v46 : IVec S64x50 1 := cmpf .olt main_v44 main_v45
  let main_c_17 : IVec S_ 1 := constantI S_ 1 1#1
  let main_v47 : IVec S_ 1 := (fun x v => Host.reduce IntOp.andi x v reducesTo_S64x50_S_d0_1 h_S_) main_v46 main_c_17
  let main_v48 : IVec S_ 1 := andi main_v43 main_v47
  let main_v49 : FVec F S50x10 .f32 := Host.absf main_arg13
  let main_cst_18 : FVec F S_ .f32 := constant S_ .f32 0x7F800000#32
  let main_v50 : FVec F S50x10 .f32 := broadcastInDim S50x10 ![] bcast_S_S50x10 main_cst_18
  fn_part3 (F := F) main_v48 main_v49 main_v50

def fn_part1 {F : FTy → Type} [FloatOps F] (main_arg7 : FVec F S128 .f32) (main_arg8 : FVec F S128x128 .f32) (main_arg9 : FVec F S128 .f32) (main_arg10 : FVec F S128x64 .f32) (main_arg11 : FVec F S64 .f32) (main_arg12 : FVec F S64x50 .f32) (main_arg13 : FVec F S50x10 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg7
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg8
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg9
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg10 main_arg11 main_arg12 main_arg13 main_v33

def fn {F : FTy → Type} [FloatOps F] (main_arg0 : FVec F S100000x128 .f32) (main_arg1 : IVec S1600000 32) (main_arg2 : IVec S1600000 32) (main_arg3 : IVec S100000 32) (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : FVec F S128x64 .f32) (main_arg11 : FVec F S64 .f32) (main_arg12 : FVec F S64x50 .f32) (main_arg13 : FVec F S50x10 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg4
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg5
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg6
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg7 main_arg8 main_arg9 main_arg10 main_arg11 main_arg12 main_arg13 main_v13 main_v16
-- ==== Kernel.lean ====
abbrev S100000x128 : Shape := ⟨2, ![100000, 128]⟩
abbrev S1600000 : Shape := ⟨1, ![1600000]⟩
abbrev S100000 : Shape := ⟨1, ![100000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x50 : Shape := ⟨2, ![64, 50]⟩
abbrev S50x10 : Shape := ⟨2, ![50, 10]⟩
abbrev S_ : Shape := ⟨0, ![]⟩
abbrev S1600000x1 : Shape := ⟨2, ![1600000, 1]⟩
abbrev S5000x128 : Shape := ⟨2, ![5000, 128]⟩
abbrev S1600000x128 : Shape := ⟨2, ![1600000, 128]⟩
abbrev S1x128 : Shape := ⟨2, ![1, 128]⟩
abbrev S100000x1 : Shape := ⟨2, ![100000, 1]⟩
abbrev S5000x1 : Shape := ⟨2, ![5000, 1]⟩
abbrev S1x64 : Shape := ⟨2, ![1, 64]⟩
abbrev S100000x64 : Shape := ⟨2, ![100000, 64]⟩
abbrev S100000x50 : Shape := ⟨2, ![100000, 50]⟩
abbrev S5000x64 : Shape := ⟨2, ![5000, 64]⟩
abbrev S5000x50 : Shape := ⟨2, ![5000, 50]⟩
abbrev S5000 : Shape := ⟨1, ![5000]⟩
abbrev S64x1 : Shape := ⟨2, ![64, 1]⟩
abbrev S64x10 : Shape := ⟨2, ![64, 10]⟩

abbrev nBuf : Space → Nat
  | .hbm => 126
  | .vmem => 51
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S100000, .i32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x64, .f32⟩
  | .hbm, ⟨11, _⟩ => ⟨S64, .f32⟩
  | .hbm, ⟨12, _⟩ => ⟨S64x50, .f32⟩
  | .hbm, ⟨13, _⟩ => ⟨S50x10, .f32⟩
  | .hbm, ⟨14, _⟩ => ⟨S_, .f32⟩
  | .hbm, ⟨15, _⟩ => ⟨S1600000, .f32⟩
  | .hbm, ⟨16, _⟩ => ⟨S_, .f32⟩
  | .hbm, ⟨17, _⟩ => ⟨S100000, .f32⟩
  | .hbm, ⟨18, _⟩ => ⟨S1600000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S100000, .f32⟩
  | .hbm, ⟨24, _⟩ => ⟨S_, .i32⟩
  | .hbm, ⟨25, _⟩ => ⟨S1600000, .i32⟩
  | .hbm, ⟨26, _⟩ => ⟨S1600000, .i1⟩
  | .hbm, ⟨27, _⟩ => ⟨S_, .i32⟩
  | .hbm, ⟨28, _⟩ => ⟨S1600000, .i32⟩
  | .hbm, ⟨29, _⟩ => ⟨S1600000, .i32⟩
  | .hbm, ⟨30, _⟩ => ⟨S1600000, .i32⟩
  | .hbm, ⟨31, _⟩ => ⟨S1600000x1, .i32⟩
  | .hbm, ⟨32, _⟩ => ⟨S1600000, .f32⟩
  | .hbm, ⟨33, _⟩ => ⟨S_, .i32⟩
  | .hbm, ⟨34, _⟩ => ⟨S1600000, .i32⟩
  | .hbm, ⟨35, _⟩ => ⟨S1600000, .i1⟩
  | .hbm, ⟨36, _⟩ => ⟨S_, .i32⟩
  | .hbm, ⟨37, _⟩ => ⟨S1600000, .i32⟩
  | .hbm, ⟨38, _⟩ => ⟨S1600000, .i32⟩
  | .hbm, ⟨39, _⟩ => ⟨S1600000, .i32⟩
  | .hbm, ⟨40, _⟩ => ⟨S1600000x1, .i32⟩
  | .hbm, ⟨41, _⟩ => ⟨S1600000, .f32⟩
  | .hbm, ⟨42, _⟩ => ⟨S1600000, .f32⟩
  | .hbm, ⟨43, _⟩ => ⟨S_, .f32⟩
  | .hbm, ⟨44, _⟩ => ⟨S100000, .f32⟩
  | .hbm, ⟨45, _⟩ => ⟨S100000, .f32⟩
  | .hbm, ⟨46, _⟩ => ⟨S100000x128, .f32⟩
  | .hbm, ⟨47, _⟩ => ⟨S_, .i32⟩
  | .hbm, ⟨48, _⟩ => ⟨S1600000, .i32⟩
  | .hbm, ⟨49, _⟩ => ⟨S1600000, .i1⟩
  | .hbm, ⟨50, _⟩ => ⟨S_, .i32⟩
  | .hbm, ⟨51, _⟩ => ⟨S1600000, .i32⟩
  | .hbm, ⟨52, _⟩ => ⟨S1600000, .i32⟩
  | .hbm, ⟨53, _⟩ => ⟨S1600000, .i32⟩
  | .hbm, ⟨54, _⟩ => ⟨S1600000x1, .i32⟩
  | .hbm, ⟨55, _⟩ => ⟨S1600000x128, .f32⟩
  | .hbm, ⟨56, _⟩ => ⟨S1600000x1, .f32⟩
  | .hbm, ⟨57, _⟩ => ⟨S1600000x128, .f32⟩
  | .hbm, ⟨58, _⟩ => ⟨S1600000x128, .f32⟩
  | .hbm, ⟨59, _⟩ => ⟨S_, .f32⟩
  | .hbm, ⟨60, _⟩ => ⟨S100000x128, .f32⟩
  | .hbm, ⟨61, _⟩ => ⟨S1600000x1, .i32⟩
  | .hbm, ⟨62, _⟩ => ⟨S100000x128, .f32⟩
  | .hbm, ⟨63, _⟩ => ⟨S1x128, .f32⟩
  | .hbm, ⟨64, _⟩ => ⟨S100000x1, .f32⟩
  | .hbm, ⟨65, _⟩ => ⟨S100000x128, .f32⟩
  | .hbm, ⟨66, _⟩ => ⟨S100000x128, .f32⟩
  | .hbm, ⟨67, _⟩ => ⟨S_, .i32⟩
  | .hbm, ⟨68, _⟩ => ⟨S1600000, .i32⟩
  | .hbm, ⟨69, _⟩ => ⟨S1600000, .i1⟩
  | .hbm, ⟨70, _⟩ => ⟨S_, .i32⟩
  | .hbm, ⟨71, _⟩ => ⟨S1600000, .i32⟩
  | .hbm, ⟨72, _⟩ => ⟨S1600000, .i32⟩
  | .hbm, ⟨73, _⟩ => ⟨S1600000, .i32⟩
  | .hbm, ⟨74, _⟩ => ⟨S1600000x1, .i32⟩
  | .hbm, ⟨75, _⟩ => ⟨S1600000x128, .f32⟩
  | .hbm, ⟨76, _⟩ => ⟨S1600000x1, .f32⟩
  | .hbm, ⟨77, _⟩ => ⟨S1600000x128, .f32⟩
  | .hbm, ⟨78, _⟩ => ⟨S1600000x128, .f32⟩
  | .hbm, ⟨79, _⟩ => ⟨S_, .f32⟩
  | .hbm, ⟨80, _⟩ => ⟨S100000x128, .f32⟩
  | .hbm, ⟨81, _⟩ => ⟨S1600000x1, .i32⟩
  | .hbm, ⟨82, _⟩ => ⟨S100000x128, .f32⟩
  | .hbm, ⟨83, _⟩ => ⟨S1x128, .f32⟩
  | .hbm, ⟨84, _⟩ => ⟨S100000x1, .f32⟩
  | .hbm, ⟨85, _⟩ => ⟨S100000x128, .f32⟩
  | .hbm, ⟨86, _⟩ => ⟨S100000x128, .f32⟩
  | .hbm, ⟨87, _⟩ => ⟨S_, .i32⟩
  | .hbm, ⟨88, _⟩ => ⟨S1600000, .i32⟩
  | .hbm, ⟨89, _⟩ => ⟨S1600000, .i1⟩
  | .hbm, ⟨90, _⟩ => ⟨S_, .i32⟩
  | .hbm, ⟨91, _⟩ => ⟨S1600000, .i32⟩
  | .hbm, ⟨92, _⟩ => ⟨S1600000, .i32⟩
  | .hbm, ⟨93, _⟩ => ⟨S1600000, .i32⟩
  | .hbm, ⟨94, _⟩ => ⟨S1600000x1, .i32⟩
  | .hbm, ⟨95, _⟩ => ⟨S1600000x128, .f32⟩
  | .hbm, ⟨96, _⟩ => ⟨S1600000x1, .f32⟩
  | .hbm, ⟨97, _⟩ => ⟨S1600000x128, .f32⟩
  | .hbm, ⟨98, _⟩ => ⟨S1600000x128, .f32⟩
  | .hbm, ⟨99, _⟩ => ⟨S_, .f32⟩
  | .hbm, ⟨100, _⟩ => ⟨S100000x128, .f32⟩
  | .hbm, ⟨101, _⟩ => ⟨S1600000x1, .i32⟩
  | .hbm, ⟨102, _⟩ => ⟨S100000x128, .f32⟩
  | .hbm, ⟨103, _⟩ => ⟨S1x128, .f32⟩
  | .hbm, ⟨104, _⟩ => ⟨S100000x1, .f32⟩
  | .hbm, ⟨105, _⟩ => ⟨S100000x128, .f32⟩
  | .hbm, ⟨106, _⟩ => ⟨S1x64, .f32⟩
  | .hbm, ⟨107, _⟩ => ⟨S100000x64, .f32⟩
  | .hbm, ⟨108, _⟩ => ⟨S100000x50, .f32⟩
  | .hbm, ⟨109, _⟩ => ⟨S_, .f32⟩
  | .hbm, ⟨110, _⟩ => ⟨S64x50, .f32⟩
  | .hbm, ⟨111, _⟩ => ⟨S100000x1, .i32⟩
  | .hbm, ⟨112, _⟩ => ⟨S64x50, .f32⟩
  | .hbm, ⟨113, _⟩ => ⟨S_, .f32⟩
  | .hbm, ⟨114, _⟩ => ⟨S100000, .f32⟩
  | .hbm, ⟨115, _⟩ => ⟨S_, .f32⟩
  | .hbm, ⟨116, _⟩ => ⟨S64, .f32⟩
  | .hbm, ⟨117, _⟩ => ⟨S100000x1, .i32⟩
  | .hbm, ⟨118, _⟩ => ⟨S64, .f32⟩
  | .hbm, ⟨119, _⟩ => ⟨S_, .f32⟩
  | .hbm, ⟨120, _⟩ => ⟨S64, .f32⟩
  | .hbm, ⟨121, _⟩ => ⟨S64, .f32⟩
  | .hbm, ⟨122, _⟩ => ⟨S64x1, .f32⟩
  | .hbm, ⟨123, _⟩ => ⟨S64x50, .f32⟩
  | .hbm, ⟨124, _⟩ => ⟨S64x50, .f32⟩
  | .hbm, ⟨125, _⟩ => ⟨S64x10, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S128x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x1, .f32⟩
  | .local _ .vmem, ⟨24, _⟩ => ⟨S5000x1, .f32⟩
  | .local _ .vmem, ⟨25, _⟩ => ⟨S1x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S128x128, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S5000x128, .f32⟩
  | .local _ .vmem, ⟨35, _⟩ => ⟨S5000x128, .f32⟩
  | .local _ .vmem, ⟨36, _⟩ => ⟨S5000x128, .f32⟩
  | .local _ .vmem, ⟨37, _⟩ => ⟨S5000x1, .f32⟩
  | .local _ .vmem, ⟨38, _⟩ => ⟨S5000x1, .f32⟩
  | .local _ .vmem, ⟨39, _⟩ => ⟨S1x128, .f32⟩
  | .local _ .vmem, ⟨40, _⟩ => ⟨S5000x128, .f32⟩
  | .local _ .vmem, ⟨41, _⟩ => ⟨S5000x128, .f32⟩
  | .local _ .vmem, ⟨42, _⟩ => ⟨S5000x128, .f32⟩
  | .local _ .vmem, ⟨43, _⟩ => ⟨S5000x128, .f32⟩
  | .local _ .vmem, ⟨44, _⟩ => ⟨S128x64, .f32⟩
  | .local _ .vmem, ⟨45, _⟩ => ⟨S1x64, .f32⟩
  | .local _ .vmem, ⟨46, _⟩ => ⟨S64x50, .f32⟩
  | .local _ .vmem, ⟨47, _⟩ => ⟨S5000x64, .f32⟩
  | .local _ .vmem, ⟨48, _⟩ => ⟨S5000x64, .f32⟩
  | .local _ .vmem, ⟨49, _⟩ => ⟨S5000x50, .f32⟩
  | .local _ .vmem, ⟨50, _⟩ => ⟨S5000x50, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | _, _ => false

abbrev semScoped : Fin 0 → Bool
  | ⟨_, h⟩ => absurd h (Nat.not_lt_zero _)

abbrev dmaSemScoped : Fin 51 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | _ => false

abbrev sig : RefSig :=
  ofTc nBuf bufTy 0 51 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_cst_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst_1 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_c : Ref sig .tc := ⟨.hbm, 24, rfl⟩
abbrev main_v7 : Ref sig .tc := ⟨.hbm, 25, rfl⟩
abbrev main_v8 : Ref sig .tc := ⟨.hbm, 26, rfl⟩
abbrev main_c_2 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_c_3 : Ref sig .tc := ⟨.hbm, 33, rfl⟩
abbrev main_v14 : Ref sig .tc := ⟨.hbm, 34, rfl⟩
abbrev main_v15 : Ref sig .tc := ⟨.hbm, 35, rfl⟩
abbrev main_c_4 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_cst_5 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_c_6 : Ref sig .tc := ⟨.hbm, 47, rfl⟩
abbrev main_v25 : Ref sig .tc := ⟨.hbm, 48, rfl⟩
abbrev main_v26 : Ref sig .tc := ⟨.hbm, 49, rfl⟩
abbrev main_c_7 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_cst_8 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_c_9 : Ref sig .tc := ⟨.hbm, 67, rfl⟩
abbrev main_v42 : Ref sig .tc := ⟨.hbm, 68, rfl⟩
abbrev main_v43 : Ref sig .tc := ⟨.hbm, 69, rfl⟩
abbrev main_c_10 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_cst_11 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_c_12 : Ref sig .tc := ⟨.hbm, 87, rfl⟩
abbrev main_v59 : Ref sig .tc := ⟨.hbm, 88, rfl⟩
abbrev main_v60 : Ref sig .tc := ⟨.hbm, 89, rfl⟩
abbrev main_c_13 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_cst_14 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76_0 : Ref sig .tc := ⟨.hbm, 107, rfl⟩
abbrev main_v76_1 : Ref sig .tc := ⟨.hbm, 108, rfl⟩
abbrev main_cst_15 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_cst_16 : Ref sig .tc := ⟨.hbm, 113, rfl⟩
abbrev main_v80 : Ref sig .tc := ⟨.hbm, 114, rfl⟩
abbrev main_cst_17 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_cst_18 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg2_1 : Ref sig .tc := ⟨.vmem, 32, rfl⟩
abbrev cc5_stg0_0 : Ref sig .tc := ⟨.vmem, 33, rfl⟩
abbrev cc5_stg0_1 : Ref sig .tc := ⟨.vmem, 34, rfl⟩
abbrev cc5_stg1_0 : Ref sig .tc := ⟨.vmem, 35, rfl⟩
abbrev cc5_stg1_1 : Ref sig .tc := ⟨.vmem, 36, rfl⟩
abbrev cc5_stg2_0 : Ref sig .tc := ⟨.vmem, 37, rfl⟩
abbrev cc5_stg2_1 : Ref sig .tc := ⟨.vmem, 38, rfl⟩
abbrev cc5_stg3_0 : Ref sig .tc := ⟨.vmem, 39, rfl⟩
abbrev cc5_stg4_0 : Ref sig .tc := ⟨.vmem, 40, rfl⟩
abbrev cc5_stg4_1 : Ref sig .tc := ⟨.vmem, 41, rfl⟩
abbrev cc6_stg0_0 : Ref sig .tc := ⟨.vmem, 42, rfl⟩
abbrev cc6_stg0_1 : Ref sig .tc := ⟨.vmem, 43, rfl⟩
abbrev cc6_stg1_0 : Ref sig .tc := ⟨.vmem, 44, rfl⟩
abbrev cc6_stg2_0 : Ref sig .tc := ⟨.vmem, 45, rfl⟩
abbrev cc6_stg3_0 : Ref sig .tc := ⟨.vmem, 46, rfl⟩
abbrev cc6_stg4_0 : Ref sig .tc := ⟨.vmem, 47, rfl⟩
abbrev cc6_stg4_1 : Ref sig .tc := ⟨.vmem, 48, rfl⟩
abbrev cc6_stg5_0 : Ref sig .tc := ⟨.vmem, 49, rfl⟩
abbrev cc6_stg5_1 : Ref sig .tc := ⟨.vmem, 50, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem2_1 : DmaSem sig := 32
abbrev cc5_sem0_0 : DmaSem sig := 33
abbrev cc5_sem0_1 : DmaSem sig := 34
abbrev cc5_sem1_0 : DmaSem sig := 35
abbrev cc5_sem1_1 : DmaSem sig := 36
abbrev cc5_sem2_0 : DmaSem sig := 37
abbrev cc5_sem2_1 : DmaSem sig := 38
abbrev cc5_sem3_0 : DmaSem sig := 39
abbrev cc5_sem4_0 : DmaSem sig := 40
abbrev cc5_sem4_1 : DmaSem sig := 41
abbrev cc6_sem0_0 : DmaSem sig := 42
abbrev cc6_sem0_1 : DmaSem sig := 43
abbrev cc6_sem1_0 : DmaSem sig := 44
abbrev cc6_sem2_0 : DmaSem sig := 45
abbrev cc6_sem3_0 : DmaSem sig := 46
abbrev cc6_sem4_0 : DmaSem sig := 47
abbrev cc6_sem4_1 : DmaSem sig := 48
abbrev cc6_sem5_0 : DmaSem sig := 49
abbrev cc6_sem5_1 : DmaSem sig := 50

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S5000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S5000x128 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S64x50 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 2 → Memref sig .tc .vmem S5000x64 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev stage6_5 : Fin 2 → Memref sig .tc .vmem S5000x50 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S128_S1x128 : S128.ShapeCasts S1x128
  shapeCasts_S100000_S100000x1 : S100000.ShapeCasts S100000x1
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S5000x1_S5000x128 : S5000x1.Broadcasts S5000x128
  broadcasts_S1x128_S5000x128 : S1x128.Broadcasts S5000x128
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  reduces_S5000x64_S5000 : S5000x64.Reduces [1] S5000
  shapeCasts_S5000_S5000x1 : S5000.ShapeCasts S5000x1
  inb_S64x50_S64x50_0_0 : ∀ a, (![0, 0] : Fin 2 → Nat) a + S64x50.size a ≤ S64x50.size a
  h_S64x50 : 0 < S64x50.numel
  broadcasts_S5000x1_S5000x50 : S5000x1.Broadcasts S5000x50
  inb_S5000x64_S5000x64_0_0 : ∀ a, (![0, 0] : Fin 2 → Nat) a + S5000x64.size a ≤ S5000x64.size a
  h_S5000x64 : 0 < S5000x64.numel
  inb_S5000x50_S5000x50_0_0 : ∀ a, (![0, 0] : Fin 2 → Nat) a + S5000x50.size a ≤ S5000x50.size a
  h_S5000x50 : 0 < S5000x50.numel
  bcast_S_S64x50 : S_.BroadcastsInDim S64x50 (![] : Fin 0 → Fin S64x50.rank)
  bcast_S100000_S100000x1_0 : S100000.BroadcastsInDim S100000x1 (![0] : Fin 1 → Fin S100000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x50_0_1 : S64x1.BroadcastsInDim S64x50 (![0, 1] : Fin 2 → Fin S64x50.rank)
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S5000x128_S128x128_S5000x128_1_0_0_1_n_n_wf : DotDims.WF S5000x128 S128x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x64_S5000x64_1_0_0_1_n_n_wf : DotDims.WF S5000x128 S128x64 S5000x64 [1] [0] [0] [1] [] []
  dot_S5000x64_S64x50_S5000x50_1_0_0_1_n_n_wf : DotDims.WF S5000x64 S64x50 S5000x50 [1] [0] [0] [1] [] []
  scatter_S64x50_S100000x1_S100000x50_1_0_0_1_wf : ScatterDims.WF S64x50 S100000x1 S100000x50 [1] [0] [0] 1
  scatter_S64_S100000x1_S100000_n_0_0_1_wf : ScatterDims.WF S64 S100000x1 S100000 [] [0] [0] 1
  dot_S64x50_S50x10_S64x10_1_0_0_1_n_n_wf : DotDims.WF S64x50 S50x10 S64x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S100000x128.size a
  hwx1_4 : ∀ i : grid1.Coords, EltTy.bits .f32 = 32 ∨ (Rect.block (s := S100000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S100000x128.size a
  hwx3_1 : ∀ i : grid3.Coords, EltTy.bits .f32 = 32 ∨ (Rect.block (s := S100000x128) S5000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S100000x1.size a
  hwx3_2 : ∀ i : grid3.Coords, EltTy.bits .f32 = 32 ∨ (Rect.block (s := S100000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x128.size a ≤ S100000x128.size a
  hwx3_4 : ∀ i : grid3.Coords, EltTy.bits .f32 = 32 ∨ (Rect.block (s := S100000x128) S5000x128.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S100000x128.size a
  hwx4_2 : ∀ i : grid4.Coords, EltTy.bits .f32 = 32 ∨ (Rect.block (s := S100000x128) S5000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x128.size a ≤ S100000x128.size a
  hwx5_1 : ∀ i : grid5.Coords, EltTy.bits .f32 = 32 ∨ (Rect.block (s := S100000x128) S5000x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x1.size a ≤ S100000x1.size a
  hwx5_2 : ∀ i : grid5.Coords, EltTy.bits .f32 = 32 ∨ (Rect.block (s := S100000x1) S5000x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S5000x128.size a ≤ S100000x128.size a
  hwx5_4 : ∀ i : grid5.Coords, EltTy.bits .f32 = 32 ∨ (Rect.block (s := S100000x128) S5000x128.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S100000x128.size a
  hwx6_0 : ∀ i : grid6.Coords, EltTy.bits .f32 = 32 ∨ (Rect.block (s := S100000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x64.size a ≤ S128x64.size a
  hwx6_1 : ∀ i : grid6.Coords, EltTy.bits .f32 = 32 ∨ (Rect.block (s := S128x64) S128x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x64.size a ≤ S1x64.size a
  hwx6_2 : ∀ i : grid6.Coords, EltTy.bits .f32 = 32 ∨ (Rect.block (s := S1x64) S1x64.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S64x50.size a ≤ S64x50.size a
  hwx6_3 : ∀ i : grid6.Coords, EltTy.bits .f32 = 32 ∨ (Rect.block (s := S64x50) S64x50.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S5000x64.size a ≤ S100000x64.size a
  hwx6_4 : ∀ i : grid6.Coords, EltTy.bits .f32 = 32 ∨ (Rect.block (s := S100000x64) S5000x64.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S5000x50.size a ≤ S100000x50.size a
  hwx6_5 : ∀ i : grid6.Coords, EltTy.bits .f32 = 32 ∨ (Rect.block (s := S100000x50) S5000x50.size (cc6_transform_5 i) (hinb6_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def dot_S5000x64_S64x50_S5000x50_1_0_0_1_n_n : DotDims S5000x64 S64x50 S5000x50 where
  lhsContracting := [1]
  rhsContracting := [0]
  lhsNonContracting := [0]
  rhsNonContracting := [1]
  lhsBatch := []
  rhsBatch := []
  wf := dot_S5000x64_S64x50_S5000x50_1_0_0_1_n_n_wf
def scatter_S64x50_S100000x1_S100000x50_1_0_0_1 : ScatterDims S64x50 S100000x1 S100000x50 where
  updateWindowDims := [1]
  insertedWindowDims := [0]
  scatterDimsToOperandDims := [0]
  indexVectorDim := 1
  wf := scatter_S64x50_S100000x1_S100000x50_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S64x50_S50x10_S64x10_1_0_0_1_n_n : DotDims S64x50 S50x10 S64x10 where
  lhsContracting := [1]
  rhsContracting := [0]
  lhsNonContracting := [0]
  rhsNonContracting := [1]
  lhsBatch := []
  rhsBatch := []
  wf := dot_S64x50_S50x10_S64x10_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v24) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v37) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v39) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v38) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v40) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v40) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v41) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v54) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v41) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v56) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v55) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v57) S5000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v57) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg8) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v58) S5000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v71) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v58) S5000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v73) S5000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v72) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v74) S5000x128.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v74) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg10) S128x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v75) S1x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_arg12) S64x50.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v76_0) S5000x64.size cc6_transform_4 reads6_4 true false 2 stage6_4 sem6_4
    hrank6 hreads6_4 hinb6_4 nbuf6_4 (Memref.isWhole_whole _) hwx6_4 hstage6_4

abbrev win6_5 : Pipeline.Window sig grid6 :=
  Pipeline.Window.ofSpec (Memref.whole main_v76_1) S5000x50.size cc6_transform_5 reads6_5 true false 2 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

class Facts : Prop extends Facts₀ where

variable [Facts]
-- ==== ReferenceIdeal.lean ====
abbrev S100000x128 : Shape := ⟨2, ![100000, 128]⟩
abbrev S1600000 : Shape := ⟨1, ![1600000]⟩
abbrev S100000 : Shape := ⟨1, ![100000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x50 : Shape := ⟨2, ![64, 50]⟩
abbrev S50x10 : Shape := ⟨2, ![50, 10]⟩
abbrev S_ : Shape := ⟨0, ![]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S100000x64 : Shape := ⟨2, ![100000, 64]⟩
abbrev S1x64 : Shape := ⟨2, ![1, 64]⟩
abbrev S100000x50 : Shape := ⟨2, ![100000, 50]⟩
abbrev S64x1 : Shape := ⟨2, ![64, 1]⟩
abbrev S64x10 : Shape := ⟨2, ![64, 10]⟩

abbrev nBuf : Space → Nat
  | .hbm => 223
  | .vmem => 0
  | .smem => 0
  | _ => 0

abbrev hbmTy0_0 (i : Nat) : BufTy := match i % 128 with
  | 0 => ⟨S100000x128, .f32⟩
  | 1 => ⟨S1600000, .i32⟩
  | 2 => ⟨S1600000, .i32⟩
  | 3 => ⟨S100000, .i32⟩
  | 4 => ⟨S128x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S128x64, .f32⟩
  | 11 => ⟨S64, .f32⟩
  | 12 => ⟨S64x50, .f32⟩
  | 13 => ⟨S50x10, .f32⟩
  | 14 => ⟨S100000x128, .f32⟩
  | 15 => ⟨S_, .f32⟩
  | 16 => ⟨S1600000, .f32⟩
  | 17 => ⟨S_, .f32⟩
  | 18 => ⟨S100000, .f32⟩
  | 19 => ⟨S1600000x1, .i32⟩
  | 20 => ⟨S100000, .f32⟩
  | 21 => ⟨S_, .f32⟩
  | 22 => ⟨S100000, .f32⟩
  | 23 => ⟨S100000, .f32⟩
  | 24 => ⟨S100000, .f32⟩
  | 25 => ⟨S_, .i32⟩
  | 26 => ⟨S1600000, .i32⟩
  | 27 => ⟨S1600000, .i1⟩
  | 28 => ⟨S_, .i32⟩
  | 29 => ⟨S1600000, .i32⟩
  | 30 => ⟨S1600000, .i32⟩
  | 31 => ⟨S1600000, .i32⟩
  | 32 => ⟨S1600000x1, .i32⟩
  | 33 => ⟨S1600000, .f32⟩
  | 34 => ⟨S_, .i32⟩
  | 35 => ⟨S1600000, .i32⟩
  | 36 => ⟨S1600000, .i1⟩
  | 37 => ⟨S_, .i32⟩
  | 38 => ⟨S1600000, .i32⟩
  | 39 => ⟨S1600000, .i32⟩
  | 40 => ⟨S1600000, .i32⟩
  | 41 => ⟨S1600000x1, .i32⟩
  | 42 => ⟨S1600000, .f32⟩
  | 43 => ⟨S1600000, .f32⟩
  | 44 => ⟨S_, .i32⟩
  | 45 => ⟨S1600000, .i32⟩
  | 46 => ⟨S1600000, .i1⟩
  | 47 => ⟨S_, .i32⟩
  | 48 => ⟨S1600000, .i32⟩
  | 49 => ⟨S1600000, .i32⟩
  | 50 => ⟨S1600000, .i32⟩
  | 51 => ⟨S1600000x1, .i32⟩
  | 52 => ⟨S1600000x128, .f32⟩
  | 53 => ⟨S1600000x1, .f32⟩
  | 54 => ⟨S1600000x128, .f32⟩
  | 55 => ⟨S1600000x128, .f32⟩
  | 56 => ⟨S_, .f32⟩
  | 57 => ⟨S100000x128, .f32⟩
  | 58 => ⟨S1600000x1, .i32⟩
  | 59 => ⟨S100000x128, .f32⟩
  | 60 => ⟨S_, .f32⟩
  | 61 => ⟨S100000, .f32⟩
  | 62 => ⟨S100000, .f32⟩
  | 63 => ⟨S100000x1, .f32⟩
  | 64 => ⟨S100000x128, .f32⟩
  | 65 => ⟨S100000x128, .f32⟩
  | 66 => ⟨S100000x128, .f32⟩
  | 67 => ⟨S1x128, .f32⟩
  | 68 => ⟨S100000x128, .f32⟩
  | 69 => ⟨S100000x128, .f32⟩
  | 70 => ⟨S_, .f32⟩
  | 71 => ⟨S100000x128, .f32⟩
  | 72 => ⟨S100000x128, .f32⟩
  | 73 => ⟨S100000x128, .f32⟩
  | 74 => ⟨S_, .f32⟩
  | 75 => ⟨S1600000, .f32⟩
  | 76 => ⟨S_, .f32⟩
  | 77 => ⟨S100000, .f32⟩
  | 78 => ⟨S1600000x1, .i32⟩
  | 79 => ⟨S100000, .f32⟩
  | 80 => ⟨S_, .f32⟩
  | 81 => ⟨S100000, .f32⟩
  | 82 => ⟨S100000, .f32⟩
  | 83 => ⟨S100000, .f32⟩
  | 84 => ⟨S_, .i32⟩
  | 85 => ⟨S1600000, .i32⟩
  | 86 => ⟨S1600000, .i1⟩
  | 87 => ⟨S_, .i32⟩
  | 88 => ⟨S1600000, .i32⟩
  | 89 => ⟨S1600000, .i32⟩
  | 90 => ⟨S1600000, .i32⟩
  | 91 => ⟨S1600000x1, .i32⟩
  | 92 => ⟨S1600000, .f32⟩
  | 93 => ⟨S_, .i32⟩
  | 94 => ⟨S1600000, .i32⟩
  | 95 => ⟨S1600000, .i1⟩
  | 96 => ⟨S_, .i32⟩
  | 97 => ⟨S1600000, .i32⟩
  | 98 => ⟨S1600000, .i32⟩
  | 99 => ⟨S1600000, .i32⟩
  | 100 => ⟨S1600000x1, .i32⟩
  | 101 => ⟨S1600000, .f32⟩
  | 102 => ⟨S1600000, .f32⟩
  | 103 => ⟨S_, .i32⟩
  | 104 => ⟨S1600000, .i32⟩
  | 105 => ⟨S1600000, .i1⟩
  | 106 => ⟨S_, .i32⟩
  | 107 => ⟨S1600000, .i32⟩
  | 108 => ⟨S1600000, .i32⟩
  | 109 => ⟨S1600000, .i32⟩
  | 110 => ⟨S1600000x1, .i32⟩
  | 111 => ⟨S1600000x128, .f32⟩
  | 112 => ⟨S1600000x1, .f32⟩
  | 113 => ⟨S1600000x128, .f32⟩
  | 114 => ⟨S1600000x128, .f32⟩
  | 115 => ⟨S_, .f32⟩
  | 116 => ⟨S100000x128, .f32⟩
  | 117 => ⟨S1600000x1, .i32⟩
  | 118 => ⟨S100000x128, .f32⟩
  | 119 => ⟨S_, .f32⟩
  | 120 => ⟨S100000, .f32⟩
  | 121 => ⟨S100000, .f32⟩
  | 122 => ⟨S100000x1, .f32⟩
  | 123 => ⟨S100000x128, .f32⟩
  | 124 => ⟨S100000x128, .f32⟩
  | 125 => ⟨S100000x128, .f32⟩
  | 126 => ⟨S1x128, .f32⟩
  | 127 => ⟨S100000x128, .f32⟩
  | _ => ⟨S100000x128, .f32⟩

abbrev hbmTy0_1 (i : Nat) : BufTy := match i % 128 with
  | 0 => ⟨S100000x128, .f32⟩
  | 1 => ⟨S_, .f32⟩
  | 2 => ⟨S100000x128, .f32⟩
  | 3 => ⟨S100000x128, .f32⟩
  | 4 => ⟨S100000x128, .f32⟩
  | 5 => ⟨S_, .f32⟩
  | 6 => ⟨S1600000, .f32⟩
  | 7 => ⟨S_, .f32⟩
  | 8 => ⟨S100000, .f32⟩
  | 9 => ⟨S1600000x1, .i32⟩
  | 10 => ⟨S100000, .f32⟩
  | 11 => ⟨S_, .f32⟩
  | 12 => ⟨S100000, .f32⟩
  | 13 => ⟨S100000, .f32⟩
  | 14 => ⟨S100000, .f32⟩
  | 15 => ⟨S_, .i32⟩
  | 16 => ⟨S1600000, .i32⟩
  | 17 => ⟨S1600000, .i1⟩
  | 18 => ⟨S_, .i32⟩
  | 19 => ⟨S1600000, .i32⟩
  | 20 => ⟨S1600000, .i32⟩
  | 21 => ⟨S1600000, .i32⟩
  | 22 => ⟨S1600000x1, .i32⟩
  | 23 => ⟨S1600000, .f32⟩
  | 24 => ⟨S_, .i32⟩
  | 25 => ⟨S1600000, .i32⟩
  | 26 => ⟨S1600000, .i1⟩
  | 27 => ⟨S_, .i32⟩
  | 28 => ⟨S1600000, .i32⟩
  | 29 => ⟨S1600000, .i32⟩
  | 30 => ⟨S1600000, .i32⟩
  | 31 => ⟨S1600000x1, .i32⟩
  | 32 => ⟨S1600000, .f32⟩
  | 33 => ⟨S1600000, .f32⟩
  | 34 => ⟨S_, .i32⟩
  | 35 => ⟨S1600000, .i32⟩
  | 36 => ⟨S1600000, .i1⟩
  | 37 => ⟨S_, .i32⟩
  | 38 => ⟨S1600000, .i32⟩
  | 39 => ⟨S1600000, .i32⟩
  | 40 => ⟨S1600000, .i32⟩
  | 41 => ⟨S1600000x1, .i32⟩
  | 42 => ⟨S1600000x128, .f32⟩
  | 43 => ⟨S1600000x1, .f32⟩
  | 44 => ⟨S1600000x128, .f32⟩
  | 45 => ⟨S1600000x128, .f32⟩
  | 46 => ⟨S_, .f32⟩
  | 47 => ⟨S100000x128, .f32⟩
  | 48 => ⟨S1600000x1, .i32⟩
  | 49 => ⟨S100000x128, .f32⟩
  | 50 => ⟨S_, .f32⟩
  | 51 => ⟨S100000, .f32⟩
  | 52 => ⟨S100000, .f32⟩
  | 53 => ⟨S100000x1, .f32⟩
  | 54 => ⟨S100000x128, .f32⟩
  | 55 => ⟨S100000x128, .f32⟩
  | 56 => ⟨S100000x128, .f32⟩
  | 57 => ⟨S1x128, .f32⟩
  | 58 => ⟨S100000x128, .f32⟩
  | 59 => ⟨S100000x128, .f32⟩
  | 60 => ⟨S_, .f32⟩
  | 61 => ⟨S100000x128, .f32⟩
  | 62 => ⟨S100000x128, .f32⟩
  | 63 => ⟨S100000x64, .f32⟩
  | 64 => ⟨S1x64, .f32⟩
  | 65 => ⟨S100000x64, .f32⟩
  | 66 => ⟨S100000x64, .f32⟩
  | 67 => ⟨S100000x64, .f32⟩
  | 68 => ⟨S_, .f32⟩
  | 69 => ⟨S100000, .f32⟩
  | 70 => ⟨S100000x1, .f32⟩
  | 71 => ⟨S100000x1, .f32⟩
  | 72 => ⟨S_, .f32⟩
  | 73 => ⟨S100000x1, .f32⟩
  | 74 => ⟨S100000x1, .f32⟩
  | 75 => ⟨S100000x50, .f32⟩
  | 76 => ⟨S100000x50, .f32⟩
  | 77 => ⟨S100000x50, .f32⟩
  | 78 => ⟨S_, .f32⟩
  | 79 => ⟨S64x50, .f32⟩
  | 80 => ⟨S100000x1, .i32⟩
  | 81 => ⟨S64x50, .f32⟩
  | 82 => ⟨S_, .f32⟩
  | 83 => ⟨S100000, .f32⟩
  | 84 => ⟨S_, .f32⟩
  | 85 => ⟨S64, .f32⟩
  | 86 => ⟨S100000x1, .i32⟩
  | 87 => ⟨S64, .f32⟩
  | 88 => ⟨S_, .f32⟩
  | 89 => ⟨S64, .f32⟩
  | 90 => ⟨S64, .f32⟩
  | 91 => ⟨S64x1, .f32⟩
  | 92 => ⟨S64x50, .f32⟩
  | 93 => ⟨S64x50, .f32⟩
  | 94 => ⟨S64x10, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_cst : Ref sig .tc := ⟨.hbm, 15, rfl⟩
abbrev main_v1 : Ref sig .tc := ⟨.hbm, 16, rfl⟩
abbrev main_cst_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_cst_1 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_c : Ref sig .tc := ⟨.hbm, 25, rfl⟩
abbrev main_v8 : Ref sig .tc := ⟨.hbm, 26, rfl⟩
abbrev main_v9 : Ref sig .tc := ⟨.hbm, 27, rfl⟩
abbrev main_c_2 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_c_3 : Ref sig .tc := ⟨.hbm, 34, rfl⟩
abbrev main_v15 : Ref sig .tc := ⟨.hbm, 35, rfl⟩
abbrev main_v16 : Ref sig .tc := ⟨.hbm, 36, rfl⟩
abbrev main_c_4 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_c_5 : Ref sig .tc := ⟨.hbm, 44, rfl⟩
abbrev main_v23 : Ref sig .tc := ⟨.hbm, 45, rfl⟩
abbrev main_v24 : Ref sig .tc := ⟨.hbm, 46, rfl⟩
abbrev main_c_6 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_cst_7 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_cst_8 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_call0_cst : Ref sig .tc := ⟨.hbm, 70, rfl⟩
abbrev main_call0_v0 : Ref sig .tc := ⟨.hbm, 71, rfl⟩
abbrev main_v45 : Ref sig .tc := ⟨.hbm, 72, rfl⟩
abbrev main_v46 : Ref sig .tc := ⟨.hbm, 73, rfl⟩
abbrev main_cst_9 : Ref sig .tc := ⟨.hbm, 74, rfl⟩
abbrev main_v47 : Ref sig .tc := ⟨.hbm, 75, rfl⟩
abbrev main_cst_10 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_cst_11 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_c_12 : Ref sig .tc := ⟨.hbm, 84, rfl⟩
abbrev main_v54 : Ref sig .tc := ⟨.hbm, 85, rfl⟩
abbrev main_v55 : Ref sig .tc := ⟨.hbm, 86, rfl⟩
abbrev main_c_13 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_c_14 : Ref sig .tc := ⟨.hbm, 93, rfl⟩
abbrev main_v61 : Ref sig .tc := ⟨.hbm, 94, rfl⟩
abbrev main_v62 : Ref sig .tc := ⟨.hbm, 95, rfl⟩
abbrev main_c_15 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_c_16 : Ref sig .tc := ⟨.hbm, 103, rfl⟩
abbrev main_v69 : Ref sig .tc := ⟨.hbm, 104, rfl⟩
abbrev main_v70 : Ref sig .tc := ⟨.hbm, 105, rfl⟩
abbrev main_c_17 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_cst_18 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_cst_19 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_call1_cst : Ref sig .tc := ⟨.hbm, 129, rfl⟩
abbrev main_call1_v0 : Ref sig .tc := ⟨.hbm, 130, rfl⟩
abbrev main_v91 : Ref sig .tc := ⟨.hbm, 131, rfl⟩
abbrev main_v92 : Ref sig .tc := ⟨.hbm, 132, rfl⟩
abbrev main_cst_20 : Ref sig .tc := ⟨.hbm, 133, rfl⟩
abbrev main_v93 : Ref sig .tc := ⟨.hbm, 134, rfl⟩
abbrev main_cst_21 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_cst_22 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_c_23 : Ref sig .tc := ⟨.hbm, 143, rfl⟩
abbrev main_v100 : Ref sig .tc := ⟨.hbm, 144, rfl⟩
abbrev main_v101 : Ref sig .tc := ⟨.hbm, 145, rfl⟩
abbrev main_c_24 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_c_25 : Ref sig .tc := ⟨.hbm, 152, rfl⟩
abbrev main_v107 : Ref sig .tc := ⟨.hbm, 153, rfl⟩
abbrev main_v108 : Ref sig .tc := ⟨.hbm, 154, rfl⟩
abbrev main_c_26 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_c_27 : Ref sig .tc := ⟨.hbm, 162, rfl⟩
abbrev main_v115 : Ref sig .tc := ⟨.hbm, 163, rfl⟩
abbrev main_v116 : Ref sig .tc := ⟨.hbm, 164, rfl⟩
abbrev main_c_28 : Ref sig .tc := ⟨.hbm, 165, rfl⟩
abbrev main_v117 : Ref sig .tc := ⟨.hbm, 166, rfl⟩
abbrev main_v118 : Ref sig .tc := ⟨.hbm, 167, rfl⟩
abbrev main_v119 : Ref sig .tc := ⟨.hbm, 168, rfl⟩
abbrev main_v120 : Ref sig .tc := ⟨.hbm, 169, rfl⟩
abbrev main_v121 : Ref sig .tc := ⟨.hbm, 170, rfl⟩
abbrev main_v122 : Ref sig .tc := ⟨.hbm, 171, rfl⟩
abbrev main_v123 : Ref sig .tc := ⟨.hbm, 172, rfl⟩
abbrev main_v124 : Ref sig .tc := ⟨.hbm, 173, rfl⟩
abbrev main_cst_29 : Ref sig .tc := ⟨.hbm, 174, rfl⟩
abbrev main_v125 : Ref sig .tc := ⟨.hbm, 175, rfl⟩
abbrev main_v126 : Ref sig .tc := ⟨.hbm, 176, rfl⟩
abbrev main_v127 : Ref sig .tc := ⟨.hbm, 177, rfl⟩
abbrev main_cst_30 : Ref sig .tc := ⟨.hbm, 178, rfl⟩
abbrev main_v128 : Ref sig .tc := ⟨.hbm, 179, rfl⟩
abbrev main_v129 : Ref sig .tc := ⟨.hbm, 180, rfl⟩
abbrev main_v130 : Ref sig .tc := ⟨.hbm, 181, rfl⟩
abbrev main_v131 : Ref sig .tc := ⟨.hbm, 182, rfl⟩
abbrev main_v132 : Ref sig .tc := ⟨.hbm, 183, rfl⟩
abbrev main_v133 : Ref sig .tc := ⟨.hbm, 184, rfl⟩
abbrev main_v134 : Ref sig .tc := ⟨.hbm, 185, rfl⟩
abbrev main_v135 : Ref sig .tc := ⟨.hbm, 186, rfl⟩
abbrev main_v136 : Ref sig .tc := ⟨.hbm, 187, rfl⟩
abbrev main_call2_cst : Ref sig .tc := ⟨.hbm, 188, rfl⟩
abbrev main_call2_v0 : Ref sig .tc := ⟨.hbm, 189, rfl⟩
abbrev main_v137 : Ref sig .tc := ⟨.hbm, 190, rfl⟩
abbrev main_v138 : Ref sig .tc := ⟨.hbm, 191, rfl⟩
abbrev main_v139 : Ref sig .tc := ⟨.hbm, 192, rfl⟩
abbrev main_v140 : Ref sig .tc := ⟨.hbm, 193, rfl⟩
abbrev main_v141 : Ref sig .tc := ⟨.hbm, 194, rfl⟩
abbrev main_call3_v0 : Ref sig .tc := ⟨.hbm, 195, rfl⟩
abbrev main_call3_cst : Ref sig .tc := ⟨.hbm, 196, rfl⟩
abbrev main_call3_v1 : Ref sig .tc := ⟨.hbm, 197, rfl⟩
abbrev main_call3_v2 : Ref sig .tc := ⟨.hbm, 198, rfl⟩
abbrev main_v142 : Ref sig .tc := ⟨.hbm, 199, rfl⟩
abbrev main_cst_31 : Ref sig .tc := ⟨.hbm, 200, rfl⟩
abbrev main_v143 : Ref sig .tc := ⟨.hbm, 201, rfl⟩
abbrev main_v144 : Ref sig .tc := ⟨.hbm, 202, rfl⟩
abbrev main_v145 : Ref sig .tc := ⟨.hbm, 203, rfl⟩
abbrev main_v146 : Ref sig .tc := ⟨.hbm, 204, rfl⟩
abbrev main_v147 : Ref sig .tc := ⟨.hbm, 205, rfl⟩
abbrev main_cst_32 : Ref sig .tc := ⟨.hbm, 206, rfl⟩
abbrev main_v148 : Ref sig .tc := ⟨.hbm, 207, rfl⟩
abbrev main_v149 : Ref sig .tc := ⟨.hbm, 208, rfl⟩
abbrev main_v150 : Ref sig .tc := ⟨.hbm, 209, rfl⟩
abbrev main_cst_33 : Ref sig .tc := ⟨.hbm, 210, rfl⟩
abbrev main_v151 : Ref sig .tc := ⟨.hbm, 211, rfl⟩
abbrev main_cst_34 : Ref sig .tc := ⟨.hbm, 212, rfl⟩
abbrev main_v152 : Ref sig .tc := ⟨.hbm, 213, rfl⟩
abbrev main_v153 : Ref sig .tc := ⟨.hbm, 214, rfl⟩
abbrev main_v154 : Ref sig .tc := ⟨.hbm, 215, rfl⟩
abbrev main_cst_35 : Ref sig .tc := ⟨.hbm, 216, rfl⟩
abbrev main_v155 : Ref sig .tc := ⟨.hbm, 217, rfl⟩
abbrev main_v156 : Ref sig .tc := ⟨.hbm, 218, rfl⟩
abbrev main_v157 : Ref sig .tc := ⟨.hbm, 219, rfl⟩
abbrev main_v158 : Ref sig .tc := ⟨.hbm, 220, rfl⟩
abbrev main_v159 : Ref sig .tc := ⟨.hbm, 221, rfl⟩
abbrev main_v160 : Ref sig .tc := ⟨.hbm, 222, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S100000_d1 : S100000x64.ReducesTo [1] S100000
  h_S_ : 0 < S_.numel
  bcast_S_S100000x1 : S_.BroadcastsInDim S100000x1 (![] : Fin 0 → Fin S100000x1.rank)
  bcast_S100000x1_S100000x50_0_1 : S100000x1.BroadcastsInDim S100000x50 (![0, 1] : Fin 2 → Fin S100000x50.rank)
  bcast_S_S64x50 : S_.BroadcastsInDim S64x50 (![] : Fin 0 → Fin S64x50.rank)
  bcast_S_S64 : S_.BroadcastsInDim S64 (![] : Fin 0 → Fin S64.rank)
  bcast_S64_S64x1_0 : S64.BroadcastsInDim S64x1 (![0] : Fin 1 → Fin S64x1.rank)
  bcast_S64x1_S64x50_0_1 : S64x1.BroadcastsInDim S64x50 (![0, 1] : Fin 2 → Fin S64x50.rank)
  dot_S100000x128_S128x128_S100000x128_1_0_0_1_n_n_wf : DotDims.WF S100000x128 S128x128 S100000x128 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x64_S100000x64_1_0_0_1_n_n_wf : DotDims.WF S100000x128 S128x64 S100000x64 [1] [0] [0] [1] [] []
  dot_S100000x64_S64x50_S100000x50_1_0_0_1_n_n_wf : DotDims.WF S100000x64 S64x50 S100000x50 [1] [0] [0] [1] [] []
  scatter_S64x50_S100000x1_S100000x50_1_0_0_1_wf : ScatterDims.WF S64x50 S100000x1 S100000x50 [1] [0] [0] 1
  scatter_S64_S100000x1_S100000_n_0_0_1_wf : ScatterDims.WF S64 S100000x1 S100000 [] [0] [0] 1
  dot_S64x50_S50x10_S64x10_1_0_0_1_n_n_wf : DotDims.WF S64x50 S50x10 S64x10 [1] [0] [0] [1] [] []

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def dot_S100000x64_S64x50_S100000x50_1_0_0_1_n_n : DotDims S100000x64 S64x50 S100000x50 where
  lhsContracting := [1]
  rhsContracting := [0]
  lhsNonContracting := [0]
  rhsNonContracting := [1]
  lhsBatch := []
  rhsBatch := []
  wf := dot_S100000x64_S64x50_S100000x50_1_0_0_1_n_n_wf
def scatter_S64x50_S100000x1_S100000x50_1_0_0_1 : ScatterDims S64x50 S100000x1 S100000x50 where
  updateWindowDims := [1]
  insertedWindowDims := [0]
  scatterDimsToOperandDims := [0]
  indexVectorDim := 1
  wf := scatter_S64x50_S100000x1_S100000x50_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S64x50_S50x10_S64x10_1_0_0_1_n_n : DotDims S64x50 S50x10 S64x10 where
  lhsContracting := [1]
  rhsContracting := [0]
  lhsNonContracting := [0]
  rhsNonContracting := [1]
  lhsBatch := []
  rhsBatch := []
  wf := dot_S64x50_S50x10_S64x10_1_0_0_1_n_n_wf

class Facts : Prop extends Facts₀ where

variable [Facts]
-- ==== Proof.KernelRun.lean ====
/-
  The idealized kernel's run with its final memory named. The program is seven tiled regions among stretches of host
  operations; the contents of every buffer at each boundary between two segments is a fold from the launch memory
  (`Gen.W1` … `Gen.W13`: a stretch applies its operations, a region replaces its arrays by what its write-backs leave).
  Every weakly fair execution terminates, nothing faulting, and every buffer that is not scoped to a region ends at the
  last boundary's contents, `Gen.W13`. The value proof reads the three results and the arguments off this.
-/
import proofs.«136587_j28235115004171_1_alg».proof.Proof.Gen.KernelIdeal.Frame

set_option maxRecDepth 16384

noncomputable section

namespace Cert.KernelIdeal.WholeRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of the thirteen segments from the launch memory: every unscoped buffer ends at `W13`. -/
theorem run_end : θ_run defs (onTc (τ := τ) (main (F := F))) ⟨m, fun _ => 0, ρ⟩ (fun r => ∀ c : Dev nD,
      ∀ b : Ref sig .tc, ¬ (Proc.devRef .tc b : DevRef τ sig).isScoped →
        r.2.mem ((c.tc : Thread nD τ).loc b) = W13 m ρ c (Proc.devRef .tc b)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c b hb => h c _ (mem_uc b hb))

end Cert.KernelIdeal.WholeRun

end
-- ==== Proof.LibPlainDot.lean ====
/-
  A plain matrix product — rows × contraction times contraction × columns, one contracted axis, no batch axis — read at
  an index, for arbitrary extents and any record of dimension numbers of that form (the form is a hypothesis,
  `IsPlain`, which a literal record meets by `rfl`s). At the exact values both the host's product and a tile product
  accumulated into zero are the plain sum over the contracted coordinate, `∑ k, x (r, k) · w (k, c)`. Consequence: a
  block of rows of a product is the product of that block of rows (`matmul_rows_eq_dotGeneral`).
-/
import Idealize.ShloMosaic.Lib.ValueIdx
import Idealize.ShloMosaic.PureOps.Ideal.Laws

noncomputable section

open scoped BigOperators

namespace Cert.Gcn.PlainDot

open Idealize.ShloMosaic Idealize.ShloMosaic.ValueIdx

variable {M K N : ℕ}

/-- The dimension numbers of a plain product of an `[M, K]` by a `[K, N]` array: axis 1 of the left operand contracted
    with axis 0 of the right one, the rows and the columns kept in that order, no batch axis. -/
structure IsPlain (d : DotDims ⟨2, ![M, K]⟩ ⟨2, ![K, N]⟩ ⟨2, ![M, N]⟩) : Prop where
  lc : d.lhsContracting = [⟨1, Nat.one_lt_two⟩]
  rc : d.rhsContracting = [⟨0, Nat.zero_lt_two⟩]
  ln : d.lhsNonContracting = [⟨0, Nat.zero_lt_two⟩]
  rn : d.rhsNonContracting = [⟨1, Nat.one_lt_two⟩]
  lb : d.lhsBatch = []
  rb : d.rhsBatch = []
  cr : d.contr.rank = 1
  cs : d.contr.size ⟨0, by omega⟩ = K

variable {d : DotDims ⟨2, ![M, K]⟩ ⟨2, ![K, N]⟩ ⟨2, ![M, N]⟩}

private theorem coord_congr {s : Shape} (j : s.Idx) (p p' : ℕ) (hp : p < s.rank) (hp' : p' < s.rank) (h : p = p') :
    (j ⟨p, hp⟩).val = (j ⟨p', hp'⟩).val := by subst h; rfl

/-- The left operand's index at result index `j` and contraction position `q`: row `j 0`, column the position. -/
theorem lhsIdx_eq (hd : IsPlain d) (j : (⟨2, ![M, N]⟩ : Shape).Idx) (q : d.contr.Idx) (k : Fin K)
    (hq : (q ⟨0, by rw [hd.cr]; exact Nat.one_pos⟩).val = k.val) : d.lhsIdx j q = ix2 (j 0) k := by
  funext a
  apply Fin.ext
  match a with
  | ⟨0, h0⟩ =>
    have hb : (⟨0, h0⟩ : Fin (⟨2, ![M, K]⟩ : Shape).rank) ∉ d.lhsBatch := by rw [hd.lb]; exact List.not_mem_nil
    have hn : (⟨0, h0⟩ : Fin (⟨2, ![M, K]⟩ : Shape).rank) ∈ d.lhsNonContracting := by
      rw [hd.ln]; exact List.mem_singleton.mpr rfl
    unfold DotDims.lhsIdx
    rw [dif_neg hb, dif_pos hn]
    simp only [Fin.val_cast]
    exact coord_congr j _ _ _ _ (by rw [hd.lb, hd.ln]; rfl)
  | ⟨1, h1⟩ => exact (d.lhsIdx_val_of_single hd.lc j q).trans hq

/-- The right operand's index at result index `j` and contraction position `q`: row the position, column `j 1`. -/
theorem rhsIdx_eq (hd : IsPlain d) (j : (⟨2, ![M, N]⟩ : Shape).Idx) (q : d.contr.Idx) (k : Fin K)
    (hq : (q ⟨0, by rw [hd.cr]; exact Nat.one_pos⟩).val = k.val) : d.rhsIdx j q = ix2 k (j 1) := by
  funext a
  apply Fin.ext
  match a with
  | ⟨0, h0⟩ => exact (d.rhsIdx_val_of_single hd.rc j q).trans hq
  | ⟨1, h1⟩ =>
    have hb : (⟨1, h1⟩ : Fin (⟨2, ![K, N]⟩ : Shape).rank) ∉ d.rhsBatch := by rw [hd.rb]; exact List.not_mem_nil
    have hn : (⟨1, h1⟩ : Fin (⟨2, ![K, N]⟩ : Shape).rank) ∈ d.rhsNonContracting := by
      rw [hd.rn]; exact List.mem_singleton.mpr rfl
    unfold DotDims.rhsIdx
    rw [dif_neg hb, dif_pos hn]
    simp only [Fin.val_cast]
    exact coord_congr j _ _ _ _ (by rw [hd.lb, hd.ln, hd.rn]; rfl)

/-- The sum over the contraction positions of a plain product is the sum over the contracted coordinate. -/
theorem sum_contr (hd : IsPlain d) (j : (⟨2, ![M, N]⟩ : Shape).Idx) (x : (⟨2, ![M, K]⟩ : Shape).Idx → EReal)
    (w : (⟨2, ![K, N]⟩ : Shape).Idx → EReal) :
    ∑ q : d.contr.Idx, x (d.lhsIdx j q) * w (d.rhsIdx j q) = ∑ k : Fin K, x (ix2 (j 0) k) * w (ix2 k (j 1)) := by
  rw [← Equiv.sum_comp (contrEquiv1 d K hd.cr hd.cs).symm]
  refine Finset.sum_congr rfl fun k _ => ?_
  have hk := contrEquiv1_symm_val d K hd.cr hd.cs k
  rw [lhsIdx_eq hd j _ k hk, rhsIdx_eq hd j _ k hk]
  rfl

/-- The host's plain product at `(r, c)`, exactly: `∑ k, x (r, k) · w (k, c)`. -/
theorem dotGeneral_apply (hd : IsPlain d) {φ₁ φ₂ : FTy} (prec : Option ContractPrecision)
    (x : FVec Ideal ⟨2, ![M, K]⟩ φ₁) (w : FVec Ideal ⟨2, ![K, N]⟩ φ₂) (j : (⟨2, ![M, N]⟩ : Shape).Idx) :
    Host.dotGeneral d prec x w j = ∑ k : Fin K, (x (ix2 (j 0) k) : EReal) * (w (ix2 k (j 1)) : EReal) := by
  simp only [Host.dotGeneral]
  rw [Ideal.dotGeneral_apply]
  exact sum_contr hd j x w

/-- A tile product accumulated into the zero tile, at `(r, c)`, exactly: the same sum. -/
theorem matmul_zero_apply (hd : IsPlain d) {φ₁ φ₂ : FTy} (prec : Option ContractPrecision)
    (x : FVec Ideal ⟨2, ![M, K]⟩ φ₁) (w : FVec Ideal ⟨2, ![K, N]⟩ φ₂) (j : (⟨2, ![M, N]⟩ : Shape).Idx) :
    matmul d prec x w (constant ⟨2, ![M, N]⟩ .f32 0x00000000#32) j
      = ∑ k : Fin K, (x (ix2 (j 0) k) : EReal) * (w (ix2 k (j 1)) : EReal) := by
  simp only [matmul]
  rw [Ideal.matmul_constant_zero_apply]
  exact sum_contr hd j x w

/-- A BLOCK OF ROWS OF A PRODUCT IS THE PRODUCT OF THE BLOCK OF ROWS: if row `p` of the tile `xb` is row `r` of the
    array `x`, and the tile `wb` is the array `w`, then the tile product into zero at `(p, c)` is the host's product
    of the whole arrays at `(r, c)` — the contraction runs over the whole shared axis on both sides. -/
theorem matmul_rows_eq_dotGeneral {B : ℕ} {dB : DotDims ⟨2, ![B, K]⟩ ⟨2, ![K, N]⟩ ⟨2, ![B, N]⟩} (hB : IsPlain dB)
    (hd : IsPlain d) {φ₁ φ₂ ψ₁ ψ₂ : FTy} (prec prec' : Option ContractPrecision)
    (xb : FVec Ideal ⟨2, ![B, K]⟩ φ₁) (wb : FVec Ideal ⟨2, ![K, N]⟩ φ₂)
    (x : FVec Ideal ⟨2, ![M, K]⟩ ψ₁) (w : FVec Ideal ⟨2, ![K, N]⟩ ψ₂) (p : Fin B) (r : Fin M) (c : Fin N)
    (hx : ∀ k : Fin K, (xb (ix2 p k) : EReal) = x (ix2 r k)) (hw : ∀ k : Fin K, (wb (ix2 k c) : EReal) = w (ix2 k c)) :
    matmul dB prec xb wb (constant ⟨2, ![B, N]⟩ .f32 0x00000000#32) (ix2 p c) = Host.dotGeneral d prec' x w (ix2 r c) := by
  rw [matmul_zero_apply hB, dotGeneral_apply hd]
  exact Finset.sum_congr rfl fun k _ => by
    show (xb (ix2 p k) : EReal) * wb (ix2 k c) = x (ix2 r k) * w (ix2 k c)
    rw [hx k, hw k]

end Cert.Gcn.PlainDot
-- ==== Proof.Region0.lean ====
/-
  Region 0: a dense layer's matrix product, tiled over the nodes. Grid point `t` stages rows
  `5000·t … 5000·t + 4999` of the node array and the whole weight array, and writes back the product of that block of
  rows with the weights. A row of a product depends on that row alone, and the contraction runs over the whole shared
  axis on both sides, so the blocks written back are the blocks of the ONE product of the whole arrays; the twenty
  blocks tile the result, which therefore ends as the host's product of the region's two input arrays.
-/
import proofs.«136587_j28235115004171_1_alg».proof.Proof.Gen.KernelIdeal.Frame
import proofs.«136587_j28235115004171_1_alg».proof.Proof.Gen.ReferenceIdeal
import proofs.«136587_j28235115004171_1_alg».proof.Proof.LibPlainDot
import Idealize.ShloMosaic.Lib.Pipeline.Value
import Idealize.ShloMosaic.Lib.ValueIdx

set_option maxRecDepth 16384

noncomputable section

namespace Cert.KernelIdeal.Region0

open Cert.KernelIdeal Cert.KernelIdeal.Gen
open Idealize.ShloMosaic Idealize.ShloMosaic.TcCoe Idealize.ShloMosaic.ValueIdx Idealize.SL.Sem
open Idealize.ShloMosaic.Pipeline (Dat)
open Cert.Gcn

variable (V : (c : Dev nD) → (b : Ref sig .tc) → Buf (Elt Ideal) ((c : Thread nD τ).loc b))

/-- The whole product's dimension numbers: the reference's, for `[100000, 128] × [128, 128]`. -/
abbrev whole := Cert.ReferenceIdeal.dot_S100000x128_S128x128_S100000x128_1_0_0_1_n_n

theorem whole_plain : PlainDot.IsPlain (M := 100000) (K := 128) (N := 128) whole :=
  ⟨rfl, rfl, rfl, rfl, rfl, rfl, rfl, rfl⟩

theorem tile_plain : PlainDot.IsPlain (M := 5000) (K := 128) (N := 128) dot_S5000x128_S128x128_S5000x128_1_0_0_1_n_n :=
  ⟨rfl, rfl, rfl, rfl, rfl, rfl, rfl, rfl⟩

/-- The product of the whole node array with the weights, in the host's spelling. -/
def prod (X : FVec Ideal S100000x128 .f32) (Wt : FVec Ideal S128x128 .f32) : FVec Ideal S100000x128 .f32 :=
  Host.dotGeneral whole none X Wt

theorem hz : (![0, 0] : Fin 2 → Nat) = fun _ => 0 := funext fun a => by fin_cases a <;> rfl

/-- The tile's product at `(p, q)` is the whole product at `(r, q)` when the tile's row `p` is the array's row `r`. -/
theorem pay_eq (x0 : Vec Ideal S5000x128 .f32) (x1 : Vec Ideal S128x128 .f32)
    (X : FVec Ideal S100000x128 .f32) (Wt : FVec Ideal S128x128 .f32) (p : Fin 5000) (q : Fin 128) (r : Fin 100000)
    (hx : ∀ k : Fin 128, x0 (ix2 p k) = X (ix2 r k)) (hw : ∀ k : Fin 128, x1 (ix2 k q) = Wt (ix2 k q)) :
    k0_pay1 x0 x1 (ix2 p q) = Host.dotGeneral whole none X Wt (ix2 r q) := by
  unfold k0_pay1
  try simp only [shapeCast_self]
  exact PlainDot.matmul_rows_eq_dotGeneral tile_plain whole_plain none none _ _ X Wt p r q
    (fun k => hx k) (fun k => hw k)

/-- The printed index maps over the grid: the node windows move with the grid point, the weight window stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The array row that grid point `t`'s block row `p` is. -/
def rowOf (t : Fin cfg0.N) (p : Fin 5000) : Fin 100000 :=
  ⟨t.val * 5000 + p.val, by have h : t.val < 20 := t.isLt; have := p.isLt; omega⟩

theorem emb_in (t : Fin cfg0.N) (p : Fin 5000) (k : Fin 128) :
    ((cfg0.win 0).blk t).view.emb (ix2 p k) = ix2 (rowOf t p) k := by
  obtain ⟨e0, e1, -⟩ := idx_facts t
  funext a; apply Fin.ext
  match a with
  | ⟨0, _⟩ => show win0_0.index t (0 : Fin 2) * 5000 + 1 * p.val = t.val * 5000 + p.val; omega
  | ⟨1, _⟩ => show win0_0.index t (1 : Fin 2) * 128 + 1 * k.val = k.val; omega

theorem emb_w (t : Fin cfg0.N) (k : Fin 128) (q : Fin 128) :
    ((cfg0.win 1).blk t).view.emb (ix2 k q) = ix2 k q := by
  obtain ⟨-, -, e2, e3, -⟩ := idx_facts t
  funext a; apply Fin.ext
  match a with
  | ⟨0, _⟩ => show win0_1.index t (0 : Fin 2) * 128 + 1 * k.val = k.val; omega
  | ⟨1, _⟩ => show win0_1.index t (1 : Fin 2) * 128 + 1 * q.val = q.val; omega

theorem emb_out (t : Fin cfg0.N) (p : Fin 5000) (q : Fin 128) :
    ((cfg0.win 2).blk t).view.emb (ix2 p q) = ix2 (rowOf t p) q := by
  obtain ⟨-, -, -, -, e4, e5⟩ := idx_facts t
  funext a; apply Fin.ext
  match a with
  | ⟨0, _⟩ => show win0_2.index t (0 : Fin 2) * 5000 + 1 * p.val = t.val * 5000 + p.val; omega
  | ⟨1, _⟩ => show win0_2.index t (1 : Fin 2) * 128 + 1 * q.val = q.val; omega

/-- What grid point `t` writes back is block `t` of the product of the region's two input arrays. -/
theorem flushed_eq (c : Dev nD) (t : Fin cfg0.N) :
    (dat0 V c).flushed 2 t = ((cfg0.win 2).blk t).view.read (Elt Ideal)
      (prod (V c main_arg0) (V c main_arg4)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  funext j
  obtain ⟨p, q, rfl⟩ : ∃ (p : Fin 5000) (q : Fin 128), j = ix2 p q := ⟨j 0, j 1, eq_ix2 j⟩
  show k0_pay1 (iblk0 V c 0 t) (iblk0 V c 1 t) (ix2 p q)
    = prod (V c main_arg0) (V c main_arg4) (((cfg0.win 2).blk t).view.emb (ix2 p q))
  rw [emb_out t p q]
  unfold prod
  refine pay_eq _ _ (V c main_arg0) (V c main_arg4) p q (rowOf t p) (fun k => ?_) (fun k => ?_)
  · show V c main_arg0 (((cfg0.win 0).blk t).view.emb (ix2 p k)) = _
    rw [emb_in t p k]
  · show V c main_arg4 (((cfg0.win 1).blk t).view.emb (ix2 k q)) = _
    rw [emb_w t k q]

theorem mem_blk (t : Fin cfg0.N) (i : S100000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v24).slice (win0_2.rect t)).set ↔ _
  rw [View.set_slice_whole, Rect.mem_set_unit]
  exact Iff.rfl

/-- Every index of the result lies in the block of the grid point its row selects. -/
theorem cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have ht : (i 0).val / 5000 < cfg0.N := by show (i 0).val / 5000 < 20; omega
  refine ⟨⟨(i 0).val / 5000, ht⟩, flush0_2 _, ?_⟩
  rw [mem_blk]
  obtain ⟨-, -, -, -, e4, e5⟩ := idx_facts ⟨(i 0).val / 5000, ht⟩
  intro a
  match a with
  | ⟨0, _⟩ =>
    show win0_2.index ⟨(i 0).val / 5000, ht⟩ (0 : Fin 2) * 5000 ≤ (i 0).val
      ∧ (i 0).val < win0_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win0_2.index ⟨(i 0).val / 5000, ht⟩ (1 : Fin 2) * 128 ≤ (i 1).val
      ∧ (i 1).val < win0_2.index ⟨(i 0).val / 5000, ht⟩ (1 : Fin 2) * 128 + 128
    rw [e5]; omega

/-- THE REGION'S RESULT: the product of its two input arrays as the region finds them. -/
theorem final (c : Dev nD) :
    (dat0 V c).arrAt 2 cfg0.N = prod (V c main_arg0) (V c main_arg4) :=
  (dat0 V c).arrAt_eq_of_cover 2 _ (fun t _ => flushed_eq V c t) cover

end Cert.KernelIdeal.Region0

end
-- ==== Proof.LibColumnLayout.lean ====
/-
  Two layout readings of a column, for arrays of any extents: a vector `[a]` reshaped to a column `[a, 1]` holds the
  vector's entry `i` at `(i, 0)`, and a column `[a, 1]` broadcast along a second axis to `[a, b]` holds at `(p, c)` the
  column's entry of row `p`. (The row forms `[a] → [1, a]` and `[1, b] → [a, b]` are in the library's layout file.)
-/
import Idealize.ShloMosaic.Lib.ValueIdx
import Idealize.ShloMosaic.Lib.ValueLayout
import Idealize.ShloMosaic.Lib.Pipeline.Value

namespace Cert.Gcn.Layout

open Idealize.ShloMosaic Idealize.ShloMosaic.ValueIdx

/-- A column `[a, 1]` broadcast along the rows' features to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` array cast to a column `[a, 1]` reads, at `(i, u)`, the operand at `i`, whatever the unit coordinate. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.Gcn.Layout
-- ==== Proof.LibColumnBroadcast.lean ====
/-
  More layout readings of columns and rows, for arrays of any extents, in the style of the library's layout file:
  the host's `broadcast_in_dim` of a column `[a, 1]` along a second axis to `[a, b]`, of a vector `[a]` to a column
  `[a, 1]` and of a vector `[b]` to a one-row matrix `[1, b]`, each read at an index; and, as whole arrays, a vector
  reshaped to a column (or to a row) is the vector broadcast to that column (or row).
-/
import Idealize.ShloMosaic.Lib.ValueIdx
import Idealize.ShloMosaic.Lib.ValueLayout
import Idealize.ShloMosaic.Lib.Pipeline.Value
import proofs.«136587_j28235115004171_1_alg».proof.Proof.LibColumnLayout

namespace Cert.Gcn.Layout

open Idealize.ShloMosaic Idealize.ShloMosaic.ValueIdx

variable {α : Type} {a b : ℕ}

/-- A column `[a, 1]` broadcast by the host along the features to `[a, b]` reads, at `(p, c)`, the column's entry of row `p`. -/
theorem broadcastInDim_col_apply (h : (⟨2, ![a, 1]⟩ : Shape).BroadcastsInDim ⟨2, ![a, b]⟩ ![0, 1])
    (v : (⟨2, ![a, 1]⟩ : Shape).Idx → α) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) ?_
  intro ax
  match ax with
  | ⟨0, _⟩ =>
    show p.val = if a = 1 then 0 else p.val
    split
    · have := p.isLt; omega
    · rfl
  | ⟨1, _⟩ => rfl

/-- A vector `[a]` broadcast by the host to a column `[a, 1]` reads, at `(i, u)`, the vector's entry `i`. -/
theorem broadcastInDim_a_a1_apply (h : (⟨1, ![a]⟩ : Shape).BroadcastsInDim ⟨2, ![a, 1]⟩ ![0])
    (x : (⟨1, ![a]⟩ : Shape).Idx → α) (i : Fin a) (u : Fin 1) :
    broadcastInDim ⟨2, ![a, 1]⟩ ![0] h x (ix2 i u) = x (ix1 i) := by
  refine broadcastInDim_apply ![0] h x (ix2 i u) (ix1 i) ?_
  intro ax
  match ax with
  | ⟨0, _⟩ =>
    show i.val = if a = 1 then 0 else i.val
    split
    · have := i.isLt; omega
    · rfl

/-- A vector `[b]` broadcast by the host to a one-row matrix `[1, b]` reads, at `(u, c)`, the vector's entry `c`. -/
theorem broadcastInDim_b_1b_apply (h : (⟨1, ![b]⟩ : Shape).BroadcastsInDim ⟨2, ![1, b]⟩ ![1])
    (x : (⟨1, ![b]⟩ : Shape).Idx → α) (u : Fin 1) (c : Fin b) :
    broadcastInDim ⟨2, ![1, b]⟩ ![1] h x (ix2 u c) = x (ix1 c) := by
  refine broadcastInDim_apply ![1] h x (ix2 u c) (ix1 c) ?_
  intro ax
  match ax with
  | ⟨0, _⟩ =>
    show c.val = if b = 1 then 0 else c.val
    split
    · have := c.isLt; omega
    · rfl

/-- A vector reshaped to a column is the vector broadcast to that column. -/
theorem shapeCast_col_eq_broadcastInDim (x : (⟨1, ![a]⟩ : Shape).Idx → α)
    (hs : (⟨1, ![a]⟩ : Shape).ShapeCasts ⟨2, ![a, 1]⟩) (hb : (⟨1, ![a]⟩ : Shape).BroadcastsInDim ⟨2, ![a, 1]⟩ ![0]) :
    shapeCast ⟨2, ![a, 1]⟩ x hs = broadcastInDim ⟨2, ![a, 1]⟩ ![0] hb x := by
  funext j
  obtain ⟨i, u, rfl⟩ : ∃ (i : Fin a) (u : Fin 1), j = ix2 i u := ⟨j 0, j 1, eq_ix2 j⟩
  rw [shapeCast_a_a1_apply, broadcastInDim_a_a1_apply]

/-- A vector reshaped to a one-row matrix is the vector broadcast to that row. -/
theorem shapeCast_row_eq_broadcastInDim (x : (⟨1, ![b]⟩ : Shape).Idx → α)
    (hs : (⟨1, ![b]⟩ : Shape).ShapeCasts ⟨2, ![1, b]⟩) (hb : (⟨1, ![b]⟩ : Shape).BroadcastsInDim ⟨2, ![1, b]⟩ ![1]) :
    shapeCast ⟨2, ![1, b]⟩ x hs = broadcastInDim ⟨2, ![1, b]⟩ ![1] hb x := by
  funext j
  obtain ⟨u, c, rfl⟩ : ∃ (u : Fin 1) (c : Fin b), j = ix2 u c := ⟨j 0, j 1, eq_ix2 j⟩
  have hu : u = 0 := Subsingleton.elim _ _
  subst hu
  rw [shapeCast_a_1a_apply, broadcastInDim_b_1b_apply]

end Cert.Gcn.Layout
-- ==== Proof.Region1.lean ====
/-
  Region 1: a graph-convolution layer's combine step, tiled over the nodes. Grid point `t` stages rows
  `5000·t … 5000·t + 4999` of the aggregated messages, of the layer's dense product and of the column of inverse degrees,
  and the whole bias row, and writes back `max (agg + h · invdeg + bias, 0)` of those blocks. The step is pointwise in the
  node and the feature (the column and the row only laid along the other axis), so the blocks written back are the
  blocks of the one pointwise expression of the whole arrays, spelt with the host's broadcasts; the twenty blocks tile
  the result.
-/
import proofs.«136587_j28235115004171_1_alg».proof.Proof.Gen.KernelIdeal.Frame
import proofs.«136587_j28235115004171_1_alg».proof.Proof.Gen.ReferenceIdeal
import proofs.«136587_j28235115004171_1_alg».proof.Proof.LibColumnBroadcast
import Idealize.ShloMosaic.Lib.Pipeline.Value
import Idealize.ShloMosaic.Lib.ValueIdx
import Idealize.ShloMosaic.Lib.ValueLayout
import Idealize.ShloMosaic.Lib.IdealHost
import Idealize.ShloMosaic.Lib.KernelVsHost

set_option maxRecDepth 16384

noncomputable section

namespace Cert.KernelIdeal.Region1

open Cert.KernelIdeal Cert.KernelIdeal.Gen
open Idealize.ShloMosaic Idealize.ShloMosaic.TcCoe Idealize.ShloMosaic.ValueIdx Idealize.SL.Sem
open Idealize.ShloMosaic.Pipeline (Dat)
open Cert.Gcn

variable (V : (c : Dev nD) → (b : Ref sig .tc) → Buf (Elt Ideal) ((c : Thread nD τ).loc b))

/-- The combine step on whole arrays, in the host's spelling: the column of inverse degrees and the bias row laid along
    the other axis by `broadcast_in_dim`, the rectifier a maximum with the zero array. -/
def combine (A H : FVec Ideal S100000x128 .f32) (IC : FVec Ideal S100000x1 .f32) (BR : FVec Ideal S1x128 .f32) :
    FVec Ideal S100000x128 .f32 :=
  maximumf (addf (addf A (mulf H (broadcastInDim S100000x128 ![0, 1] Cert.ReferenceIdeal.Gen.bcast_S100000x1_S100000x128_0_1 IC)))
      (broadcastInDim S100000x128 ![0, 1] Cert.ReferenceIdeal.Gen.bcast_S1x128_S100000x128_0_1 BR))
    (broadcastInDim S100000x128 ![] Cert.ReferenceIdeal.Gen.bcast_S_S100000x128 (constant S_ .f32 0x00000000#32))

theorem combine_apply (A H : FVec Ideal S100000x128 .f32) (IC : FVec Ideal S100000x1 .f32) (BR : FVec Ideal S1x128 .f32)
    (r : Fin 100000) (q : Fin 128) :
    combine A H IC BR (ix2 r q)
      = max ((A (ix2 r q) + H (ix2 r q) * IC (ix2 r (0 : Fin 1))) + BR (ix2 (0 : Fin 1) q)) (Ideal.ofBits .f32 0x00000000#32) := by
  unfold combine
  rw [maximumf_apply, addf_apply, addf_apply, mulf_apply, Layout.broadcastInDim_col_apply, broadcastInDim_oneRow_apply,
    broadcastInDim_scalar_apply]
  rfl

/-- The tile's payload at `(p, q)`: the same expression of the staged blocks. -/
theorem pay_apply (x0 x1 : Vec Ideal S5000x128 .f32) (x2 : Vec Ideal S5000x1 .f32) (x3 : Vec Ideal S1x128 .f32)
    (p : Fin 5000) (q : Fin 128) :
    k1_pay1 x0 x1 x2 x3 (ix2 p q)
      = max ((x0 (ix2 p q) + x1 (ix2 p q) * x2 (ix2 p (0 : Fin 1))) + x3 (ix2 (0 : Fin 1) q)) (Ideal.ofBits .f32 0x00000000#32) := by
  unfold k1_pay1
  simp only [shapeCast_self]
  rw [maximumf_apply, addf_apply, addf_apply, mulf_apply, Layout.broadcastTo_a1_ab_apply, broadcastTo_1b_ab_apply]
  rfl

/-- One entry: the tile's payload at `(p, q)` is the whole arrays' combine step at `(r, q)` when the staged blocks hold the
    arrays' entries of row `r` (and the bias row is the bias row). -/
theorem point_eq (A H : FVec Ideal S100000x128 .f32) (IC : FVec Ideal S100000x1 .f32) (BR : FVec Ideal S1x128 .f32)
    (x0 x1 : Vec Ideal S5000x128 .f32) (x2 : Vec Ideal S5000x1 .f32) (x3 : Vec Ideal S1x128 .f32)
    (p : Fin 5000) (q : Fin 128) (r : Fin 100000)
    (h0 : x0 (ix2 p q) = A (ix2 r q)) (h1 : x1 (ix2 p q) = H (ix2 r q))
    (h2 : x2 (ix2 p (0 : Fin 1)) = IC (ix2 r (0 : Fin 1))) (h3 : x3 (ix2 (0 : Fin 1) q) = BR (ix2 (0 : Fin 1) q)) :
    k1_pay1 x0 x1 x2 x3 (ix2 p q) = combine A H IC BR (ix2 r q) := by
  rw [pay_apply, combine_apply, h0, h1, h2, h3]

theorem hz : (![0, 0] : Fin 2 → Nat) = fun _ => 0 := funext fun a => by fin_cases a <;> rfl

theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The array row that grid point `t`'s block row `p` is. -/
def rowOf (t : Fin cfg1.N) (p : Fin 5000) : Fin 100000 :=
  ⟨t.val * 5000 + p.val, by have h : t.val < 20 := t.isLt; have := p.isLt; omega⟩

theorem emb0 (t : Fin cfg1.N) (p : Fin 5000) (q : Fin 128) :
    ((cfg1.win 0).blk t).view.emb (ix2 p q) = ix2 (rowOf t p) q := by
  obtain ⟨e0, e1, -⟩ := idx_facts t
  funext a; apply Fin.ext
  match a with
  | ⟨0, _⟩ => show win1_0.index t (0 : Fin 2) * 5000 + 1 * p.val = t.val * 5000 + p.val; omega
  | ⟨1, _⟩ => show win1_0.index t (1 : Fin 2) * 128 + 1 * q.val = q.val; omega

theorem emb1 (t : Fin cfg1.N) (p : Fin 5000) (q : Fin 128) :
    ((cfg1.win 1).blk t).view.emb (ix2 p q) = ix2 (rowOf t p) q := by
  obtain ⟨-, -, e0, e1, -⟩ := idx_facts t
  funext a; apply Fin.ext
  match a with
  | ⟨0, _⟩ => show win1_1.index t (0 : Fin 2) * 5000 + 1 * p.val = t.val * 5000 + p.val; omega
  | ⟨1, _⟩ => show win1_1.index t (1 : Fin 2) * 128 + 1 * q.val = q.val; omega

theorem emb2 (t : Fin cfg1.N) (p : Fin 5000) (u : Fin 1) :
    ((cfg1.win 2).blk t).view.emb (ix2 p u) = ix2 (rowOf t p) u := by
  obtain ⟨-, -, -, -, e0, e1, -⟩ := idx_facts t
  funext a; apply Fin.ext
  match a with
  | ⟨0, _⟩ => show win1_2.index t (0 : Fin 2) * 5000 + 1 * p.val = t.val * 5000 + p.val; omega
  | ⟨1, _⟩ => show win1_2.index t (1 : Fin 2) * 1 + 1 * u.val = u.val; omega

theorem emb3 (t : Fin cfg1.N) (u : Fin 1) (q : Fin 128) :
    ((cfg1.win 3).blk t).view.emb (ix2 u q) = ix2 u q := by
  obtain ⟨-, -, -, -, -, -, e0, e1, -⟩ := idx_facts t
  funext a; apply Fin.ext
  match a with
  | ⟨0, _⟩ => show win1_3.index t (0 : Fin 2) * 1 + 1 * u.val = u.val; omega
  | ⟨1, _⟩ => show win1_3.index t (1 : Fin 2) * 128 + 1 * q.val = q.val; omega

theorem emb4 (t : Fin cfg1.N) (p : Fin 5000) (q : Fin 128) :
    ((cfg1.win 4).blk t).view.emb (ix2 p q) = ix2 (rowOf t p) q := by
  obtain ⟨-, -, -, -, -, -, -, -, e0, e1⟩ := idx_facts t
  funext a; apply Fin.ext
  match a with
  | ⟨0, _⟩ => show win1_4.index t (0 : Fin 2) * 5000 + 1 * p.val = t.val * 5000 + p.val; omega
  | ⟨1, _⟩ => show win1_4.index t (1 : Fin 2) * 128 + 1 * q.val = q.val; omega

/-- What grid point `t` writes back is block `t` of the combine step of the region's four input arrays. -/
theorem flushed_eq (c : Dev nD) (t : Fin cfg1.N) :
    (dat1 V c).flushed 4 t = ((cfg1.win 4).blk t).view.read (Elt Ideal)
      (combine (V c main_v37) (V c main_v24) (V c main_v39) (V c main_v38)) := by
  show (cfg1.win 4).cut (grid1.coords t) ((dat1 V c).after 4 t) = _
  rw [after1_4]
  unfold out1_4
  rw [View.canon_unit_zero hz]
  simp only [View.ld_unit_zero (S := S5000x128) hz, View.ld_unit_zero (S := S5000x1) hz, View.ld_unit_zero (S := S1x128) hz]
  funext j
  obtain ⟨p, q, rfl⟩ : ∃ (p : Fin 5000) (q : Fin 128), j = ix2 p q := ⟨j 0, j 1, eq_ix2 j⟩
  show k1_pay1 (iblk1 V c 0 t) (iblk1 V c 1 t) (iblk1 V c 2 t) (iblk1 V c 3 t) (ix2 p q)
    = combine (V c main_v37) (V c main_v24) (V c main_v39) (V c main_v38) (((cfg1.win 4).blk t).view.emb (ix2 p q))
  rw [emb4 t p q]
  refine point_eq (V c main_v37) (V c main_v24) (V c main_v39) (V c main_v38) _ _ _ _ p q (rowOf t p) ?_ ?_ ?_ ?_
  · show V c main_v37 (((cfg1.win 0).blk t).view.emb (ix2 p q)) = _
    rw [emb0 t p q]
  · show V c main_v24 (((cfg1.win 1).blk t).view.emb (ix2 p q)) = _
    rw [emb1 t p q]
  · show V c main_v39 (((cfg1.win 2).blk t).view.emb (ix2 p (0 : Fin 1))) = _
    rw [emb2 t p 0]
  · show V c main_v38 (((cfg1.win 3).blk t).view.emb (ix2 (0 : Fin 1) q)) = _
    rw [emb3 t 0 q]

theorem mem_blk (t : Fin cfg1.N) (i : S100000x128.Idx) :
    i ∈ ((cfg1.win 4).blk t).view.set ↔ ∀ a : Fin 2, win1_4.index t a * S5000x128.size a ≤ (i a).val
      ∧ (i a).val < win1_4.index t a * S5000x128.size a + S5000x128.size a := by
  show i ∈ ((View.whole main_v40).slice (win1_4.rect t)).set ↔ _
  rw [View.set_slice_whole, Rect.mem_set_unit]
  exact Iff.rfl

/-- Every index of the result lies in the block of the grid point its row selects. -/
theorem cover (i : S100000x128.Idx) :
    ∃ t : Fin cfg1.N, (cfg1.win 4).flush t = true ∧ i ∈ ((cfg1.win 4).blk t).view.set := by
  have hi0 : (i 0).val < 100000 := (i 0).isLt
  have hi1 : (i 1).val < 128 := (i 1).isLt
  have ht : (i 0).val / 5000 < cfg1.N := by show (i 0).val / 5000 < 20; omega
  refine ⟨⟨(i 0).val / 5000, ht⟩, flush1_4 _, ?_⟩
  rw [mem_blk]
  obtain ⟨-, -, -, -, -, -, -, -, e4, e5⟩ := idx_facts ⟨(i 0).val / 5000, ht⟩
  intro a
  match a with
  | ⟨0, _⟩ =>
    show win1_4.index ⟨(i 0).val / 5000, ht⟩ (0 : Fin 2) * 5000 ≤ (i 0).val
      ∧ (i 0).val < win1_4.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win1_4.index ⟨(i 0).val / 5000, ht⟩ (1 : Fin 2) * 128 ≤ (i 1).val
      ∧ (i 1).val < win1_4.index ⟨(i 0).val / 5000, ht⟩ (1 : Fin 2) * 128 + 128
    rw [e5]; omega

/-- THE REGION'S RESULT: the combine step of its four input arrays as the region finds them. -/
theorem final (c : Dev nD) :
    (dat1 V c).arrAt 4 cfg1.N = combine (V c main_v37) (V c main_v24) (V c main_v39) (V c main_v38) :=
  (dat1 V c).arrAt_eq_of_cover 4 _ (fun t _ => flushed_eq V c t) cover

end Cert.KernelIdeal.Region1

end
-- ==== Proof.Region2.lean ====
/-
  Region 2: a dense layer's matrix product, tiled over the nodes. Grid point `t` stages rows
  `5000·t … 5000·t + 4999` of the node array and the whole weight array, and writes back the product of that block of
  rows with the weights. A row of a product depends on that row alone, and the contraction runs over the whole shared
  axis on both sides, so the blocks written back are the blocks of the ONE product of the whole arrays; the twenty
  blocks tile the result, which therefore ends as the host's product of the region's two input arrays.
-/
import proofs.«136587_j28235115004171_1_alg».proof.Proof.Gen.KernelIdeal.Frame
import proofs.«136587_j28235115004171_1_alg».proof.Proof.Gen.ReferenceIdeal
import proofs.«136587_j28235115004171_1_alg».proof.Proof.LibPlainDot
import Idealize.ShloMosaic.Lib.Pipeline.Value
import Idealize.ShloMosaic.Lib.ValueIdx

set_option maxRecDepth 16384

noncomputable section

namespace Cert.KernelIdeal.Region2

open Cert.KernelIdeal Cert.KernelIdeal.Gen
open Idealize.ShloMosaic Idealize.ShloMosaic.TcCoe Idealize.ShloMosaic.ValueIdx Idealize.SL.Sem
open Idealize.ShloMosaic.Pipeline (Dat)
open Cert.Gcn

variable (V : (c : Dev nD) → (b : Ref sig .tc) → Buf (Elt Ideal) ((c : Thread nD τ).loc b))

/-- The whole product's dimension numbers: the reference's, for `[100000, 128] × [128, 128]`. -/
abbrev whole := Cert.ReferenceIdeal.dot_S100000x128_S128x128_S100000x128_1_0_0_1_n_n

theorem whole_plain : PlainDot.IsPlain (M := 100000) (K := 128) (N := 128) whole :=
  ⟨rfl, rfl, rfl, rfl, rfl, rfl, rfl, rfl⟩

theorem tile_plain : PlainDot.IsPlain (M := 5000) (K := 128) (N := 128) dot_S5000x128_S128x128_S5000x128_1_0_0_1_n_n :=
  ⟨rfl, rfl, rfl, rfl, rfl, rfl, rfl, rfl⟩

/-- The product of the whole node array with the weights, in the host's spelling. -/
def prod (X : FVec Ideal S100000x128 .f32) (Wt : FVec Ideal S128x128 .f32) : FVec Ideal S100000x128 .f32 :=
  Host.dotGeneral whole none X Wt

theorem hz : (![0, 0] : Fin 2 → Nat) = fun _ => 0 := funext fun a => by fin_cases a <;> rfl

/-- The tile's product at `(p, q)` is the whole product at `(r, q)` when the tile's row `p` is the array's row `r`. -/
theorem pay_eq (x0 : Vec Ideal S5000x128 .f32) (x1 : Vec Ideal S128x128 .f32)
    (X : FVec Ideal S100000x128 .f32) (Wt : FVec Ideal S128x128 .f32) (p : Fin 5000) (q : Fin 128) (r : Fin 100000)
    (hx : ∀ k : Fin 128, x0 (ix2 p k) = X (ix2 r k)) (hw : ∀ k : Fin 128, x1 (ix2 k q) = Wt (ix2 k q)) :
    k2_pay1 x0 x1 (ix2 p q) = Host.dotGeneral whole none X Wt (ix2 r q) := by
  unfold k2_pay1
  try simp only [shapeCast_self]
  exact PlainDot.matmul_rows_eq_dotGeneral tile_plain whole_plain none none _ _ X Wt p r q
    (fun k => hx k) (fun k => hw k)

/-- The printed index maps over the grid: the node windows move with the grid point, the weight window stays. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The array row that grid point `t`'s block row `p` is. -/
def rowOf (t : Fin cfg2.N) (p : Fin 5000) : Fin 100000 :=
  ⟨t.val * 5000 + p.val, by have h : t.val < 20 := t.isLt; have := p.isLt; omega⟩

theorem emb_in (t : Fin cfg2.N) (p : Fin 5000) (k : Fin 128) :
    ((cfg2.win 0).blk t).view.emb (ix2 p k) = ix2 (rowOf t p) k := by
  obtain ⟨e0, e1, -⟩ := idx_facts t
  funext a; apply Fin.ext
  match a with
  | ⟨0, _⟩ => show win2_0.index t (0 : Fin 2) * 5000 + 1 * p.val = t.val * 5000 + p.val; omega
  | ⟨1, _⟩ => show win2_0.index t (1 : Fin 2) * 128 + 1 * k.val = k.val; omega

theorem emb_w (t : Fin cfg2.N) (k : Fin 128) (q : Fin 128) :
    ((cfg2.win 1).blk t).view.emb (ix2 k q) = ix2 k q := by
  obtain ⟨-, -, e2, e3, -⟩ := idx_facts t
  funext a; apply Fin.ext
  match a with
  | ⟨0, _⟩ => show win2_1.index t (0 : Fin 2) * 128 + 1 * k.val = k.val; omega
  | ⟨1, _⟩ => show win2_1.index t (1 : Fin 2) * 128 + 1 * q.val = q.val; omega

theorem emb_out (t : Fin cfg2.N) (p : Fin 5000) (q : Fin 128) :
    ((cfg2.win 2).blk t).view.emb (ix2 p q) = ix2 (rowOf t p) q := by
  obtain ⟨-, -, -, -, e4, e5⟩ := idx_facts t
  funext a; apply Fin.ext
  match a with
  | ⟨0, _⟩ => show win2_2.index t (0 : Fin 2) * 5000 + 1 * p.val = t.val * 5000 + p.val; omega
  | ⟨1, _⟩ => show win2_2.index t (1 : Fin 2) * 128 + 1 * q.val = q.val; omega

/-- What grid point `t` writes back is block `t` of the product of the region's two input arrays. -/
theorem flushed_eq (c : Dev nD) (t : Fin cfg2.N) :
    (dat2 V c).flushed 2 t = ((cfg2.win 2).blk t).view.read (Elt Ideal)
      (prod (V c main_v40) (V c main_arg6)) := by
  show (cfg2.win 2).cut (grid2.coords t) ((dat2 V c).after 2 t) = _
  rw [after2_2]
  unfold out2_2
  rw [View.canon_unit_zero hz]
  simp only [View.ld_unit_zero (S := S5000x128) hz, View.ld_unit_zero (S := S128x128) hz]
  funext j
  obtain ⟨p, q, rfl⟩ : ∃ (p : Fin 5000) (q : Fin 128), j = ix2 p q := ⟨j 0, j 1, eq_ix2 j⟩
  show k2_pay1 (iblk2 V c 0 t) (iblk2 V c 1 t) (ix2 p q)
    = prod (V c main_v40) (V c main_arg6) (((cfg2.win 2).blk t).view.emb (ix2 p q))
  rw [emb_out t p q]
  unfold prod
  refine pay_eq _ _ (V c main_v40) (V c main_arg6) p q (rowOf t p) (fun k => ?_) (fun k => ?_)
  · show V c main_v40 (((cfg2.win 0).blk t).view.emb (ix2 p k)) = _
    rw [emb_in t p k]
  · show V c main_arg6 (((cfg2.win 1).blk t).view.emb (ix2 k q)) = _
    rw [emb_w t k q]

theorem mem_blk (t : Fin cfg2.N) (i : S100000x128.Idx) :
    i ∈ ((cfg2.win 2).blk t).view.set ↔ ∀ a : Fin 2, win2_2.index t a * S5000x128.size a ≤ (i a).val
      ∧ (i a).val < win2_2.index t a * S5000x128.size a + S5000x128.size a := by
  show i ∈ ((View.whole main_v41).slice (win2_2.rect t)).set ↔ _
  rw [View.set_slice_whole, Rect.mem_set_unit]
  exact Iff.rfl

/-- Every index of the result lies in the block of the grid point its row selects. -/
theorem cover (i : S100000x128.Idx) :
    ∃ t : Fin cfg2.N, (cfg2.win 2).flush t = true ∧ i ∈ ((cfg2.win 2).blk t).view.set := by
  have hi0 : (i 0).val < 100000 := (i 0).isLt
  have hi1 : (i 1).val < 128 := (i 1).isLt
  have ht : (i 0).val / 5000 < cfg2.N := by show (i 0).val / 5000 < 20; omega
  refine ⟨⟨(i 0).val / 5000, ht⟩, flush2_2 _, ?_⟩
  rw [mem_blk]
  obtain ⟨-, -, -, -, e4, e5⟩ := idx_facts ⟨(i 0).val / 5000, ht⟩
  intro a
  match a with
  | ⟨0, _⟩ =>
    show win2_2.index ⟨(i 0).val / 5000, ht⟩ (0 : Fin 2) * 5000 ≤ (i 0).val
      ∧ (i 0).val < win2_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win2_2.index ⟨(i 0).val / 5000, ht⟩ (1 : Fin 2) * 128 ≤ (i 1).val
      ∧ (i 1).val < win2_2.index ⟨(i 0).val / 5000, ht⟩ (1 : Fin 2) * 128 + 128
    rw [e5]; omega

/-- THE REGION'S RESULT: the product of its two input arrays as the region finds them. -/
theorem final (c : Dev nD) :
    (dat2 V c).arrAt 2 cfg2.N = prod (V c main_v40) (V c main_arg6) :=
  (dat2 V c).arrAt_eq_of_cover 2 _ (fun t _ => flushed_eq V c t) cover

end Cert.KernelIdeal.Region2

end
-- ==== Proof.Region3.lean ====
/-
  Region 3: a graph-convolution layer's combine step, tiled over the nodes. Grid point `t` stages rows
  `5000·t … 5000·t + 4999` of the aggregated messages, of the layer's dense product and of the column of inverse degrees,
  and the whole bias row, and writes back `max (agg + h · invdeg + bias, 0)` of those blocks. The step is pointwise in the
  node and the feature (the column and the row only laid along the other axis), so the blocks written back are the
  blocks of the one pointwise expression of the whole arrays, spelt with the host's broadcasts; the twenty blocks tile
  the result.
-/
import proofs.«136587_j28235115004171_1_alg».proof.Proof.Gen.KernelIdeal.Frame
import proofs.«136587_j28235115004171_1_alg».proof.Proof.Gen.ReferenceIdeal
import proofs.«136587_j28235115004171_1_alg».proof.Proof.LibColumnBroadcast
import Idealize.ShloMosaic.Lib.Pipeline.Value
import Idealize.ShloMosaic.Lib.ValueIdx
import Idealize.ShloMosaic.Lib.ValueLayout
import Idealize.ShloMosaic.Lib.IdealHost
import Idealize.ShloMosaic.Lib.KernelVsHost

set_option maxRecDepth 16384

noncomputable section

namespace Cert.KernelIdeal.Region3

open Cert.KernelIdeal Cert.KernelIdeal.Gen
open Idealize.ShloMosaic Idealize.ShloMosaic.TcCoe Idealize.ShloMosaic.ValueIdx Idealize.SL.Sem
open Idealize.ShloMosaic.Pipeline (Dat)
open Cert.Gcn

variable (V : (c : Dev nD) → (b : Ref sig .tc) → Buf (Elt Ideal) ((c : Thread nD τ).loc b))

/-- The combine step on whole arrays, in the host's spelling: the column of inverse degrees and the bias row laid along
    the other axis by `broadcast_in_dim`, the rectifier a maximum with the zero array. -/
def combine (A H : FVec Ideal S100000x128 .f32) (IC : FVec Ideal S100000x1 .f32) (BR : FVec Ideal S1x128 .f32) :
    FVec Ideal S100000x128 .f32 :=
  maximumf (addf (addf A (mulf H (broadcastInDim S100000x128 ![0, 1] Cert.ReferenceIdeal.Gen.bcast_S100000x1_S100000x128_0_1 IC)))
      (broadcastInDim S100000x128 ![0, 1] Cert.ReferenceIdeal.Gen.bcast_S1x128_S100000x128_0_1 BR))
    (broadcastInDim S100000x128 ![] Cert.ReferenceIdeal.Gen.bcast_S_S100000x128 (constant S_ .f32 0x00000000#32))

theorem combine_apply (A H : FVec Ideal S100000x128 .f32) (IC : FVec Ideal S100000x1 .f32) (BR : FVec Ideal S1x128 .f32)
    (r : Fin 100000) (q : Fin 128) :
    combine A H IC BR (ix2 r q)
      = max ((A (ix2 r q) + H (ix2 r q) * IC (ix2 r (0 : Fin 1))) + BR (ix2 (0 : Fin 1) q)) (Ideal.ofBits .f32 0x00000000#32) := by
  unfold combine
  rw [maximumf_apply, addf_apply, addf_apply, mulf_apply, Layout.broadcastInDim_col_apply, broadcastInDim_oneRow_apply,
    broadcastInDim_scalar_apply]
  rfl

/-- The tile's payload at `(p, q)`: the same expression of the staged blocks. -/
theorem pay_apply (x0 x1 : Vec Ideal S5000x128 .f32) (x2 : Vec Ideal S5000x1 .f32) (x3 : Vec Ideal S1x128 .f32)
    (p : Fin 5000) (q : Fin 128) :
    k3_pay1 x0 x1 x2 x3 (ix2 p q)
      = max ((x0 (ix2 p q) + x1 (ix2 p q) * x2 (ix2 p (0 : Fin 1))) + x3 (ix2 (0 : Fin 1) q)) (Ideal.ofBits .f32 0x00000000#32) := by
  unfold k3_pay1
  simp only [shapeCast_self]
  rw [maximumf_apply, addf_apply, addf_apply, mulf_apply, Layout.broadcastTo_a1_ab_apply, broadcastTo_1b_ab_apply]
  rfl

/-- One entry: the tile's payload at `(p, q)` is the whole arrays' combine step at `(r, q)` when the staged blocks hold the
    arrays' entries of row `r` (and the bias row is the bias row). -/
theorem point_eq (A H : FVec Ideal S100000x128 .f32) (IC : FVec Ideal S100000x1 .f32) (BR : FVec Ideal S1x128 .f32)
    (x0 x1 : Vec Ideal S5000x128 .f32) (x2 : Vec Ideal S5000x1 .f32) (x3 : Vec Ideal S1x128 .f32)
    (p : Fin 5000) (q : Fin 128) (r : Fin 100000)
    (h0 : x0 (ix2 p q) = A (ix2 r q)) (h1 : x1 (ix2 p q) = H (ix2 r q))
    (h2 : x2 (ix2 p (0 : Fin 1)) = IC (ix2 r (0 : Fin 1))) (h3 : x3 (ix2 (0 : Fin 1) q) = BR (ix2 (0 : Fin 1) q)) :
    k3_pay1 x0 x1 x2 x3 (ix2 p q) = combine A H IC BR (ix2 r q) := by
  rw [pay_apply, combine_apply, h0, h1, h2, h3]

theorem hz : (![0, 0] : Fin 2 → Nat) = fun _ => 0 := funext fun a => by fin_cases a <;> rfl

theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- The array row that grid point `t`'s block row `p` is. -/
def rowOf (t : Fin cfg3.N) (p : Fin 5000) : Fin 100000 :=
  ⟨t.val * 5000 + p.val, by have h : t.val < 20 := t.isLt; have := p.isLt; omega⟩

theorem emb0 (t : Fin cfg3.N) (p : Fin 5000) (q : Fin 128) :
    ((cfg3.win 0).blk t).view.emb (ix2 p q) = ix2 (rowOf t p) q := by
  obtain ⟨e0, e1, -⟩ := idx_facts t
  funext a; apply Fin.ext
  match a with
  | ⟨0, _⟩ => show win3_0.index t (0 : Fin 2) * 5000 + 1 * p.val = t.val * 5000 + p.val; omega
  | ⟨1, _⟩ => show win3_0.index t (1 : Fin 2) * 128 + 1 * q.val = q.val; omega

theorem emb1 (t : Fin cfg3.N) (p : Fin 5000) (q : Fin 128) :
    ((cfg3.win 1).blk t).view.emb (ix2 p q) = ix2 (rowOf t p) q := by
  obtain ⟨-, -, e0, e1, -⟩ := idx_facts t
  funext a; apply Fin.ext
  match a with
  | ⟨0, _⟩ => show win3_1.index t (0 : Fin 2) * 5000 + 1 * p.val = t.val * 5000 + p.val; omega
  | ⟨1, _⟩ => show win3_1.index t (1 : Fin 2) * 128 + 1 * q.val = q.val; omega

theorem emb2 (t : Fin cfg3.N) (p : Fin 5000) (u : Fin 1) :
    ((cfg3.win 2).blk t).view.emb (ix2 p u) = ix2 (rowOf t p) u := by
  obtain ⟨-, -, -, -, e0, e1, -⟩ := idx_facts t
  funext a; apply Fin.ext
  match a with
  | ⟨0, _⟩ => show win3_2.index t (0 : Fin 2) * 5000 + 1 * p.val = t.val * 5000 + p.val; omega
  | ⟨1, _⟩ => show win3_2.index t (1 : Fin 2) * 1 + 1 * u.val = u.val; omega

theorem emb3 (t : Fin cfg3.N) (u : Fin 1) (q : Fin 128) :
    ((cfg3.win 3).blk t).view.emb (ix2 u q) = ix2 u q := by
  obtain ⟨-, -, -, -, -, -, e0, e1, -⟩ := idx_facts t
  funext a; apply Fin.ext
  match a with
  | ⟨0, _⟩ => show win3_3.index t (0 : Fin 2) * 1 + 1 * u.val = u.val; omega
  | ⟨1, _⟩ => show win3_3.index t (1 : Fin 2) * 128 + 1 * q.val = q.val; omega

theorem emb4 (t : Fin cfg3.N) (p : Fin 5000) (q : Fin 128) :
    ((cfg3.win 4).blk t).view.emb (ix2 p q) = ix2 (rowOf t p) q := by
  obtain ⟨-, -, -, -, -, -, -, -, e0, e1⟩ := idx_facts t
  funext a; apply Fin.ext
  match a with
  | ⟨0, _⟩ => show win3_4.index t (0 : Fin 2) * 5000 + 1 * p.val = t.val * 5000 + p.val; omega
  | ⟨1, _⟩ => show win3_4.index t (1 : Fin 2) * 128 + 1 * q.val = q.val; omega

/-- What grid point `t` writes back is block `t` of the combine step of the region's four input arrays. -/
theorem flushed_eq (c : Dev nD) (t : Fin cfg3.N) :
    (dat3 V c).flushed 4 t = ((cfg3.win 4).blk t).view.read (Elt Ideal)
      (combine (V c main_v54) (V c main_v41) (V c main_v56) (V c main_v55)) := by
  show (cfg3.win 4).cut (grid3.coords t) ((dat3 V c).after 4 t) = _
  rw [after3_4]
  unfold out3_4
  rw [View.canon_unit_zero hz]
  simp only [View.ld_unit_zero (S := S5000x128) hz, View.ld_unit_zero (S := S5000x1) hz, View.ld_unit_zero (S := S1x128) hz]
  funext j
  obtain ⟨p, q, rfl⟩ : ∃ (p : Fin 5000) (q : Fin 128), j = ix2 p q := ⟨j 0, j 1, eq_ix2 j⟩
  show k3_pay1 (iblk3 V c 0 t) (iblk3 V c 1 t) (iblk3 V c 2 t) (iblk3 V c 3 t) (ix2 p q)
    = combine (V c main_v54) (V c main_v41) (V c main_v56) (V c main_v55) (((cfg3.win 4).blk t).view.emb (ix2 p q))
  rw [emb4 t p q]
  refine point_eq (V c main_v54) (V c main_v41) (V c main_v56) (V c main_v55) _ _ _ _ p q (rowOf t p) ?_ ?_ ?_ ?_
  · show V c main_v54 (((cfg3.win 0).blk t).view.emb (ix2 p q)) = _
    rw [emb0 t p q]
  · show V c main_v41 (((cfg3.win 1).blk t).view.emb (ix2 p q)) = _
    rw [emb1 t p q]
  · show V c main_v56 (((cfg3.win 2).blk t).view.emb (ix2 p (0 : Fin 1))) = _
    rw [emb2 t p 0]
  · show V c main_v55 (((cfg3.win 3).blk t).view.emb (ix2 (0 : Fin 1) q)) = _
    rw [emb3 t 0 q]

theorem mem_blk (t : Fin cfg3.N) (i : S100000x128.Idx) :
    i ∈ ((cfg3.win 4).blk t).view.set ↔ ∀ a : Fin 2, win3_4.index t a * S5000x128.size a ≤ (i a).val
      ∧ (i a).val < win3_4.index t a * S5000x128.size a + S5000x128.size a := by
  show i ∈ ((View.whole main_v57).slice (win3_4.rect t)).set ↔ _
  rw [View.set_slice_whole, Rect.mem_set_unit]
  exact Iff.rfl

/-- Every index of the result lies in the block of the grid point its row selects. -/
theorem cover (i : S100000x128.Idx) :
    ∃ t : Fin cfg3.N, (cfg3.win 4).flush t = true ∧ i ∈ ((cfg3.win 4).blk t).view.set := by
  have hi0 : (i 0).val < 100000 := (i 0).isLt
  have hi1 : (i 1).val < 128 := (i 1).isLt
  have ht : (i 0).val / 5000 < cfg3.N := by show (i 0).val / 5000 < 20; omega
  refine ⟨⟨(i 0).val / 5000, ht⟩, flush3_4 _, ?_⟩
  rw [mem_blk]
  obtain ⟨-, -, -, -, -, -, -, -, e4, e5⟩ := idx_facts ⟨(i 0).val / 5000, ht⟩
  intro a
  match a with
  | ⟨0, _⟩ =>
    show win3_4.index ⟨(i 0).val / 5000, ht⟩ (0 : Fin 2) * 5000 ≤ (i 0).val
      ∧ (i 0).val < win3_4.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win3_4.index ⟨(i 0).val / 5000, ht⟩ (1 : Fin 2) * 128 ≤ (i 1).val
      ∧ (i 1).val < win3_4.index ⟨(i 0).val / 5000, ht⟩ (1 : Fin 2) * 128 + 128
    rw [e5]; omega

/-- THE REGION'S RESULT: the combine step of its four input arrays as the region finds them. -/
theorem final (c : Dev nD) :
    (dat3 V c).arrAt 4 cfg3.N = combine (V c main_v54) (V c main_v41) (V c main_v56) (V c main_v55) :=
  (dat3 V c).arrAt_eq_of_cover 4 _ (fun t _ => flushed_eq V c t) cover

end Cert.KernelIdeal.Region3

end
-- ==== Proof.Region4.lean ====
/-
  Region 4: a dense layer's matrix product, tiled over the nodes. Grid point `t` stages rows
  `5000·t … 5000·t + 4999` of the node array and the whole weight array, and writes back the product of that block of
  rows with the weights. A row of a product depends on that row alone, and the contraction runs over the whole shared
  axis on both sides, so the blocks written back are the blocks of the ONE product of the whole arrays; the twenty
  blocks tile the result, which therefore ends as the host's product of the region's two input arrays.
-/
import proofs.«136587_j28235115004171_1_alg».proof.Proof.Gen.KernelIdeal.Frame
import proofs.«136587_j28235115004171_1_alg».proof.Proof.Gen.ReferenceIdeal
import proofs.«136587_j28235115004171_1_alg».proof.Proof.LibPlainDot
import Idealize.ShloMosaic.Lib.Pipeline.Value
import Idealize.ShloMosaic.Lib.ValueIdx

set_option maxRecDepth 16384

noncomputable section

namespace Cert.KernelIdeal.Region4

open Cert.KernelIdeal Cert.KernelIdeal.Gen
open Idealize.ShloMosaic Idealize.ShloMosaic.TcCoe Idealize.ShloMosaic.ValueIdx Idealize.SL.Sem
open Idealize.ShloMosaic.Pipeline (Dat)
open Cert.Gcn

variable (V : (c : Dev nD) → (b : Ref sig .tc) → Buf (Elt Ideal) ((c : Thread nD τ).loc b))

/-- The whole product's dimension numbers: the reference's, for `[100000, 128] × [128, 128]`. -/
abbrev whole := Cert.ReferenceIdeal.dot_S100000x128_S128x128_S100000x128_1_0_0_1_n_n

theorem whole_plain : PlainDot.IsPlain (M := 100000) (K := 128) (N := 128) whole :=
  ⟨rfl, rfl, rfl, rfl, rfl, rfl, rfl, rfl⟩

theorem tile_plain : PlainDot.IsPlain (M := 5000) (K := 128) (N := 128) dot_S5000x128_S128x128_S5000x128_1_0_0_1_n_n :=
  ⟨rfl, rfl, rfl, rfl, rfl, rfl, rfl, rfl⟩

/-- The product of the whole node array with the weights, in the host's spelling. -/
def prod (X : FVec Ideal S100000x128 .f32) (Wt : FVec Ideal S128x128 .f32) : FVec Ideal S100000x128 .f32 :=
  Host.dotGeneral whole none X Wt

theorem hz : (![0, 0] : Fin 2 → Nat) = fun _ => 0 := funext fun a => by fin_cases a <;> rfl

/-- The tile's product at `(p, q)` is the whole product at `(r, q)` when the tile's row `p` is the array's row `r`. -/
theorem pay_eq (x0 : Vec Ideal S5000x128 .f32) (x1 : Vec Ideal S128x128 .f32)
    (X : FVec Ideal S100000x128 .f32) (Wt : FVec Ideal S128x128 .f32) (p : Fin 5000) (q : Fin 128) (r : Fin 100000)
    (hx : ∀ k : Fin 128, x0 (ix2 p k) = X (ix2 r k)) (hw : ∀ k : Fin 128, x1 (ix2 k q) = Wt (ix2 k q)) :
    k4_pay1 x0 x1 (ix2 p q) = Host.dotGeneral whole none X Wt (ix2 r q) := by
  unfold k4_pay1
  try simp only [shapeCast_self]
  exact PlainDot.matmul_rows_eq_dotGeneral tile_plain whole_plain none none _ _ X Wt p r q
    (fun k => hx k) (fun k => hw k)

/-- The printed index maps over the grid: the node windows move with the grid point, the weight window stays. -/
theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- The array row that grid point `t`'s block row `p` is. -/
def rowOf (t : Fin cfg4.N) (p : Fin 5000) : Fin 100000 :=
  ⟨t.val * 5000 + p.val, by have h : t.val < 20 := t.isLt; have := p.isLt; omega⟩

theorem emb_in (t : Fin cfg4.N) (p : Fin 5000) (k : Fin 128) :
    ((cfg4.win 0).blk t).view.emb (ix2 p k) = ix2 (rowOf t p) k := by
  obtain ⟨e0, e1, -⟩ := idx_facts t
  funext a; apply Fin.ext
  match a with
  | ⟨0, _⟩ => show win4_0.index t (0 : Fin 2) * 5000 + 1 * p.val = t.val * 5000 + p.val; omega
  | ⟨1, _⟩ => show win4_0.index t (1 : Fin 2) * 128 + 1 * k.val = k.val; omega

theorem emb_w (t : Fin cfg4.N) (k : Fin 128) (q : Fin 128) :
    ((cfg4.win 1).blk t).view.emb (ix2 k q) = ix2 k q := by
  obtain ⟨-, -, e2, e3, -⟩ := idx_facts t
  funext a; apply Fin.ext
  match a with
  | ⟨0, _⟩ => show win4_1.index t (0 : Fin 2) * 128 + 1 * k.val = k.val; omega
  | ⟨1, _⟩ => show win4_1.index t (1 : Fin 2) * 128 + 1 * q.val = q.val; omega

theorem emb_out (t : Fin cfg4.N) (p : Fin 5000) (q : Fin 128) :
    ((cfg4.win 2).blk t).view.emb (ix2 p q) = ix2 (rowOf t p) q := by
  obtain ⟨-, -, -, -, e4, e5⟩ := idx_facts t
  funext a; apply Fin.ext
  match a with
  | ⟨0, _⟩ => show win4_2.index t (0 : Fin 2) * 5000 + 1 * p.val = t.val * 5000 + p.val; omega
  | ⟨1, _⟩ => show win4_2.index t (1 : Fin 2) * 128 + 1 * q.val = q.val; omega

/-- What grid point `t` writes back is block `t` of the product of the region's two input arrays. -/
theorem flushed_eq (c : Dev nD) (t : Fin cfg4.N) :
    (dat4 V c).flushed 2 t = ((cfg4.win 2).blk t).view.read (Elt Ideal)
      (prod (V c main_v57) (V c main_arg8)) := by
  show (cfg4.win 2).cut (grid4.coords t) ((dat4 V c).after 2 t) = _
  rw [after4_2]
  unfold out4_2
  rw [View.canon_unit_zero hz]
  simp only [View.ld_unit_zero (S := S5000x128) hz, View.ld_unit_zero (S := S128x128) hz]
  funext j
  obtain ⟨p, q, rfl⟩ : ∃ (p : Fin 5000) (q : Fin 128), j = ix2 p q := ⟨j 0, j 1, eq_ix2 j⟩
  show k4_pay1 (iblk4 V c 0 t) (iblk4 V c 1 t) (ix2 p q)
    = prod (V c main_v57) (V c main_arg8) (((cfg4.win 2).blk t).view.emb (ix2 p q))
  rw [emb_out t p q]
  unfold prod
  refine pay_eq _ _ (V c main_v57) (V c main_arg8) p q (rowOf t p) (fun k => ?_) (fun k => ?_)
  · show V c main_v57 (((cfg4.win 0).blk t).view.emb (ix2 p k)) = _
    rw [emb_in t p k]
  · show V c main_arg8 (((cfg4.win 1).blk t).view.emb (ix2 k q)) = _
    rw [emb_w t k q]

theorem mem_blk (t : Fin cfg4.N) (i : S100000x128.Idx) :
    i ∈ ((cfg4.win 2).blk t).view.set ↔ ∀ a : Fin 2, win4_2.index t a * S5000x128.size a ≤ (i a).val
      ∧ (i a).val < win4_2.index t a * S5000x128.size a + S5000x128.size a := by
  show i ∈ ((View.whole main_v58).slice (win4_2.rect t)).set ↔ _
  rw [View.set_slice_whole, Rect.mem_set_unit]
  exact Iff.rfl

/-- Every index of the result lies in the block of the grid point its row selects. -/
theorem cover (i : S100000x128.Idx) :
    ∃ t : Fin cfg4.N, (cfg4.win 2).flush t = true ∧ i ∈ ((cfg4.win 2).blk t).view.set := by
  have hi0 : (i 0).val < 100000 := (i 0).isLt
  have hi1 : (i 1).val < 128 := (i 1).isLt
  have ht : (i 0).val / 5000 < cfg4.N := by show (i 0).val / 5000 < 20; omega
  refine ⟨⟨(i 0).val / 5000, ht⟩, flush4_2 _, ?_⟩
  rw [mem_blk]
  obtain ⟨-, -, -, -, e4, e5⟩ := idx_facts ⟨(i 0).val / 5000, ht⟩
  intro a
  match a with
  | ⟨0, _⟩ =>
    show win4_2.index ⟨(i 0).val / 5000, ht⟩ (0 : Fin 2) * 5000 ≤ (i 0).val
      ∧ (i 0).val < win4_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win4_2.index ⟨(i 0).val / 5000, ht⟩ (1 : Fin 2) * 128 ≤ (i 1).val
      ∧ (i 1).val < win4_2.index ⟨(i 0).val / 5000, ht⟩ (1 : Fin 2) * 128 + 128
    rw [e5]; omega

/-- THE REGION'S RESULT: the product of its two input arrays as the region finds them. -/
theorem final (c : Dev nD) :
    (dat4 V c).arrAt 2 cfg4.N = prod (V c main_v57) (V c main_arg8) :=
  (dat4 V c).arrAt_eq_of_cover 2 _ (fun t _ => flushed_eq V c t) cover

end Cert.KernelIdeal.Region4

end
-- ==== Proof.Region5.lean ====
/-
  Region 5: a graph-convolution layer's combine step, tiled over the nodes. Grid point `t` stages rows
  `5000·t … 5000·t + 4999` of the aggregated messages, of the layer's dense product and of the column of inverse degrees,
  and the whole bias row, and writes back `max (agg + h · invdeg + bias, 0)` of those blocks. The step is pointwise in the
  node and the feature (the column and the row only laid along the other axis), so the blocks written back are the
  blocks of the one pointwise expression of the whole arrays, spelt with the host's broadcasts; the twenty blocks tile
  the result.
-/
import proofs.«136587_j28235115004171_1_alg».proof.Proof.Gen.KernelIdeal.Frame
import proofs.«136587_j28235115004171_1_alg».proof.Proof.Gen.ReferenceIdeal
import proofs.«136587_j28235115004171_1_alg».proof.Proof.LibColumnBroadcast
import Idealize.ShloMosaic.Lib.Pipeline.Value
import Idealize.ShloMosaic.Lib.ValueIdx
import Idealize.ShloMosaic.Lib.ValueLayout
import Idealize.ShloMosaic.Lib.IdealHost
import Idealize.ShloMosaic.Lib.KernelVsHost

set_option maxRecDepth 16384

noncomputable section

namespace Cert.KernelIdeal.Region5

open Cert.KernelIdeal Cert.KernelIdeal.Gen
open Idealize.ShloMosaic Idealize.ShloMosaic.TcCoe Idealize.ShloMosaic.ValueIdx Idealize.SL.Sem
open Idealize.ShloMosaic.Pipeline (Dat)
open Cert.Gcn

variable (V : (c : Dev nD) → (b : Ref sig .tc) → Buf (Elt Ideal) ((c : Thread nD τ).loc b))

/-- The combine step on whole arrays, in the host's spelling: the column of inverse degrees and the bias row laid along
    the other axis by `broadcast_in_dim`, the rectifier a maximum with the zero array. -/
def combine (A H : FVec Ideal S100000x128 .f32) (IC : FVec Ideal S100000x1 .f32) (BR : FVec Ideal S1x128 .f32) :
    FVec Ideal S100000x128 .f32 :=
  maximumf (addf (addf A (mulf H (broadcastInDim S100000x128 ![0, 1] Cert.ReferenceIdeal.Gen.bcast_S100000x1_S100000x128_0_1 IC)))
      (broadcastInDim S100000x128 ![0, 1] Cert.ReferenceIdeal.Gen.bcast_S1x128_S100000x128_0_1 BR))
    (broadcastInDim S100000x128 ![] Cert.ReferenceIdeal.Gen.bcast_S_S100000x128 (constant S_ .f32 0x00000000#32))

theorem combine_apply (A H : FVec Ideal S100000x128 .f32) (IC : FVec Ideal S100000x1 .f32) (BR : FVec Ideal S1x128 .f32)
    (r : Fin 100000) (q : Fin 128) :
    combine A H IC BR (ix2 r q)
      = max ((A (ix2 r q) + H (ix2 r q) * IC (ix2 r (0 : Fin 1))) + BR (ix2 (0 : Fin 1) q)) (Ideal.ofBits .f32 0x00000000#32) := by
  unfold combine
  rw [maximumf_apply, addf_apply, addf_apply, mulf_apply, Layout.broadcastInDim_col_apply, broadcastInDim_oneRow_apply,
    broadcastInDim_scalar_apply]
  rfl

/-- The tile's payload at `(p, q)`: the same expression of the staged blocks. -/
theorem pay_apply (x0 x1 : Vec Ideal S5000x128 .f32) (x2 : Vec Ideal S5000x1 .f32) (x3 : Vec Ideal S1x128 .f32)
    (p : Fin 5000) (q : Fin 128) :
    k5_pay1 x0 x1 x2 x3 (ix2 p q)
      = max ((x0 (ix2 p q) + x1 (ix2 p q) * x2 (ix2 p (0 : Fin 1))) + x3 (ix2 (0 : Fin 1) q)) (Ideal.ofBits .f32 0x00000000#32) := by
  unfold k5_pay1
  simp only [shapeCast_self]
  rw [maximumf_apply, addf_apply, addf_apply, mulf_apply, Layout.broadcastTo_a1_ab_apply, broadcastTo_1b_ab_apply]
  rfl

/-- One entry: the tile's payload at `(p, q)` is the whole arrays' combine step at `(r, q)` when the staged blocks hold the
    arrays' entries of row `r` (and the bias row is the bias row). -/
theorem point_eq (A H : FVec Ideal S100000x128 .f32) (IC : FVec Ideal S100000x1 .f32) (BR : FVec Ideal S1x128 .f32)
    (x0 x1 : Vec Ideal S5000x128 .f32) (x2 : Vec Ideal S5000x1 .f32) (x3 : Vec Ideal S1x128 .f32)
    (p : Fin 5000) (q : Fin 128) (r : Fin 100000)
    (h0 : x0 (ix2 p q) = A (ix2 r q)) (h1 : x1 (ix2 p q) = H (ix2 r q))
    (h2 : x2 (ix2 p (0 : Fin 1)) = IC (ix2 r (0 : Fin 1))) (h3 : x3 (ix2 (0 : Fin 1) q) = BR (ix2 (0 : Fin 1) q)) :
    k5_pay1 x0 x1 x2 x3 (ix2 p q) = combine A H IC BR (ix2 r q) := by
  rw [pay_apply, combine_apply, h0, h1, h2, h3]

theorem hz : (![0, 0] : Fin 2 → Nat) = fun _ => 0 := funext fun a => by fin_cases a <;> rfl

theorem idx_facts : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0 :=
  (by decide +kernel : ∀ t : Fin grid5.N, _)

/-- The array row that grid point `t`'s block row `p` is. -/
def rowOf (t : Fin cfg5.N) (p : Fin 5000) : Fin 100000 :=
  ⟨t.val * 5000 + p.val, by have h : t.val < 20 := t.isLt; have := p.isLt; omega⟩

theorem emb0 (t : Fin cfg5.N) (p : Fin 5000) (q : Fin 128) :
    ((cfg5.win 0).blk t).view.emb (ix2 p q) = ix2 (rowOf t p) q := by
  obtain ⟨e0, e1, -⟩ := idx_facts t
  funext a; apply Fin.ext
  match a with
  | ⟨0, _⟩ => show win5_0.index t (0 : Fin 2) * 5000 + 1 * p.val = t.val * 5000 + p.val; omega
  | ⟨1, _⟩ => show win5_0.index t (1 : Fin 2) * 128 + 1 * q.val = q.val; omega

theorem emb1 (t : Fin cfg5.N) (p : Fin 5000) (q : Fin 128) :
    ((cfg5.win 1).blk t).view.emb (ix2 p q) = ix2 (rowOf t p) q := by
  obtain ⟨-, -, e0, e1, -⟩ := idx_facts t
  funext a; apply Fin.ext
  match a with
  | ⟨0, _⟩ => show win5_1.index t (0 : Fin 2) * 5000 + 1 * p.val = t.val * 5000 + p.val; omega
  | ⟨1, _⟩ => show win5_1.index t (1 : Fin 2) * 128 + 1 * q.val = q.val; omega

theorem emb2 (t : Fin cfg5.N) (p : Fin 5000) (u : Fin 1) :
    ((cfg5.win 2).blk t).view.emb (ix2 p u) = ix2 (rowOf t p) u := by
  obtain ⟨-, -, -, -, e0, e1, -⟩ := idx_facts t
  funext a; apply Fin.ext
  match a with
  | ⟨0, _⟩ => show win5_2.index t (0 : Fin 2) * 5000 + 1 * p.val = t.val * 5000 + p.val; omega
  | ⟨1, _⟩ => show win5_2.index t (1 : Fin 2) * 1 + 1 * u.val = u.val; omega

theorem emb3 (t : Fin cfg5.N) (u : Fin 1) (q : Fin 128) :
    ((cfg5.win 3).blk t).view.emb (ix2 u q) = ix2 u q := by
  obtain ⟨-, -, -, -, -, -, e0, e1, -⟩ := idx_facts t
  funext a; apply Fin.ext
  match a with
  | ⟨0, _⟩ => show win5_3.index t (0 : Fin 2) * 1 + 1 * u.val = u.val; omega
  | ⟨1, _⟩ => show win5_3.index t (1 : Fin 2) * 128 + 1 * q.val = q.val; omega

theorem emb4 (t : Fin cfg5.N) (p : Fin 5000) (q : Fin 128) :
    ((cfg5.win 4).blk t).view.emb (ix2 p q) = ix2 (rowOf t p) q := by
  obtain ⟨-, -, -, -, -, -, -, -, e0, e1⟩ := idx_facts t
  funext a; apply Fin.ext
  match a with
  | ⟨0, _⟩ => show win5_4.index t (0 : Fin 2) * 5000 + 1 * p.val = t.val * 5000 + p.val; omega
  | ⟨1, _⟩ => show win5_4.index t (1 : Fin 2) * 128 + 1 * q.val = q.val; omega

/-- What grid point `t` writes back is block `t` of the combine step of the region's four input arrays. -/
theorem flushed_eq (c : Dev nD) (t : Fin cfg5.N) :
    (dat5 V c).flushed 4 t = ((cfg5.win 4).blk t).view.read (Elt Ideal)
      (combine (V c main_v71) (V c main_v58) (V c main_v73) (V c main_v72)) := by
  show (cfg5.win 4).cut (grid5.coords t) ((dat5 V c).after 4 t) = _
  rw [after5_4]
  unfold out5_4
  rw [View.canon_unit_zero hz]
  simp only [View.ld_unit_zero (S := S5000x128) hz, View.ld_unit_zero (S := S5000x1) hz, View.ld_unit_zero (S := S1x128) hz]
  funext j
  obtain ⟨p, q, rfl⟩ : ∃ (p : Fin 5000) (q : Fin 128), j = ix2 p q := ⟨j 0, j 1, eq_ix2 j⟩
  show k5_pay1 (iblk5 V c 0 t) (iblk5 V c 1 t) (iblk5 V c 2 t) (iblk5 V c 3 t) (ix2 p q)
    = combine (V c main_v71) (V c main_v58) (V c main_v73) (V c main_v72) (((cfg5.win 4).blk t).view.emb (ix2 p q))
  rw [emb4 t p q]
  refine point_eq (V c main_v71) (V c main_v58) (V c main_v73) (V c main_v72) _ _ _ _ p q (rowOf t p) ?_ ?_ ?_ ?_
  · show V c main_v71 (((cfg5.win 0).blk t).view.emb (ix2 p q)) = _
    rw [emb0 t p q]
  · show V c main_v58 (((cfg5.win 1).blk t).view.emb (ix2 p q)) = _
    rw [emb1 t p q]
  · show V c main_v73 (((cfg5.win 2).blk t).view.emb (ix2 p (0 : Fin 1))) = _
    rw [emb2 t p 0]
  · show V c main_v72 (((cfg5.win 3).blk t).view.emb (ix2 (0 : Fin 1) q)) = _
    rw [emb3 t 0 q]

theorem mem_blk (t : Fin cfg5.N) (i : S100000x128.Idx) :
    i ∈ ((cfg5.win 4).blk t).view.set ↔ ∀ a : Fin 2, win5_4.index t a * S5000x128.size a ≤ (i a).val
      ∧ (i a).val < win5_4.index t a * S5000x128.size a + S5000x128.size a := by
  show i ∈ ((View.whole main_v74).slice (win5_4.rect t)).set ↔ _
  rw [View.set_slice_whole, Rect.mem_set_unit]
  exact Iff.rfl

/-- Every index of the result lies in the block of the grid point its row selects. -/
theorem cover (i : S100000x128.Idx) :
    ∃ t : Fin cfg5.N, (cfg5.win 4).flush t = true ∧ i ∈ ((cfg5.win 4).blk t).view.set := by
  have hi0 : (i 0).val < 100000 := (i 0).isLt
  have hi1 : (i 1).val < 128 := (i 1).isLt
  have ht : (i 0).val / 5000 < cfg5.N := by show (i 0).val / 5000 < 20; omega
  refine ⟨⟨(i 0).val / 5000, ht⟩, flush5_4 _, ?_⟩
  rw [mem_blk]
  obtain ⟨-, -, -, -, -, -, -, -, e4, e5⟩ := idx_facts ⟨(i 0).val / 5000, ht⟩
  intro a
  match a with
  | ⟨0, _⟩ =>
    show win5_4.index ⟨(i 0).val / 5000, ht⟩ (0 : Fin 2) * 5000 ≤ (i 0).val
      ∧ (i 0).val < win5_4.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win5_4.index ⟨(i 0).val / 5000, ht⟩ (1 : Fin 2) * 128 ≤ (i 1).val
      ∧ (i 1).val < win5_4.index ⟨(i 0).val / 5000, ht⟩ (1 : Fin 2) * 128 + 128
    rw [e5]; omega

/-- THE REGION'S RESULT: the combine step of its four input arrays as the region finds them. -/
theorem final (c : Dev nD) :
    (dat5 V c).arrAt 4 cfg5.N = combine (V c main_v71) (V c main_v58) (V c main_v73) (V c main_v72) :=
  (dat5 V c).arrAt_eq_of_cover 4 _ (fun t _ => flushed_eq V c t) cover

end Cert.KernelIdeal.Region5

end
-- ==== Proof.Region6.lean ====
/-
  Region 6: the embedding and the cosine scores, tiled over the nodes. Grid point `t` stages rows
  `5000·t … 5000·t + 4999` of the last layer's output and the whole embedding weights, bias row and basis array, and
  writes back two blocks: the embedding `ne = h · Wm + bm` of those rows, and the scores
  `(ne · basis) / (√(Σ_k ne_k²) + ε)` of those rows. Every entry of either result depends on one row of `h` alone (through
  two contractions over whole shared axes and one sum along the row), so the blocks written back are the blocks of the
  two whole-array expressions in the host's spelling; the twenty blocks tile each result.
-/
import proofs.«136587_j28235115004171_1_alg».proof.Proof.Gen.KernelIdeal.Frame
import proofs.«136587_j28235115004171_1_alg».proof.Proof.Gen.ReferenceIdeal
import proofs.«136587_j28235115004171_1_alg».proof.Proof.LibPlainDot
import proofs.«136587_j28235115004171_1_alg».proof.Proof.LibColumnBroadcast
import Idealize.ShloMosaic.Lib.Pipeline.Value
import Idealize.ShloMosaic.Lib.ValueIdx
import Idealize.ShloMosaic.Lib.ValueLayout
import Idealize.ShloMosaic.Lib.IdealHost
import Idealize.ShloMosaic.Lib.KernelVsHost
import Idealize.ShloMosaic.PureOps.Ideal.Laws

set_option maxRecDepth 16384

noncomputable section

open scoped BigOperators

namespace Cert.KernelIdeal.Region6

open Cert.KernelIdeal Cert.KernelIdeal.Gen
open Idealize.ShloMosaic Idealize.ShloMosaic.TcCoe Idealize.ShloMosaic.ValueIdx Idealize.SL.Sem
open Idealize.ShloMosaic.Pipeline (Dat)
open Cert.Gcn

variable (V : (c : Dev nD) → (b : Ref sig .tc) → Buf (Elt Ideal) ((c : Thread nD τ).loc b))

abbrev wholeA := Cert.ReferenceIdeal.dot_S100000x128_S128x64_S100000x64_1_0_0_1_n_n
abbrev wholeB := Cert.ReferenceIdeal.dot_S100000x64_S64x50_S100000x50_1_0_0_1_n_n

theorem wholeA_plain : PlainDot.IsPlain (M := 100000) (K := 128) (N := 64) wholeA := ⟨rfl, rfl, rfl, rfl, rfl, rfl, rfl, rfl⟩
theorem wholeB_plain : PlainDot.IsPlain (M := 100000) (K := 64) (N := 50) wholeB := ⟨rfl, rfl, rfl, rfl, rfl, rfl, rfl, rfl⟩
theorem tileA_plain : PlainDot.IsPlain (M := 5000) (K := 128) (N := 64) dot_S5000x128_S128x64_S5000x64_1_0_0_1_n_n :=
  ⟨rfl, rfl, rfl, rfl, rfl, rfl, rfl, rfl⟩
theorem tileB_plain : PlainDot.IsPlain (M := 5000) (K := 64) (N := 50) dot_S5000x64_S64x50_S5000x50_1_0_0_1_n_n :=
  ⟨rfl, rfl, rfl, rfl, rfl, rfl, rfl, rfl⟩

/-- The embedding on whole arrays, in the host's spelling: the product with the weights plus the bias row laid down the rows. -/
def embed (H : FVec Ideal S100000x128 .f32) (Wm : FVec Ideal S128x64 .f32) (BR : FVec Ideal S1x64 .f32) :
    FVec Ideal S100000x64 .f32 :=
  addf (Host.dotGeneral wholeA none H Wm)
    (broadcastInDim S100000x64 ![0, 1] Cert.ReferenceIdeal.Gen.bcast_S1x64_S100000x64_0_1 BR)

/-- The row norms plus epsilon as a column, in the host's spelling. -/
def normEps (NE : FVec Ideal S100000x64 .f32) : FVec Ideal S100000x1 .f32 :=
  addf (Host.sqrt (broadcastInDim S100000x1 ![0] Cert.ReferenceIdeal.Gen.bcast_S100000_S100000x1_0
      (Host.reduceAdd (mulf NE NE) (constant S_ .f32 0x00000000#32) Cert.ReferenceIdeal.Gen.reducesTo_S100000x64_S100000_d1
        Cert.ReferenceIdeal.Gen.h_S_)))
    (broadcastInDim S100000x1 ![] Cert.ReferenceIdeal.Gen.bcast_S_S100000x1 (constant S_ .f32 0x322BCC77#32))

/-- The cosine scores on whole arrays, in the host's spelling. -/
def cosine (NE : FVec Ideal S100000x64 .f32) (B : FVec Ideal S64x50 .f32) : FVec Ideal S100000x50 .f32 :=
  Host.divf (Host.dotGeneral wholeB none NE B)
    (broadcastInDim S100000x50 ![0, 1] Cert.ReferenceIdeal.Gen.bcast_S100000x1_S100000x50_0_1 (normEps NE))

theorem hostSqrt_apply {s : Shape} {φ : FTy} (x : FVec Ideal s φ) (i : s.Idx) : Host.sqrt x i = Ideal.sqrt (x i) := rfl
theorem sqrt_apply {s : Shape} {φ : FTy} (x : FVec Ideal s φ) (i : s.Idx) : sqrt x i = Ideal.sqrt (x i) := rfl

theorem embed_apply (H : FVec Ideal S100000x128 .f32) (Wm : FVec Ideal S128x64 .f32) (BR : FVec Ideal S1x64 .f32)
    (r : Fin 100000) (q : Fin 64) :
    embed H Wm BR (ix2 r q) = (∑ k : Fin 128, H (ix2 r k) * Wm (ix2 k q)) + BR (ix2 (0 : Fin 1) q) := by
  unfold embed
  rw [addf_apply, PlainDot.dotGeneral_apply wholeA_plain, broadcastInDim_oneRow_apply]
  try rfl

theorem hred : S100000x64.Reduces [1] S100000 := by decide

/-- The host's sum along a row of a `[100000, 64]` array from a zero initial value, at row `r`. -/
theorem hostRowSum (x : FVec Ideal S100000x64 .f32) (h' : S100000x64.ReducesTo [1] S100000) (hu : 0 < S_.numel)
    (r : Fin 100000) :
    Host.reduceAdd x (constant S_ .f32 0x00000000#32) h' hu (ix1 r) = ∑ k : Fin 64, x (ix2 r k) := by
  refine (hostReduceAdd_apply x _ h' hu (ix1 r)).trans ((Ideal.hostReduceAdd_single h' hred x _ (ix1 r)).trans ?_)
  rw [constant_apply, Ideal.ofBits_zero_f32, zero_add]
  refine Finset.sum_congr rfl fun k _ => congrArg x ?_
  funext a; apply Fin.ext
  match a with
  | ⟨0, _⟩ => rfl
  | ⟨1, _⟩ => rfl

/-- A tile's lane sum along a row of a `[5000, 64]` tile, at row `p`. -/
theorem tileRowSum (src : FVec Ideal S5000x64 .f32) (h : S5000x64.Reduces [1] S5000) (hφ : FKind.Formats .f32)
    (hacc : (0x00000000#32 : BitVec FTy.f32.bits) = FKind.add.neutral .f32 hφ) (p : Fin 5000) :
    multiReduction .add [1] S5000 src 0x00000000#32 h hφ hacc (ix1 p) = ∑ k : Fin 64, src (ix2 p k) := by
  refine (Ideal.multiReduction_add_single src 0x00000000#32 h hφ hacc (ix1 p)).trans ?_
  refine Finset.sum_congr rfl fun k _ => congrArg src ?_
  funext a; apply Fin.ext
  match a with
  | ⟨0, _⟩ => rfl
  | ⟨1, _⟩ => rfl

theorem normEps_apply (NE : FVec Ideal S100000x64 .f32) (r : Fin 100000) (u : Fin 1) :
    normEps NE (ix2 r u) = Ideal.sqrt (∑ k : Fin 64, NE (ix2 r k) * NE (ix2 r k)) + Ideal.ofBits .f32 0x322BCC77#32 := by
  unfold normEps
  rw [addf_apply, hostSqrt_apply, broadcastInDim_scalar_apply, Layout.broadcastInDim_a_a1_apply, hostRowSum, constant_apply]
  try rfl

theorem cosine_apply (NE : FVec Ideal S100000x64 .f32) (B : FVec Ideal S64x50 .f32) (r : Fin 100000) (q : Fin 50) :
    cosine NE B (ix2 r q) = Ideal.div (∑ k : Fin 64, NE (ix2 r k) * B (ix2 k q))
      (Ideal.sqrt (∑ k : Fin 64, NE (ix2 r k) * NE (ix2 r k)) + Ideal.ofBits .f32 0x322BCC77#32) := by
  unfold cosine
  rw [hostDivf_apply, PlainDot.dotGeneral_apply wholeB_plain, Layout.broadcastInDim_col_apply, normEps_apply]
  try rfl

/-- The tile's embedding payload at `(p, q)`. -/
theorem pay1_apply (x0 : Vec Ideal S5000x128 .f32) (x1 : Vec Ideal S128x64 .f32) (x2 : Vec Ideal S1x64 .f32)
    (p : Fin 5000) (q : Fin 64) :
    k6_pay1 x0 x1 x2 (ix2 p q) = (∑ k : Fin 128, x0 (ix2 p k) * x1 (ix2 k q)) + x2 (ix2 (0 : Fin 1) q) := by
  unfold k6_pay1
  simp only [shapeCast_self]
  rw [addf_apply, PlainDot.matmul_zero_apply tileA_plain, broadcastTo_1b_ab_apply]
  try rfl

/-- The tile's score payload at `(p, q)`, over the tile's embedding. -/
theorem pay2_apply (x0 : Vec Ideal S5000x128 .f32) (x1 : Vec Ideal S128x64 .f32) (x2 : Vec Ideal S1x64 .f32)
    (x3 : Vec Ideal S64x50 .f32) (p : Fin 5000) (q : Fin 50) :
    k6_pay2 x0 x1 x2 x3 (ix2 p q) = Ideal.div (∑ k : Fin 64, k6_pay1 x0 x1 x2 (ix2 p k) * x3 (ix2 k q))
      (Ideal.sqrt (∑ k : Fin 64, k6_pay1 x0 x1 x2 (ix2 p k) * k6_pay1 x0 x1 x2 (ix2 p k)) + Ideal.ofBits .f32 0x322BCC77#32) := by
  unfold k6_pay2
  rw [divf_apply, PlainDot.matmul_zero_apply tileB_plain, Layout.broadcastTo_a1_ab_apply, addf_apply, sqrt_apply,
    Layout.shapeCast_a_a1_apply]
  exact congrArg₂ Ideal.div rfl (congrArg₂ (· + ·) (congrArg Ideal.sqrt (tileRowSum _ _ _ _ p)) rfl)

/-- One entry of the embedding: the tile's payload at `(p, q)` is the whole arrays' embedding at `(r, q)` when the tile's
    row `p` is the array's row `r`. -/
theorem embed_point (H : FVec Ideal S100000x128 .f32) (Wm : FVec Ideal S128x64 .f32) (BR : FVec Ideal S1x64 .f32)
    (x0 : Vec Ideal S5000x128 .f32) (x1 : Vec Ideal S128x64 .f32) (x2 : Vec Ideal S1x64 .f32)
    (p : Fin 5000) (q : Fin 64) (r : Fin 100000)
    (h0 : ∀ k : Fin 128, x0 (ix2 p k) = H (ix2 r k)) (h1 : ∀ k : Fin 128, x1 (ix2 k q) = Wm (ix2 k q))
    (h2 : x2 (ix2 (0 : Fin 1) q) = BR (ix2 (0 : Fin 1) q)) :
    k6_pay1 x0 x1 x2 (ix2 p q) = embed H Wm BR (ix2 r q) := by
  rw [pay1_apply, embed_apply, h2]
  exact congrArg (· + _) (Finset.sum_congr rfl fun k _ => by rw [h0 k, h1 k])

/-- One entry of the scores, likewise, given the tile's embedding row is the whole embedding's row. -/
theorem cosine_point (NE : FVec Ideal S100000x64 .f32) (B : FVec Ideal S64x50 .f32)
    (x0 : Vec Ideal S5000x128 .f32) (x1 : Vec Ideal S128x64 .f32) (x2 : Vec Ideal S1x64 .f32) (x3 : Vec Ideal S64x50 .f32)
    (p : Fin 5000) (q : Fin 50) (r : Fin 100000)
    (hne : ∀ k : Fin 64, k6_pay1 x0 x1 x2 (ix2 p k) = NE (ix2 r k)) (h3 : ∀ k : Fin 64, x3 (ix2 k q) = B (ix2 k q)) :
    k6_pay2 x0 x1 x2 x3 (ix2 p q) = cosine NE B (ix2 r q) := by
  rw [pay2_apply, cosine_apply]
  simp only [hne, h3]

theorem hz : (![0, 0] : Fin 2 → Nat) = fun _ => 0 := funext fun a => by fin_cases a <;> rfl

theorem idx_facts : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = t.val ∧ win6_4.index t (1 : Fin 2) = 0
    ∧ win6_5.index t (0 : Fin 2) = t.val ∧ win6_5.index t (1 : Fin 2) = 0 :=
  (by decide +kernel : ∀ t : Fin grid6.N, _)

/-- The array row that grid point `t`'s block row `p` is. -/
def rowOf (t : Fin cfg6.N) (p : Fin 5000) : Fin 100000 :=
  ⟨t.val * 5000 + p.val, by have h : t.val < 20 := t.isLt; have := p.isLt; omega⟩

theorem emb0 (t : Fin cfg6.N) (p : Fin 5000) (k : Fin 128) :
    ((cfg6.win 0).blk t).view.emb (ix2 p k) = ix2 (rowOf t p) k := by
  obtain ⟨e0, e1, -⟩ := idx_facts t
  funext a; apply Fin.ext
  match a with
  | ⟨0, _⟩ => show win6_0.index t (0 : Fin 2) * 5000 + 1 * p.val = t.val * 5000 + p.val; omega
  | ⟨1, _⟩ => show win6_0.index t (1 : Fin 2) * 128 + 1 * k.val = k.val; omega

theorem emb1 (t : Fin cfg6.N) (k : Fin 128) (q : Fin 64) :
    ((cfg6.win 1).blk t).view.emb (ix2 k q) = ix2 k q := by
  obtain ⟨-, -, e0, e1, -⟩ := idx_facts t
  funext a; apply Fin.ext
  match a with
  | ⟨0, _⟩ => show win6_1.index t (0 : Fin 2) * 128 + 1 * k.val = k.val; omega
  | ⟨1, _⟩ => show win6_1.index t (1 : Fin 2) * 64 + 1 * q.val = q.val; omega

theorem emb2 (t : Fin cfg6.N) (u : Fin 1) (q : Fin 64) :
    ((cfg6.win 2).blk t).view.emb (ix2 u q) = ix2 u q := by
  obtain ⟨-, -, -, -, e0, e1, -⟩ := idx_facts t
  funext a; apply Fin.ext
  match a with
  | ⟨0, _⟩ => show win6_2.index t (0 : Fin 2) * 1 + 1 * u.val = u.val; omega
  | ⟨1, _⟩ => show win6_2.index t (1 : Fin 2) * 64 + 1 * q.val = q.val; omega

theorem emb3 (t : Fin cfg6.N) (k : Fin 64) (q : Fin 50) :
    ((cfg6.win 3).blk t).view.emb (ix2 k q) = ix2 k q := by
  obtain ⟨-, -, -, -, -, -, e0, e1, -⟩ := idx_facts t
  funext a; apply Fin.ext
  match a with
  | ⟨0, _⟩ => show win6_3.index t (0 : Fin 2) * 64 + 1 * k.val = k.val; omega
  | ⟨1, _⟩ => show win6_3.index t (1 : Fin 2) * 50 + 1 * q.val = q.val; omega

theorem emb4 (t : Fin cfg6.N) (p : Fin 5000) (q : Fin 64) :
    ((cfg6.win 4).blk t).view.emb (ix2 p q) = ix2 (rowOf t p) q := by
  obtain ⟨-, -, -, -, -, -, -, -, e0, e1, -⟩ := idx_facts t
  funext a; apply Fin.ext
  match a with
  | ⟨0, _⟩ => show win6_4.index t (0 : Fin 2) * 5000 + 1 * p.val = t.val * 5000 + p.val; omega
  | ⟨1, _⟩ => show win6_4.index t (1 : Fin 2) * 64 + 1 * q.val = q.val; omega

theorem emb5 (t : Fin cfg6.N) (p : Fin 5000) (q : Fin 50) :
    ((cfg6.win 5).blk t).view.emb (ix2 p q) = ix2 (rowOf t p) q := by
  obtain ⟨-, -, -, -, -, -, -, -, -, -, e0, e1⟩ := idx_facts t
  funext a; apply Fin.ext
  match a with
  | ⟨0, _⟩ => show win6_5.index t (0 : Fin 2) * 5000 + 1 * p.val = t.val * 5000 + p.val; omega
  | ⟨1, _⟩ => show win6_5.index t (1 : Fin 2) * 50 + 1 * q.val = q.val; omega

/-- The tile's embedding at `(p, q)` is the whole embedding at the array row of `p`. -/
theorem tile_embed (c : Dev nD) (t : Fin cfg6.N) (p : Fin 5000) (q : Fin 64) :
    k6_pay1 (iblk6 V c 0 t) (iblk6 V c 1 t) (iblk6 V c 2 t) (ix2 p q)
      = embed (V c main_v74) (V c main_arg10) (V c main_v75) (ix2 (rowOf t p) q) := by
  refine embed_point (V c main_v74) (V c main_arg10) (V c main_v75) _ _ _ p q (rowOf t p) (fun k => ?_) (fun k => ?_) ?_
  · show V c main_v74 (((cfg6.win 0).blk t).view.emb (ix2 p k)) = _
    rw [emb0 t p k]
  · show V c main_arg10 (((cfg6.win 1).blk t).view.emb (ix2 k q)) = _
    rw [emb1 t k q]
  · show V c main_v75 (((cfg6.win 2).blk t).view.emb (ix2 (0 : Fin 1) q)) = _
    rw [emb2 t 0 q]

theorem flushed4_eq (c : Dev nD) (t : Fin cfg6.N) :
    (dat6 V c).flushed 4 t = ((cfg6.win 4).blk t).view.read (Elt Ideal)
      (embed (V c main_v74) (V c main_arg10) (V c main_v75)) := by
  show (cfg6.win 4).cut (grid6.coords t) ((dat6 V c).after 4 t) = _
  rw [after6_4]
  unfold out6_4
  rw [View.canon_unit_zero hz]
  simp only [View.ld_unit_zero (S := S5000x128) hz, View.ld_unit_zero (S := S128x64) hz, View.ld_unit_zero (S := S1x64) hz]
  funext j
  obtain ⟨p, q, rfl⟩ : ∃ (p : Fin 5000) (q : Fin 64), j = ix2 p q := ⟨j 0, j 1, eq_ix2 j⟩
  show k6_pay1 (iblk6 V c 0 t) (iblk6 V c 1 t) (iblk6 V c 2 t) (ix2 p q)
    = embed (V c main_v74) (V c main_arg10) (V c main_v75) (((cfg6.win 4).blk t).view.emb (ix2 p q))
  rw [emb4 t p q]
  exact tile_embed V c t p q

theorem flushed5_eq (c : Dev nD) (t : Fin cfg6.N) :
    (dat6 V c).flushed 5 t = ((cfg6.win 5).blk t).view.read (Elt Ideal)
      (cosine (embed (V c main_v74) (V c main_arg10) (V c main_v75)) (V c main_arg12)) := by
  show (cfg6.win 5).cut (grid6.coords t) ((dat6 V c).after 5 t) = _
  rw [after6_5]
  unfold out6_5
  rw [View.canon_unit_zero hz]
  simp only [View.ld_unit_zero (S := S5000x128) hz, View.ld_unit_zero (S := S128x64) hz, View.ld_unit_zero (S := S1x64) hz,
    View.ld_unit_zero (S := S64x50) hz]
  funext j
  obtain ⟨p, q, rfl⟩ : ∃ (p : Fin 5000) (q : Fin 50), j = ix2 p q := ⟨j 0, j 1, eq_ix2 j⟩
  show k6_pay2 (iblk6 V c 0 t) (iblk6 V c 1 t) (iblk6 V c 2 t) (iblk6 V c 3 t) (ix2 p q)
    = cosine (embed (V c main_v74) (V c main_arg10) (V c main_v75)) (V c main_arg12) (((cfg6.win 5).blk t).view.emb (ix2 p q))
  rw [emb5 t p q]
  refine cosine_point (embed (V c main_v74) (V c main_arg10) (V c main_v75)) (V c main_arg12) _ _ _ _ p q (rowOf t p)
    (fun k => tile_embed V c t p k) (fun k => ?_)
  show V c main_arg12 (((cfg6.win 3).blk t).view.emb (ix2 k q)) = _
  rw [emb3 t k q]

theorem mem_blk4 (t : Fin cfg6.N) (i : S100000x64.Idx) :
    i ∈ ((cfg6.win 4).blk t).view.set ↔ ∀ a : Fin 2, win6_4.index t a * S5000x64.size a ≤ (i a).val
      ∧ (i a).val < win6_4.index t a * S5000x64.size a + S5000x64.size a := by
  show i ∈ ((View.whole main_v76_0).slice (win6_4.rect t)).set ↔ _
  rw [View.set_slice_whole, Rect.mem_set_unit]
  exact Iff.rfl

theorem mem_blk5 (t : Fin cfg6.N) (i : S100000x50.Idx) :
    i ∈ ((cfg6.win 5).blk t).view.set ↔ ∀ a : Fin 2, win6_5.index t a * S5000x50.size a ≤ (i a).val
      ∧ (i a).val < win6_5.index t a * S5000x50.size a + S5000x50.size a := by
  show i ∈ ((View.whole main_v76_1).slice (win6_5.rect t)).set ↔ _
  rw [View.set_slice_whole, Rect.mem_set_unit]
  exact Iff.rfl

theorem cover4 (i : S100000x64.Idx) :
    ∃ t : Fin cfg6.N, (cfg6.win 4).flush t = true ∧ i ∈ ((cfg6.win 4).blk t).view.set := by
  have hi0 : (i 0).val < 100000 := (i 0).isLt
  have hi1 : (i 1).val < 64 := (i 1).isLt
  have ht : (i 0).val / 5000 < cfg6.N := by show (i 0).val / 5000 < 20; omega
  refine ⟨⟨(i 0).val / 5000, ht⟩, flush6_4 _, ?_⟩
  rw [mem_blk4]
  obtain ⟨-, -, -, -, -, -, -, -, e4, e5, -⟩ := idx_facts ⟨(i 0).val / 5000, ht⟩
  intro a
  match a with
  | ⟨0, _⟩ =>
    show win6_4.index ⟨(i 0).val / 5000, ht⟩ (0 : Fin 2) * 5000 ≤ (i 0).val
      ∧ (i 0).val < win6_4.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win6_4.index ⟨(i 0).val / 5000, ht⟩ (1 : Fin 2) * 64 ≤ (i 1).val
      ∧ (i 1).val < win6_4.index ⟨(i 0).val / 5000, ht⟩ (1 : Fin 2) * 64 + 64
    rw [e5]; omega

theorem cover5 (i : S100000x50.Idx) :
    ∃ t : Fin cfg6.N, (cfg6.win 5).flush t = true ∧ i ∈ ((cfg6.win 5).blk t).view.set := by
  have hi0 : (i 0).val < 100000 := (i 0).isLt
  have hi1 : (i 1).val < 50 := (i 1).isLt
  have ht : (i 0).val / 5000 < cfg6.N := by show (i 0).val / 5000 < 20; omega
  refine ⟨⟨(i 0).val / 5000, ht⟩, flush6_5 _, ?_⟩
  rw [mem_blk5]
  obtain ⟨-, -, -, -, -, -, -, -, -, -, e4, e5⟩ := idx_facts ⟨(i 0).val / 5000, ht⟩
  intro a
  match a with
  | ⟨0, _⟩ =>
    show win6_5.index ⟨(i 0).val / 5000, ht⟩ (0 : Fin 2) * 5000 ≤ (i 0).val
      ∧ (i 0).val < win6_5.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win6_5.index ⟨(i 0).val / 5000, ht⟩ (1 : Fin 2) * 50 ≤ (i 1).val
      ∧ (i 1).val < win6_5.index ⟨(i 0).val / 5000, ht⟩ (1 : Fin 2) * 50 + 50
    rw [e5]; omega

/-- THE REGION'S FIRST RESULT: the embedding of its input arrays as the region finds them. -/
theorem final4 (c : Dev nD) :
    (dat6 V c).arrAt 4 cfg6.N = embed (V c main_v74) (V c main_arg10) (V c main_v75) :=
  (dat6 V c).arrAt_eq_of_cover 4 _ (fun t _ => flushed4_eq V c t) cover4

/-- THE REGION'S SECOND RESULT: the cosine scores of that embedding against the basis array. -/
theorem final5 (c : Dev nD) :
    (dat6 V c).arrAt 5 cfg6.N = cosine (embed (V c main_v74) (V c main_arg10) (V c main_v75)) (V c main_arg12) :=
  (dat6 V c).arrAt_eq_of_cover 5 _ (fun t _ => flushed5_eq V c t) cover5

end Cert.KernelIdeal.Region6

end
-- ==== Proof.Chain.lean ====
import proofs.«136587_j28235115004171_1_alg».proof.Proof.KernelRun
import proofs.«136587_j28235115004171_1_alg».proof.Proof.Region0
import proofs.«136587_j28235115004171_1_alg».proof.Proof.Region1
import proofs.«136587_j28235115004171_1_alg».proof.Proof.Region2
import proofs.«136587_j28235115004171_1_alg».proof.Proof.Region3
import proofs.«136587_j28235115004171_1_alg».proof.Proof.Region4
import proofs.«136587_j28235115004171_1_alg».proof.Proof.Region5
import proofs.«136587_j28235115004171_1_alg».proof.Proof.Region6
import proofs.«136587_j28235115004171_1_alg».proof.Proof.Gen.ReferenceIdeal.Read
import proofs.«136587_j28235115004171_1_alg».proof.Proof.LibColumnBroadcast
import Idealize.ShloMosaic.Lib.StableHlo.Run

set_option maxRecDepth 16384

noncomputable section

namespace Cert.KernelIdeal.Chain

open Cert.KernelIdeal Cert.KernelIdeal.Gen
open Idealize.ShloMosaic Idealize.ShloMosaic.TcCoe Idealize.SL.Sem
open Cert.ReferenceIdeal.Read
open Cert.Gcn

variable (m : (ℓ : Loc nD τ sig) → Buf (Elt Ideal) ℓ) (ρ : Dev nD → PrngReg) (c : Dev nD)

/-- A stretch of host operations leaves a buffer none of them writes as it was. -/
macro "host_keeps" ops:ident : tactic => `(tactic| (
  refine StableHlo.after_of_forall_not_mem _ _ (List.forall_iff_forall_mem.mp ?_)
  simp only [$ops:ident, List.flatten_cons, List.flatten_nil, List.append_nil, List.cons_append, List.nil_append, List.Forall,
    StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

/-! ## The chain of boundary contents

  `atK_b`: what buffer `b` holds at boundary `K` (after segment `K`), as a function of the argument arrays. The values are
  named by the reference's own stage functions (`val_main_vN`: the reference's N-th operation as a function of the
  arguments), which is what makes the two programs meet: each region's whole-array result IS the reference's operation
  at that place, and each stretch of host operations is the reference's own stretch. -/

/-! ### Segment 1: the degrees, the edge norms and the inverse degrees (host) -/
theorem at1_arg0 : W1 m ρ c (Proc.devRef .tc main_arg0) = m ((c : Thread nD τ).loc main_arg0) :=
  (by host_keeps hostOps0 : W1 m ρ c (Proc.devRef .tc main_arg0) = W0 m ρ c (Proc.devRef .tc main_arg0)).trans rfl
theorem at1_arg1 : W1 m ρ c (Proc.devRef .tc main_arg1) = m ((c : Thread nD τ).loc main_arg1) :=
  (by host_keeps hostOps0 : W1 m ρ c (Proc.devRef .tc main_arg1) = W0 m ρ c (Proc.devRef .tc main_arg1)).trans rfl
theorem at1_arg2 : W1 m ρ c (Proc.devRef .tc main_arg2) = m ((c : Thread nD τ).loc main_arg2) :=
  (by host_keeps hostOps0 : W1 m ρ c (Proc.devRef .tc main_arg2) = W0 m ρ c (Proc.devRef .tc main_arg2)).trans rfl
theorem at1_arg3 : W1 m ρ c (Proc.devRef .tc main_arg3) = m ((c : Thread nD τ).loc main_arg3) :=
  (by host_keeps hostOps0 : W1 m ρ c (Proc.devRef .tc main_arg3) = W0 m ρ c (Proc.devRef .tc main_arg3)).trans rfl
theorem at1_arg4 : W1 m ρ c (Proc.devRef .tc main_arg4) = m ((c : Thread nD τ).loc main_arg4) :=
  (by host_keeps hostOps0 : W1 m ρ c (Proc.devRef .tc main_arg4) = W0 m ρ c (Proc.devRef .tc main_arg4)).trans rfl
theorem at1_arg5 : W1 m ρ c (Proc.devRef .tc main_arg5) = m ((c : Thread nD τ).loc main_arg5) :=
  (by host_keeps hostOps0 : W1 m ρ c (Proc.devRef .tc main_arg5) = W0 m ρ c (Proc.devRef .tc main_arg5)).trans rfl
theorem at1_arg6 : W1 m ρ c (Proc.devRef .tc main_arg6) = m ((c : Thread nD τ).loc main_arg6) :=
  (by host_keeps hostOps0 : W1 m ρ c (Proc.devRef .tc main_arg6) = W0 m ρ c (Proc.devRef .tc main_arg6)).trans rfl
theorem at1_arg7 : W1 m ρ c (Proc.devRef .tc main_arg7) = m ((c : Thread nD τ).loc main_arg7) :=
  (by host_keeps hostOps0 : W1 m ρ c (Proc.devRef .tc main_arg7) = W0 m ρ c (Proc.devRef .tc main_arg7)).trans rfl
theorem at1_arg8 : W1 m ρ c (Proc.devRef .tc main_arg8) = m ((c : Thread nD τ).loc main_arg8) :=
  (by host_keeps hostOps0 : W1 m ρ c (Proc.devRef .tc main_arg8) = W0 m ρ c (Proc.devRef .tc main_arg8)).trans rfl
theorem at1_arg9 : W1 m ρ c (Proc.devRef .tc main_arg9) = m ((c : Thread nD τ).loc main_arg9) :=
  (by host_keeps hostOps0 : W1 m ρ c (Proc.devRef .tc main_arg9) = W0 m ρ c (Proc.devRef .tc main_arg9)).trans rfl
theorem at1_arg10 : W1 m ρ c (Proc.devRef .tc main_arg10) = m ((c : Thread nD τ).loc main_arg10) :=
  (by host_keeps hostOps0 : W1 m ρ c (Proc.devRef .tc main_arg10) = W0 m ρ c (Proc.devRef .tc main_arg10)).trans rfl
theorem at1_arg11 : W1 m ρ c (Proc.devRef .tc main_arg11) = m ((c : Thread nD τ).loc main_arg11) :=
  (by host_keeps hostOps0 : W1 m ρ c (Proc.devRef .tc main_arg11) = W0 m ρ c (Proc.devRef .tc main_arg11)).trans rfl
theorem at1_arg12 : W1 m ρ c (Proc.devRef .tc main_arg12) = m ((c : Thread nD τ).loc main_arg12) :=
  (by host_keeps hostOps0 : W1 m ρ c (Proc.devRef .tc main_arg12) = W0 m ρ c (Proc.devRef .tc main_arg12)).trans rfl
theorem at1_arg13 : W1 m ρ c (Proc.devRef .tc main_arg13) = m ((c : Thread nD τ).loc main_arg13) :=
  (by host_keeps hostOps0 : W1 m ρ c (Proc.devRef .tc main_arg13) = W0 m ρ c (Proc.devRef .tc main_arg13)).trans rfl
theorem at1_v21 : W1 m ρ c (Proc.devRef .tc main_v21) = val_main_v22 (F := Ideal) (m ((c : Thread nD τ).loc main_arg1)) (m ((c : Thread nD τ).loc main_arg2)) := by
  show StableHlo.after hostOps0 (W0 m ρ c) (Proc.devRef .tc main_v21) = _
  after_results_simp
  rfl

theorem at1_v23 : W1 m ρ c (Proc.devRef .tc main_v23) = val_main_v37 (F := Ideal) (m ((c : Thread nD τ).loc main_arg2)) := by
  show StableHlo.after hostOps0 (W0 m ρ c) (Proc.devRef .tc main_v23) = _
  after_results_simp
  rfl

/-! ### Segment 2: region 0, the first layer's product -/
theorem at2_arg1 : W2 m ρ c (Proc.devRef .tc main_arg1) = m ((c : Thread nD τ).loc main_arg1) :=
  (W2_of_ne m ρ c main_arg1 (by decide)).trans (at1_arg1 m ρ c)
theorem at2_arg2 : W2 m ρ c (Proc.devRef .tc main_arg2) = m ((c : Thread nD τ).loc main_arg2) :=
  (W2_of_ne m ρ c main_arg2 (by decide)).trans (at1_arg2 m ρ c)
theorem at2_arg3 : W2 m ρ c (Proc.devRef .tc main_arg3) = m ((c : Thread nD τ).loc main_arg3) :=
  (W2_of_ne m ρ c main_arg3 (by decide)).trans (at1_arg3 m ρ c)
theorem at2_arg5 : W2 m ρ c (Proc.devRef .tc main_arg5) = m ((c : Thread nD τ).loc main_arg5) :=
  (W2_of_ne m ρ c main_arg5 (by decide)).trans (at1_arg5 m ρ c)
theorem at2_arg6 : W2 m ρ c (Proc.devRef .tc main_arg6) = m ((c : Thread nD τ).loc main_arg6) :=
  (W2_of_ne m ρ c main_arg6 (by decide)).trans (at1_arg6 m ρ c)
theorem at2_arg7 : W2 m ρ c (Proc.devRef .tc main_arg7) = m ((c : Thread nD τ).loc main_arg7) :=
  (W2_of_ne m ρ c main_arg7 (by decide)).trans (at1_arg7 m ρ c)
theorem at2_arg8 : W2 m ρ c (Proc.devRef .tc main_arg8) = m ((c : Thread nD τ).loc main_arg8) :=
  (W2_of_ne m ρ c main_arg8 (by decide)).trans (at1_arg8 m ρ c)
theorem at2_arg9 : W2 m ρ c (Proc.devRef .tc main_arg9) = m ((c : Thread nD τ).loc main_arg9) :=
  (W2_of_ne m ρ c main_arg9 (by decide)).trans (at1_arg9 m ρ c)
theorem at2_arg10 : W2 m ρ c (Proc.devRef .tc main_arg10) = m ((c : Thread nD τ).loc main_arg10) :=
  (W2_of_ne m ρ c main_arg10 (by decide)).trans (at1_arg10 m ρ c)
theorem at2_arg11 : W2 m ρ c (Proc.devRef .tc main_arg11) = m ((c : Thread nD τ).loc main_arg11) :=
  (W2_of_ne m ρ c main_arg11 (by decide)).trans (at1_arg11 m ρ c)
theorem at2_arg12 : W2 m ρ c (Proc.devRef .tc main_arg12) = m ((c : Thread nD τ).loc main_arg12) :=
  (W2_of_ne m ρ c main_arg12 (by decide)).trans (at1_arg12 m ρ c)
theorem at2_arg13 : W2 m ρ c (Proc.devRef .tc main_arg13) = m ((c : Thread nD τ).loc main_arg13) :=
  (W2_of_ne m ρ c main_arg13 (by decide)).trans (at1_arg13 m ρ c)
theorem at2_v21 : W2 m ρ c (Proc.devRef .tc main_v21) = val_main_v22 (F := Ideal) (m ((c : Thread nD τ).loc main_arg1)) (m ((c : Thread nD τ).loc main_arg2)) :=
  (W2_of_ne m ρ c main_v21 (by decide)).trans (at1_v21 m ρ c)
theorem at2_v23 : W2 m ρ c (Proc.devRef .tc main_v23) = val_main_v37 (F := Ideal) (m ((c : Thread nD τ).loc main_arg2)) :=
  (W2_of_ne m ρ c main_v23 (by decide)).trans (at1_v23 m ρ c)
theorem at2_v24 : W2 m ρ c (Proc.devRef .tc main_v24) = val_main_v0 (F := Ideal) (m ((c : Thread nD τ).loc main_arg0)) (m ((c : Thread nD τ).loc main_arg4)) :=
  (W2_arr m ρ c 2).trans ((Region0.final (V1 m ρ) c).trans (by
    show Region0.prod (W1 m ρ c (Proc.devRef .tc main_arg0)) (W1 m ρ c (Proc.devRef .tc main_arg4)) = _
    rw [at1_arg0 m ρ c, at1_arg4 m ρ c]
    rfl))

/-! ### Segment 3: gather, scale, scatter-add; the bias row and the inverse-degree column (host) -/
theorem at3_arg1 : W3 m ρ c (Proc.devRef .tc main_arg1) = m ((c : Thread nD τ).loc main_arg1) :=
  (by host_keeps hostOps1 : W3 m ρ c (Proc.devRef .tc main_arg1) = W2 m ρ c (Proc.devRef .tc main_arg1)).trans (at2_arg1 m ρ c)
theorem at3_arg2 : W3 m ρ c (Proc.devRef .tc main_arg2) = m ((c : Thread nD τ).loc main_arg2) :=
  (by host_keeps hostOps1 : W3 m ρ c (Proc.devRef .tc main_arg2) = W2 m ρ c (Proc.devRef .tc main_arg2)).trans (at2_arg2 m ρ c)
theorem at3_arg3 : W3 m ρ c (Proc.devRef .tc main_arg3) = m ((c : Thread nD τ).loc main_arg3) :=
  (by host_keeps hostOps1 : W3 m ρ c (Proc.devRef .tc main_arg3) = W2 m ρ c (Proc.devRef .tc main_arg3)).trans (at2_arg3 m ρ c)
theorem at3_arg6 : W3 m ρ c (Proc.devRef .tc main_arg6) = m ((c : Thread nD τ).loc main_arg6) :=
  (by host_keeps hostOps1 : W3 m ρ c (Proc.devRef .tc main_arg6) = W2 m ρ c (Proc.devRef .tc main_arg6)).trans (at2_arg6 m ρ c)
theorem at3_arg7 : W3 m ρ c (Proc.devRef .tc main_arg7) = m ((c : Thread nD τ).loc main_arg7) :=
  (by host_keeps hostOps1 : W3 m ρ c (Proc.devRef .tc main_arg7) = W2 m ρ c (Proc.devRef .tc main_arg7)).trans (at2_arg7 m ρ c)
theorem at3_arg8 : W3 m ρ c (Proc.devRef .tc main_arg8) = m ((c : Thread nD τ).loc main_arg8) :=
  (by host_keeps hostOps1 : W3 m ρ c (Proc.devRef .tc main_arg8) = W2 m ρ c (Proc.devRef .tc main_arg8)).trans (at2_arg8 m ρ c)
theorem at3_arg9 : W3 m ρ c (Proc.devRef .tc main_arg9) = m ((c : Thread nD τ).loc main_arg9) :=
  (by host_keeps hostOps1 : W3 m ρ c (Proc.devRef .tc main_arg9) = W2 m ρ c (Proc.devRef .tc main_arg9)).trans (at2_arg9 m ρ c)
theorem at3_arg10 : W3 m ρ c (Proc.devRef .tc main_arg10) = m ((c : Thread nD τ).loc main_arg10) :=
  (by host_keeps hostOps1 : W3 m ρ c (Proc.devRef .tc main_arg10) = W2 m ρ c (Proc.devRef .tc main_arg10)).trans (at2_arg10 m ρ c)
theorem at3_arg11 : W3 m ρ c (Proc.devRef .tc main_arg11) = m ((c : Thread nD τ).loc main_arg11) :=
  (by host_keeps hostOps1 : W3 m ρ c (Proc.devRef .tc main_arg11) = W2 m ρ c (Proc.devRef .tc main_arg11)).trans (at2_arg11 m ρ c)
theorem at3_arg12 : W3 m ρ c (Proc.devRef .tc main_arg12) = m ((c : Thread nD τ).loc main_arg12) :=
  (by host_keeps hostOps1 : W3 m ρ c (Proc.devRef .tc main_arg12) = W2 m ρ c (Proc.devRef .tc main_arg12)).trans (at2_arg12 m ρ c)
theorem at3_arg13 : W3 m ρ c (Proc.devRef .tc main_arg13) = m ((c : Thread nD τ).loc main_arg13) :=
  (by host_keeps hostOps1 : W3 m ρ c (Proc.devRef .tc main_arg13) = W2 m ρ c (Proc.devRef .tc main_arg13)).trans (at2_arg13 m ρ c)
theorem at3_v21 : W3 m ρ c (Proc.devRef .tc main_v21) = val_main_v22 (F := Ideal) (m ((c : Thread nD τ).loc main_arg1)) (m ((c : Thread nD τ).loc main_arg2)) :=
  (by host_keeps hostOps1 : W3 m ρ c (Proc.devRef .tc main_v21) = W2 m ρ c (Proc.devRef .tc main_v21)).trans (at2_v21 m ρ c)
theorem at3_v23 : W3 m ρ c (Proc.devRef .tc main_v23) = val_main_v37 (F := Ideal) (m ((c : Thread nD τ).loc main_arg2)) :=
  (by host_keeps hostOps1 : W3 m ρ c (Proc.devRef .tc main_v23) = W2 m ρ c (Proc.devRef .tc main_v23)).trans (at2_v23 m ρ c)
theorem at3_v24 : W3 m ρ c (Proc.devRef .tc main_v24) = val_main_v0 (F := Ideal) (m ((c : Thread nD τ).loc main_arg0)) (m ((c : Thread nD τ).loc main_arg4)) :=
  (by host_keeps hostOps1 : W3 m ρ c (Proc.devRef .tc main_v24) = W2 m ρ c (Proc.devRef .tc main_v24)).trans (at2_v24 m ρ c)

theorem at3_v37 : W3 m ρ c (Proc.devRef .tc main_v37) = val_main_v35 (F := Ideal) (m ((c : Thread nD τ).loc main_arg0)) (m ((c : Thread nD τ).loc main_arg1)) (m ((c : Thread nD τ).loc main_arg2)) (m ((c : Thread nD τ).loc main_arg4)) := by
  show StableHlo.after hostOps1 (W2 m ρ c) (Proc.devRef .tc main_v37) = _
  after_results_simp
  rw [at2_v24 m ρ c, at2_arg1 m ρ c, at2_arg2 m ρ c, at2_v21 m ρ c]
  rfl

theorem at3_v38 : W3 m ρ c (Proc.devRef .tc main_v38) = (shapeCast S1x128 (m ((c : Thread nD τ).loc main_arg5)) shapeCasts_S128_S1x128) := by
  show StableHlo.after hostOps1 (W2 m ρ c) (Proc.devRef .tc main_v38) = _
  after_results_simp
  rw [at2_arg5 m ρ c]
  try rfl

theorem at3_v39 : W3 m ρ c (Proc.devRef .tc main_v39) = (shapeCast S100000x1 (val_main_v37 (F := Ideal) (m ((c : Thread nD τ).loc main_arg2))) shapeCasts_S100000_S100000x1) := by
  show StableHlo.after hostOps1 (W2 m ρ c) (Proc.devRef .tc main_v39) = _
  after_results_simp
  rw [at2_v23 m ρ c]
  try rfl

/-! ### Segment 4: region 1, the first layer's combine step -/
theorem at4_arg1 : W4 m ρ c (Proc.devRef .tc main_arg1) = m ((c : Thread nD τ).loc main_arg1) :=
  (W4_of_ne m ρ c main_arg1 (by decide)).trans (at3_arg1 m ρ c)
theorem at4_arg2 : W4 m ρ c (Proc.devRef .tc main_arg2) = m ((c : Thread nD τ).loc main_arg2) :=
  (W4_of_ne m ρ c main_arg2 (by decide)).trans (at3_arg2 m ρ c)
theorem at4_arg3 : W4 m ρ c (Proc.devRef .tc main_arg3) = m ((c : Thread nD τ).loc main_arg3) :=
  (W4_of_ne m ρ c main_arg3 (by decide)).trans (at3_arg3 m ρ c)
theorem at4_arg6 : W4 m ρ c (Proc.devRef .tc main_arg6) = m ((c : Thread nD τ).loc main_arg6) :=
  (W4_of_ne m ρ c main_arg6 (by decide)).trans (at3_arg6 m ρ c)
theorem at4_arg7 : W4 m ρ c (Proc.devRef .tc main_arg7) = m ((c : Thread nD τ).loc main_arg7) :=
  (W4_of_ne m ρ c main_arg7 (by decide)).trans (at3_arg7 m ρ c)
theorem at4_arg8 : W4 m ρ c (Proc.devRef .tc main_arg8) = m ((c : Thread nD τ).loc main_arg8) :=
  (W4_of_ne m ρ c main_arg8 (by decide)).trans (at3_arg8 m ρ c)
theorem at4_arg9 : W4 m ρ c (Proc.devRef .tc main_arg9) = m ((c : Thread nD τ).loc main_arg9) :=
  (W4_of_ne m ρ c main_arg9 (by decide)).trans (at3_arg9 m ρ c)
theorem at4_arg10 : W4 m ρ c (Proc.devRef .tc main_arg10) = m ((c : Thread nD τ).loc main_arg10) :=
  (W4_of_ne m ρ c main_arg10 (by decide)).trans (at3_arg10 m ρ c)
theorem at4_arg11 : W4 m ρ c (Proc.devRef .tc main_arg11) = m ((c : Thread nD τ).loc main_arg11) :=
  (W4_of_ne m ρ c main_arg11 (by decide)).trans (at3_arg11 m ρ c)
theorem at4_arg12 : W4 m ρ c (Proc.devRef .tc main_arg12) = m ((c : Thread nD τ).loc main_arg12) :=
  (W4_of_ne m ρ c main_arg12 (by decide)).trans (at3_arg12 m ρ c)
theorem at4_arg13 : W4 m ρ c (Proc.devRef .tc main_arg13) = m ((c : Thread nD τ).loc main_arg13) :=
  (W4_of_ne m ρ c main_arg13 (by decide)).trans (at3_arg13 m ρ c)
theorem at4_v21 : W4 m ρ c (Proc.devRef .tc main_v21) = val_main_v22 (F := Ideal) (m ((c : Thread nD τ).loc main_arg1)) (m ((c : Thread nD τ).loc main_arg2)) :=
  (W4_of_ne m ρ c main_v21 (by decide)).trans (at3_v21 m ρ c)
theorem at4_v23 : W4 m ρ c (Proc.devRef .tc main_v23) = val_main_v37 (F := Ideal) (m ((c : Thread nD τ).loc main_arg2)) :=
  (W4_of_ne m ρ c main_v23 (by decide)).trans (at3_v23 m ρ c)
/-- Region 1's combine step with the column a reshaped vector of inverse degrees and the row a reshaped bias vector is
    the reference's spelling of the layer's output: a reshaped vector is that vector broadcast. -/
theorem combine_spec1 (A H : FVec Ideal S100000x128 .f32) (d : FVec Ideal S100000 .f32) (b : FVec Ideal S128 .f32) :
    Region1.combine A H (shapeCast S100000x1 d shapeCasts_S100000_S100000x1) (shapeCast S1x128 b shapeCasts_S128_S1x128)
      = maximumf (addf (addf A (mulf H (broadcastInDim S100000x128 ![0, 1] Cert.ReferenceIdeal.Gen.bcast_S100000x1_S100000x128_0_1 (broadcastInDim S100000x1 ![0] Cert.ReferenceIdeal.Gen.bcast_S100000_S100000x1_0 d)))) (broadcastInDim S100000x128 ![0, 1] Cert.ReferenceIdeal.Gen.bcast_S1x128_S100000x128_0_1 (broadcastInDim S1x128 ![1] Cert.ReferenceIdeal.Gen.bcast_S128_S1x128_1 b))) (broadcastInDim S100000x128 ![] Cert.ReferenceIdeal.Gen.bcast_S_S100000x128 (constant S_ .f32 0x00000000#32)) := by
  unfold Region1.combine
  rw [Layout.shapeCast_col_eq_broadcastInDim d _ Cert.ReferenceIdeal.Gen.bcast_S100000_S100000x1_0,
    Layout.shapeCast_row_eq_broadcastInDim b _ Cert.ReferenceIdeal.Gen.bcast_S128_S1x128_1]

theorem at4_v40 : W4 m ρ c (Proc.devRef .tc main_v40) = val_main_v45 (F := Ideal) (m ((c : Thread nD τ).loc main_arg0)) (m ((c : Thread nD τ).loc main_arg1)) (m ((c : Thread nD τ).loc main_arg2)) (m ((c : Thread nD τ).loc main_arg4)) (m ((c : Thread nD τ).loc main_arg5)) :=
  (W4_arr m ρ c 4).trans ((Region1.final (V3 m ρ) c).trans (by
    show Region1.combine (W3 m ρ c (Proc.devRef .tc main_v37)) (W3 m ρ c (Proc.devRef .tc main_v24)) (W3 m ρ c (Proc.devRef .tc main_v39)) (W3 m ρ c (Proc.devRef .tc main_v38)) = _
    rw [at3_v37 m ρ c, at3_v24 m ρ c, at3_v39 m ρ c, at3_v38 m ρ c,
      combine_spec1]
    rfl))

/-! ### Segment 5: region 2, the second layer's product -/
theorem at5_arg1 : W5 m ρ c (Proc.devRef .tc main_arg1) = m ((c : Thread nD τ).loc main_arg1) :=
  (W5_of_ne m ρ c main_arg1 (by decide)).trans (at4_arg1 m ρ c)
theorem at5_arg2 : W5 m ρ c (Proc.devRef .tc main_arg2) = m ((c : Thread nD τ).loc main_arg2) :=
  (W5_of_ne m ρ c main_arg2 (by decide)).trans (at4_arg2 m ρ c)
theorem at5_arg3 : W5 m ρ c (Proc.devRef .tc main_arg3) = m ((c : Thread nD τ).loc main_arg3) :=
  (W5_of_ne m ρ c main_arg3 (by decide)).trans (at4_arg3 m ρ c)
theorem at5_arg7 : W5 m ρ c (Proc.devRef .tc main_arg7) = m ((c : Thread nD τ).loc main_arg7) :=
  (W5_of_ne m ρ c main_arg7 (by decide)).trans (at4_arg7 m ρ c)
theorem at5_arg8 : W5 m ρ c (Proc.devRef .tc main_arg8) = m ((c : Thread nD τ).loc main_arg8) :=
  (W5_of_ne m ρ c main_arg8 (by decide)).trans (at4_arg8 m ρ c)
theorem at5_arg9 : W5 m ρ c (Proc.devRef .tc main_arg9) = m ((c : Thread nD τ).loc main_arg9) :=
  (W5_of_ne m ρ c main_arg9 (by decide)).trans (at4_arg9 m ρ c)
theorem at5_arg10 : W5 m ρ c (Proc.devRef .tc main_arg10) = m ((c : Thread nD τ).loc main_arg10) :=
  (W5_of_ne m ρ c main_arg10 (by decide)).trans (at4_arg10 m ρ c)
theorem at5_arg11 : W5 m ρ c (Proc.devRef .tc main_arg11) = m ((c : Thread nD τ).loc main_arg11) :=
  (W5_of_ne m ρ c main_arg11 (by decide)).trans (at4_arg11 m ρ c)
theorem at5_arg12 : W5 m ρ c (Proc.devRef .tc main_arg12) = m ((c : Thread nD τ).loc main_arg12) :=
  (W5_of_ne m ρ c main_arg12 (by decide)).trans (at4_arg12 m ρ c)
theorem at5_arg13 : W5 m ρ c (Proc.devRef .tc main_arg13) = m ((c : Thread nD τ).loc main_arg13) :=
  (W5_of_ne m ρ c main_arg13 (by decide)).trans (at4_arg13 m ρ c)
theorem at5_v21 : W5 m ρ c (Proc.devRef .tc main_v21) = val_main_v22 (F := Ideal) (m ((c : Thread nD τ).loc main_arg1)) (m ((c : Thread nD τ).loc main_arg2)) :=
  (W5_of_ne m ρ c main_v21 (by decide)).trans (at4_v21 m ρ c)
theorem at5_v23 : W5 m ρ c (Proc.devRef .tc main_v23) = val_main_v37 (F := Ideal) (m ((c : Thread nD τ).loc main_arg2)) :=
  (W5_of_ne m ρ c main_v23 (by decide)).trans (at4_v23 m ρ c)
theorem at5_v41 : W5 m ρ c (Proc.devRef .tc main_v41) = val_main_v46 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) :=
  (W5_arr m ρ c 2).trans ((Region2.final (V4 m ρ) c).trans (by
    show Region2.prod (W4 m ρ c (Proc.devRef .tc main_v40)) (W4 m ρ c (Proc.devRef .tc main_arg6)) = _
    rw [at4_v40 m ρ c, at4_arg6 m ρ c]
    rfl))

/-! ### Segment 6 (host) -/
theorem at6_arg1 : W6 m ρ c (Proc.devRef .tc main_arg1) = m ((c : Thread nD τ).loc main_arg1) :=
  (by host_keeps hostOps3 : W6 m ρ c (Proc.devRef .tc main_arg1) = W5 m ρ c (Proc.devRef .tc main_arg1)).trans (at5_arg1 m ρ c)
theorem at6_arg2 : W6 m ρ c (Proc.devRef .tc main_arg2) = m ((c : Thread nD τ).loc main_arg2) :=
  (by host_keeps hostOps3 : W6 m ρ c (Proc.devRef .tc main_arg2) = W5 m ρ c (Proc.devRef .tc main_arg2)).trans (at5_arg2 m ρ c)
theorem at6_arg3 : W6 m ρ c (Proc.devRef .tc main_arg3) = m ((c : Thread nD τ).loc main_arg3) :=
  (by host_keeps hostOps3 : W6 m ρ c (Proc.devRef .tc main_arg3) = W5 m ρ c (Proc.devRef .tc main_arg3)).trans (at5_arg3 m ρ c)
theorem at6_arg8 : W6 m ρ c (Proc.devRef .tc main_arg8) = m ((c : Thread nD τ).loc main_arg8) :=
  (by host_keeps hostOps3 : W6 m ρ c (Proc.devRef .tc main_arg8) = W5 m ρ c (Proc.devRef .tc main_arg8)).trans (at5_arg8 m ρ c)
theorem at6_arg9 : W6 m ρ c (Proc.devRef .tc main_arg9) = m ((c : Thread nD τ).loc main_arg9) :=
  (by host_keeps hostOps3 : W6 m ρ c (Proc.devRef .tc main_arg9) = W5 m ρ c (Proc.devRef .tc main_arg9)).trans (at5_arg9 m ρ c)
theorem at6_arg10 : W6 m ρ c (Proc.devRef .tc main_arg10) = m ((c : Thread nD τ).loc main_arg10) :=
  (by host_keeps hostOps3 : W6 m ρ c (Proc.devRef .tc main_arg10) = W5 m ρ c (Proc.devRef .tc main_arg10)).trans (at5_arg10 m ρ c)
theorem at6_arg11 : W6 m ρ c (Proc.devRef .tc main_arg11) = m ((c : Thread nD τ).loc main_arg11) :=
  (by host_keeps hostOps3 : W6 m ρ c (Proc.devRef .tc main_arg11) = W5 m ρ c (Proc.devRef .tc main_arg11)).trans (at5_arg11 m ρ c)
theorem at6_arg12 : W6 m ρ c (Proc.devRef .tc main_arg12) = m ((c : Thread nD τ).loc main_arg12) :=
  (by host_keeps hostOps3 : W6 m ρ c (Proc.devRef .tc main_arg12) = W5 m ρ c (Proc.devRef .tc main_arg12)).trans (at5_arg12 m ρ c)
theorem at6_arg13 : W6 m ρ c (Proc.devRef .tc main_arg13) = m ((c : Thread nD τ).loc main_arg13) :=
  (by host_keeps hostOps3 : W6 m ρ c (Proc.devRef .tc main_arg13) = W5 m ρ c (Proc.devRef .tc main_arg13)).trans (at5_arg13 m ρ c)
theorem at6_v21 : W6 m ρ c (Proc.devRef .tc main_v21) = val_main_v22 (F := Ideal) (m ((c : Thread nD τ).loc main_arg1)) (m ((c : Thread nD τ).loc main_arg2)) :=
  (by host_keeps hostOps3 : W6 m ρ c (Proc.devRef .tc main_v21) = W5 m ρ c (Proc.devRef .tc main_v21)).trans (at5_v21 m ρ c)
theorem at6_v23 : W6 m ρ c (Proc.devRef .tc main_v23) = val_main_v37 (F := Ideal) (m ((c : Thread nD τ).loc main_arg2)) :=
  (by host_keeps hostOps3 : W6 m ρ c (Proc.devRef .tc main_v23) = W5 m ρ c (Proc.devRef .tc main_v23)).trans (at5_v23 m ρ c)
theorem at6_v41 : W6 m ρ c (Proc.devRef .tc main_v41) = val_main_v46 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) :=
  (by host_keeps hostOps3 : W6 m ρ c (Proc.devRef .tc main_v41) = W5 m ρ c (Proc.devRef .tc main_v41)).trans (at5_v41 m ρ c)

theorem at6_v54 : W6 m ρ c (Proc.devRef .tc main_v54) = val_main_v81 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) := by
  show StableHlo.after hostOps3 (W5 m ρ c) (Proc.devRef .tc main_v54) = _
  after_results_simp
  rw [at5_v41 m ρ c, at5_arg1 m ρ c, at5_arg2 m ρ c, at5_v21 m ρ c]
  rfl

theorem at6_v55 : W6 m ρ c (Proc.devRef .tc main_v55) = (shapeCast S1x128 (m ((c : Thread nD τ).loc main_arg7)) shapeCasts_S128_S1x128) := by
  show StableHlo.after hostOps3 (W5 m ρ c) (Proc.devRef .tc main_v55) = _
  after_results_simp
  rw [at5_arg7 m ρ c]
  try rfl

theorem at6_v56 : W6 m ρ c (Proc.devRef .tc main_v56) = (shapeCast S100000x1 (val_main_v37 (F := Ideal) (m ((c : Thread nD τ).loc main_arg2))) shapeCasts_S100000_S100000x1) := by
  show StableHlo.after hostOps3 (W5 m ρ c) (Proc.devRef .tc main_v56) = _
  after_results_simp
  rw [at5_v23 m ρ c]
  try rfl

/-! ### Segment 7: region 3, the second layer's combine step -/
theorem at7_arg1 : W7 m ρ c (Proc.devRef .tc main_arg1) = m ((c : Thread nD τ).loc main_arg1) :=
  (W7_of_ne m ρ c main_arg1 (by decide)).trans (at6_arg1 m ρ c)
theorem at7_arg2 : W7 m ρ c (Proc.devRef .tc main_arg2) = m ((c : Thread nD τ).loc main_arg2) :=
  (W7_of_ne m ρ c main_arg2 (by decide)).trans (at6_arg2 m ρ c)
theorem at7_arg3 : W7 m ρ c (Proc.devRef .tc main_arg3) = m ((c : Thread nD τ).loc main_arg3) :=
  (W7_of_ne m ρ c main_arg3 (by decide)).trans (at6_arg3 m ρ c)
theorem at7_arg8 : W7 m ρ c (Proc.devRef .tc main_arg8) = m ((c : Thread nD τ).loc main_arg8) :=
  (W7_of_ne m ρ c main_arg8 (by decide)).trans (at6_arg8 m ρ c)
theorem at7_arg9 : W7 m ρ c (Proc.devRef .tc main_arg9) = m ((c : Thread nD τ).loc main_arg9) :=
  (W7_of_ne m ρ c main_arg9 (by decide)).trans (at6_arg9 m ρ c)
theorem at7_arg10 : W7 m ρ c (Proc.devRef .tc main_arg10) = m ((c : Thread nD τ).loc main_arg10) :=
  (W7_of_ne m ρ c main_arg10 (by decide)).trans (at6_arg10 m ρ c)
theorem at7_arg11 : W7 m ρ c (Proc.devRef .tc main_arg11) = m ((c : Thread nD τ).loc main_arg11) :=
  (W7_of_ne m ρ c main_arg11 (by decide)).trans (at6_arg11 m ρ c)
theorem at7_arg12 : W7 m ρ c (Proc.devRef .tc main_arg12) = m ((c : Thread nD τ).loc main_arg12) :=
  (W7_of_ne m ρ c main_arg12 (by decide)).trans (at6_arg12 m ρ c)
theorem at7_arg13 : W7 m ρ c (Proc.devRef .tc main_arg13) = m ((c : Thread nD τ).loc main_arg13) :=
  (W7_of_ne m ρ c main_arg13 (by decide)).trans (at6_arg13 m ρ c)
theorem at7_v21 : W7 m ρ c (Proc.devRef .tc main_v21) = val_main_v22 (F := Ideal) (m ((c : Thread nD τ).loc main_arg1)) (m ((c : Thread nD τ).loc main_arg2)) :=
  (W7_of_ne m ρ c main_v21 (by decide)).trans (at6_v21 m ρ c)
theorem at7_v23 : W7 m ρ c (Proc.devRef .tc main_v23) = val_main_v37 (F := Ideal) (m ((c : Thread nD τ).loc main_arg2)) :=
  (W7_of_ne m ρ c main_v23 (by decide)).trans (at6_v23 m ρ c)
/-- Region 3's combine step with the column a reshaped vector of inverse degrees and the row a reshaped bias vector is
    the reference's spelling of the layer's output: a reshaped vector is that vector broadcast. -/
theorem combine_spec3 (A H : FVec Ideal S100000x128 .f32) (d : FVec Ideal S100000 .f32) (b : FVec Ideal S128 .f32) :
    Region3.combine A H (shapeCast S100000x1 d shapeCasts_S100000_S100000x1) (shapeCast S1x128 b shapeCasts_S128_S1x128)
      = maximumf (addf (addf A (mulf H (broadcastInDim S100000x128 ![0, 1] Cert.ReferenceIdeal.Gen.bcast_S100000x1_S100000x128_0_1 (broadcastInDim S100000x1 ![0] Cert.ReferenceIdeal.Gen.bcast_S100000_S100000x1_0 d)))) (broadcastInDim S100000x128 ![0, 1] Cert.ReferenceIdeal.Gen.bcast_S1x128_S100000x128_0_1 (broadcastInDim S1x128 ![1] Cert.ReferenceIdeal.Gen.bcast_S128_S1x128_1 b))) (broadcastInDim S100000x128 ![] Cert.ReferenceIdeal.Gen.bcast_S_S100000x128 (constant S_ .f32 0x00000000#32)) := by
  unfold Region3.combine
  rw [Layout.shapeCast_col_eq_broadcastInDim d _ Cert.ReferenceIdeal.Gen.bcast_S100000_S100000x1_0,
    Layout.shapeCast_row_eq_broadcastInDim b _ Cert.ReferenceIdeal.Gen.bcast_S128_S1x128_1]

theorem at7_v57 : W7 m ρ c (Proc.devRef .tc main_v57) = val_main_v91 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) :=
  (W7_arr m ρ c 4).trans ((Region3.final (V6 m ρ) c).trans (by
    show Region3.combine (W6 m ρ c (Proc.devRef .tc main_v54)) (W6 m ρ c (Proc.devRef .tc main_v41)) (W6 m ρ c (Proc.devRef .tc main_v56)) (W6 m ρ c (Proc.devRef .tc main_v55)) = _
    rw [at6_v54 m ρ c, at6_v41 m ρ c, at6_v56 m ρ c, at6_v55 m ρ c,
      combine_spec3]
    rfl))

/-! ### Segment 8: region 4, the third layer's product -/
theorem at8_arg1 : W8 m ρ c (Proc.devRef .tc main_arg1) = m ((c : Thread nD τ).loc main_arg1) :=
  (W8_of_ne m ρ c main_arg1 (by decide)).trans (at7_arg1 m ρ c)
theorem at8_arg2 : W8 m ρ c (Proc.devRef .tc main_arg2) = m ((c : Thread nD τ).loc main_arg2) :=
  (W8_of_ne m ρ c main_arg2 (by decide)).trans (at7_arg2 m ρ c)
theorem at8_arg3 : W8 m ρ c (Proc.devRef .tc main_arg3) = m ((c : Thread nD τ).loc main_arg3) :=
  (W8_of_ne m ρ c main_arg3 (by decide)).trans (at7_arg3 m ρ c)
theorem at8_arg9 : W8 m ρ c (Proc.devRef .tc main_arg9) = m ((c : Thread nD τ).loc main_arg9) :=
  (W8_of_ne m ρ c main_arg9 (by decide)).trans (at7_arg9 m ρ c)
theorem at8_arg10 : W8 m ρ c (Proc.devRef .tc main_arg10) = m ((c : Thread nD τ).loc main_arg10) :=
  (W8_of_ne m ρ c main_arg10 (by decide)).trans (at7_arg10 m ρ c)
theorem at8_arg11 : W8 m ρ c (Proc.devRef .tc main_arg11) = m ((c : Thread nD τ).loc main_arg11) :=
  (W8_of_ne m ρ c main_arg11 (by decide)).trans (at7_arg11 m ρ c)
theorem at8_arg12 : W8 m ρ c (Proc.devRef .tc main_arg12) = m ((c : Thread nD τ).loc main_arg12) :=
  (W8_of_ne m ρ c main_arg12 (by decide)).trans (at7_arg12 m ρ c)
theorem at8_arg13 : W8 m ρ c (Proc.devRef .tc main_arg13) = m ((c : Thread nD τ).loc main_arg13) :=
  (W8_of_ne m ρ c main_arg13 (by decide)).trans (at7_arg13 m ρ c)
theorem at8_v21 : W8 m ρ c (Proc.devRef .tc main_v21) = val_main_v22 (F := Ideal) (m ((c : Thread nD τ).loc main_arg1)) (m ((c : Thread nD τ).loc main_arg2)) :=
  (W8_of_ne m ρ c main_v21 (by decide)).trans (at7_v21 m ρ c)
theorem at8_v23 : W8 m ρ c (Proc.devRef .tc main_v23) = val_main_v37 (F := Ideal) (m ((c : Thread nD τ).loc main_arg2)) :=
  (W8_of_ne m ρ c main_v23 (by decide)).trans (at7_v23 m ρ c)
theorem at8_v58 : W8 m ρ c (Proc.devRef .tc main_v58) = val_main_v92 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) :=
  (W8_arr m ρ c 2).trans ((Region4.final (V7 m ρ) c).trans (by
    show Region4.prod (W7 m ρ c (Proc.devRef .tc main_v57)) (W7 m ρ c (Proc.devRef .tc main_arg8)) = _
    rw [at7_v57 m ρ c, at7_arg8 m ρ c]
    rfl))

/-! ### Segment 9 (host) -/
theorem at9_arg3 : W9 m ρ c (Proc.devRef .tc main_arg3) = m ((c : Thread nD τ).loc main_arg3) :=
  (by host_keeps hostOps5 : W9 m ρ c (Proc.devRef .tc main_arg3) = W8 m ρ c (Proc.devRef .tc main_arg3)).trans (at8_arg3 m ρ c)
theorem at9_arg10 : W9 m ρ c (Proc.devRef .tc main_arg10) = m ((c : Thread nD τ).loc main_arg10) :=
  (by host_keeps hostOps5 : W9 m ρ c (Proc.devRef .tc main_arg10) = W8 m ρ c (Proc.devRef .tc main_arg10)).trans (at8_arg10 m ρ c)
theorem at9_arg11 : W9 m ρ c (Proc.devRef .tc main_arg11) = m ((c : Thread nD τ).loc main_arg11) :=
  (by host_keeps hostOps5 : W9 m ρ c (Proc.devRef .tc main_arg11) = W8 m ρ c (Proc.devRef .tc main_arg11)).trans (at8_arg11 m ρ c)
theorem at9_arg12 : W9 m ρ c (Proc.devRef .tc main_arg12) = m ((c : Thread nD τ).loc main_arg12) :=
  (by host_keeps hostOps5 : W9 m ρ c (Proc.devRef .tc main_arg12) = W8 m ρ c (Proc.devRef .tc main_arg12)).trans (at8_arg12 m ρ c)
theorem at9_arg13 : W9 m ρ c (Proc.devRef .tc main_arg13) = m ((c : Thread nD τ).loc main_arg13) :=
  (by host_keeps hostOps5 : W9 m ρ c (Proc.devRef .tc main_arg13) = W8 m ρ c (Proc.devRef .tc main_arg13)).trans (at8_arg13 m ρ c)
theorem at9_v58 : W9 m ρ c (Proc.devRef .tc main_v58) = val_main_v92 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) :=
  (by host_keeps hostOps5 : W9 m ρ c (Proc.devRef .tc main_v58) = W8 m ρ c (Proc.devRef .tc main_v58)).trans (at8_v58 m ρ c)

theorem at9_v71 : W9 m ρ c (Proc.devRef .tc main_v71) = val_main_v127 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) := by
  show StableHlo.after hostOps5 (W8 m ρ c) (Proc.devRef .tc main_v71) = _
  after_results_simp
  rw [at8_v58 m ρ c, at8_arg1 m ρ c, at8_arg2 m ρ c, at8_v21 m ρ c]
  rfl

theorem at9_v72 : W9 m ρ c (Proc.devRef .tc main_v72) = (shapeCast S1x128 (m ((c : Thread nD τ).loc main_arg9)) shapeCasts_S128_S1x128) := by
  show StableHlo.after hostOps5 (W8 m ρ c) (Proc.devRef .tc main_v72) = _
  after_results_simp
  rw [at8_arg9 m ρ c]
  try rfl

theorem at9_v73 : W9 m ρ c (Proc.devRef .tc main_v73) = (shapeCast S100000x1 (val_main_v37 (F := Ideal) (m ((c : Thread nD τ).loc main_arg2))) shapeCasts_S100000_S100000x1) := by
  show StableHlo.after hostOps5 (W8 m ρ c) (Proc.devRef .tc main_v73) = _
  after_results_simp
  rw [at8_v23 m ρ c]
  try rfl

/-! ### Segment 10: region 5, the third layer's combine step -/
theorem at10_arg3 : W10 m ρ c (Proc.devRef .tc main_arg3) = m ((c : Thread nD τ).loc main_arg3) :=
  (W10_of_ne m ρ c main_arg3 (by decide)).trans (at9_arg3 m ρ c)
theorem at10_arg10 : W10 m ρ c (Proc.devRef .tc main_arg10) = m ((c : Thread nD τ).loc main_arg10) :=
  (W10_of_ne m ρ c main_arg10 (by decide)).trans (at9_arg10 m ρ c)
theorem at10_arg11 : W10 m ρ c (Proc.devRef .tc main_arg11) = m ((c : Thread nD τ).loc main_arg11) :=
  (W10_of_ne m ρ c main_arg11 (by decide)).trans (at9_arg11 m ρ c)
theorem at10_arg12 : W10 m ρ c (Proc.devRef .tc main_arg12) = m ((c : Thread nD τ).loc main_arg12) :=
  (W10_of_ne m ρ c main_arg12 (by decide)).trans (at9_arg12 m ρ c)
theorem at10_arg13 : W10 m ρ c (Proc.devRef .tc main_arg13) = m ((c : Thread nD τ).loc main_arg13) :=
  (W10_of_ne m ρ c main_arg13 (by decide)).trans (at9_arg13 m ρ c)
/-- Region 5's combine step with the column a reshaped vector of inverse degrees and the row a reshaped bias vector is
    the reference's spelling of the layer's output: a reshaped vector is that vector broadcast. -/
theorem combine_spec5 (A H : FVec Ideal S100000x128 .f32) (d : FVec Ideal S100000 .f32) (b : FVec Ideal S128 .f32) :
    Region5.combine A H (shapeCast S100000x1 d shapeCasts_S100000_S100000x1) (shapeCast S1x128 b shapeCasts_S128_S1x128)
      = maximumf (addf (addf A (mulf H (broadcastInDim S100000x128 ![0, 1] Cert.ReferenceIdeal.Gen.bcast_S100000x1_S100000x128_0_1 (broadcastInDim S100000x1 ![0] Cert.ReferenceIdeal.Gen.bcast_S100000_S100000x1_0 d)))) (broadcastInDim S100000x128 ![0, 1] Cert.ReferenceIdeal.Gen.bcast_S1x128_S100000x128_0_1 (broadcastInDim S1x128 ![1] Cert.ReferenceIdeal.Gen.bcast_S128_S1x128_1 b))) (broadcastInDim S100000x128 ![] Cert.ReferenceIdeal.Gen.bcast_S_S100000x128 (constant S_ .f32 0x00000000#32)) := by
  unfold Region5.combine
  rw [Layout.shapeCast_col_eq_broadcastInDim d _ Cert.ReferenceIdeal.Gen.bcast_S100000_S100000x1_0,
    Layout.shapeCast_row_eq_broadcastInDim b _ Cert.ReferenceIdeal.Gen.bcast_S128_S1x128_1]

theorem at10_v74 : W10 m ρ c (Proc.devRef .tc main_v74) = val_main_v137 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  (W10_arr m ρ c 4).trans ((Region5.final (V9 m ρ) c).trans (by
    show Region5.combine (W9 m ρ c (Proc.devRef .tc main_v71)) (W9 m ρ c (Proc.devRef .tc main_v58)) (W9 m ρ c (Proc.devRef .tc main_v73)) (W9 m ρ c (Proc.devRef .tc main_v72)) = _
    rw [at9_v71 m ρ c, at9_v58 m ρ c, at9_v73 m ρ c, at9_v72 m ρ c,
      combine_spec5]
    rfl))

/-! ### Segment 11: the embedding's bias row (host) -/
theorem at11_arg3 : W11 m ρ c (Proc.devRef .tc main_arg3) = m ((c : Thread nD τ).loc main_arg3) :=
  (by host_keeps hostOps6 : W11 m ρ c (Proc.devRef .tc main_arg3) = W10 m ρ c (Proc.devRef .tc main_arg3)).trans (at10_arg3 m ρ c)
theorem at11_arg10 : W11 m ρ c (Proc.devRef .tc main_arg10) = m ((c : Thread nD τ).loc main_arg10) :=
  (by host_keeps hostOps6 : W11 m ρ c (Proc.devRef .tc main_arg10) = W10 m ρ c (Proc.devRef .tc main_arg10)).trans (at10_arg10 m ρ c)
theorem at11_arg12 : W11 m ρ c (Proc.devRef .tc main_arg12) = m ((c : Thread nD τ).loc main_arg12) :=
  (by host_keeps hostOps6 : W11 m ρ c (Proc.devRef .tc main_arg12) = W10 m ρ c (Proc.devRef .tc main_arg12)).trans (at10_arg12 m ρ c)
theorem at11_arg13 : W11 m ρ c (Proc.devRef .tc main_arg13) = m ((c : Thread nD τ).loc main_arg13) :=
  (by host_keeps hostOps6 : W11 m ρ c (Proc.devRef .tc main_arg13) = W10 m ρ c (Proc.devRef .tc main_arg13)).trans (at10_arg13 m ρ c)
theorem at11_v74 : W11 m ρ c (Proc.devRef .tc main_v74) = val_main_v137 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  (by host_keeps hostOps6 : W11 m ρ c (Proc.devRef .tc main_v74) = W10 m ρ c (Proc.devRef .tc main_v74)).trans (at10_v74 m ρ c)

theorem at11_v75 : W11 m ρ c (Proc.devRef .tc main_v75) = (shapeCast S1x64 (m ((c : Thread nD τ).loc main_arg11)) shapeCasts_S64_S1x64) := by
  show StableHlo.after hostOps6 (W10 m ρ c) (Proc.devRef .tc main_v75) = _
  after_results_simp
  rw [at10_arg11 m ρ c]
  try rfl

/-! ### Segment 12: region 6, the embedding and the cosine scores -/
theorem at12_arg3 : W12 m ρ c (Proc.devRef .tc main_arg3) = m ((c : Thread nD τ).loc main_arg3) :=
  (W12_of_ne m ρ c main_arg3 (by decide)).trans (at11_arg3 m ρ c)
theorem at12_arg13 : W12 m ρ c (Proc.devRef .tc main_arg13) = m ((c : Thread nD τ).loc main_arg13) :=
  (W12_of_ne m ρ c main_arg13 (by decide)).trans (at11_arg13 m ρ c)
/-- The embedding with the bias row a reshaped vector, in the reference's spelling. -/
theorem embed_spec (H : FVec Ideal S100000x128 .f32) (Wm : FVec Ideal S128x64 .f32) (bm : FVec Ideal S64 .f32) :
    Region6.embed H Wm (shapeCast S1x64 bm shapeCasts_S64_S1x64)
      = addf (Host.dotGeneral Region6.wholeA none H Wm)
          (broadcastInDim S100000x64 ![0, 1] Cert.ReferenceIdeal.Gen.bcast_S1x64_S100000x64_0_1 (broadcastInDim S1x64 ![1] Cert.ReferenceIdeal.Gen.bcast_S64_S1x64_1 bm)) := by
  unfold Region6.embed
  rw [Layout.shapeCast_row_eq_broadcastInDim bm _ Cert.ReferenceIdeal.Gen.bcast_S64_S1x64_1]

theorem at12_v76_0 : W12 m ρ c (Proc.devRef .tc main_v76_0) = val_main_v141 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) :=
  (W12_arr m ρ c 4).trans ((Region6.final4 (V11 m ρ) c).trans (by
    show Region6.embed (W11 m ρ c (Proc.devRef .tc main_v74)) (W11 m ρ c (Proc.devRef .tc main_arg10)) (W11 m ρ c (Proc.devRef .tc main_v75)) = _
    rw [at11_v74 m ρ c, at11_arg10 m ρ c, at11_v75 m ρ c, embed_spec]
    rfl))

theorem at12_v76_1 : W12 m ρ c (Proc.devRef .tc main_v76_1) = val_main_v147 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) :=
  (W12_arr m ρ c 5).trans ((Region6.final5 (V11 m ρ) c).trans (by
    show Region6.cosine (Region6.embed (W11 m ρ c (Proc.devRef .tc main_v74)) (W11 m ρ c (Proc.devRef .tc main_arg10)) (W11 m ρ c (Proc.devRef .tc main_v75)))
      (W11 m ρ c (Proc.devRef .tc main_arg12)) = _
    rw [at11_v74 m ρ c, at11_arg10 m ρ c, at11_v75 m ρ c, at11_arg12 m ρ c, embed_spec]
    unfold Region6.cosine Region6.normEps
    rfl))

/-! ### Segment 13: the mean pooling and the classifier (host) -/

theorem end_v76_0 : W13 m ρ c (Proc.devRef .tc main_v76_0) = val_main_v141 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) :=
  (by host_keeps hostOps7 : W13 m ρ c (Proc.devRef .tc main_v76_0) = W12 m ρ c (Proc.devRef .tc main_v76_0)).trans (at12_v76_0 m ρ c)

theorem end_v76_1 : W13 m ρ c (Proc.devRef .tc main_v76_1) = val_main_v147 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) :=
  (by host_keeps hostOps7 : W13 m ρ c (Proc.devRef .tc main_v76_1) = W12 m ρ c (Proc.devRef .tc main_v76_1)).trans (at12_v76_1 m ρ c)

theorem end_v89 : W13 m ρ c (Proc.devRef .tc main_v89) = val_main_v160 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  show StableHlo.after hostOps7 (W12 m ρ c) (Proc.devRef .tc main_v89) = _
  after_results_simp
  rw [at12_v76_1 m ρ c, at12_arg3 m ρ c, at12_arg13 m ρ c]
  rfl

end Cert.KernelIdeal.Chain

end
-- ==== Proof.lean ====
/-
  A three-layer graph convolution network with a prototype head, on 100000 nodes and 1600000 edges: the tiled kernel
  against its plain reference, over the extended reals.

  Both programs compute, from the node features `x`, the edge lists `src`, `dst`, the graph assignment `batch` and the
  weights: `deg = 1 + #{edges into the node}`, the edge norm `rsqrt(deg)[src] · rsqrt(deg)[dst]`, three times the layer
  `h ↦ max(scatter_add(h·W gathered at src, scaled by the edge norm, into dst) + (h·W) · (1/deg) + b, 0)`, the embedding
  `ne = h · Wm + bm`, the cosine scores `(ne · basis) / (√(Σ_k ne_k²) + ε)`, and the scores' mean over each graph times the
  classifier weights. The gathers and scatter-adds over the edges and the pooling are the same host operations in both
  programs. The kernel differs in that each dense step — the three products `h·W`, the three pointwise combine steps,
  and the embedding with its scores — runs as a region tiled over blocks of 5000 nodes, with the inverse-degree column
  and the bias rows reshaped rather than broadcast, and with the products' operands passed through a narrower float
  format. At the exact values a format change is the identity; every entry of a dense step depends on ONE node's row
  (a product's contraction runs over the whole shared axis in every tile), so each region's twenty blocks are the blocks
  of the reference's whole-array operation (modules Region0 … Region6); a reshaped vector is that vector broadcast.
  Hence every buffer of the kernel at every boundary between two segments holds the reference's stage of the same
  place (module Chain), and in particular the three results agree. No law used needs the inputs to be finite: only
  the block structure and the reading of each operation at an index.

  The kernel's run from the launch memory is the generated launch of its thirteen segments with the final memory named
  (module KernelRun); the reference's run and its stages are the generated ones.
-/
import proofs.«136587_j28235115004171_1_alg».proof.Defs
import proofs.«136587_j28235115004171_1_alg».proof.Proof.Gen.Kernel
import proofs.«136587_j28235115004171_1_alg».proof.Proof.Gen.Kernel.Skeleton
import proofs.«136587_j28235115004171_1_alg».proof.Proof.Gen.Kernel.Launch
import proofs.«136587_j28235115004171_1_alg».proof.Proof.Gen.Kernel.Points
import proofs.«136587_j28235115004171_1_alg».proof.Proof.Gen.Kernel.Frame
import proofs.«136587_j28235115004171_1_alg».proof.Proof.Gen.KernelIdeal
import proofs.«136587_j28235115004171_1_alg».proof.Proof.Gen.KernelIdeal.Skeleton
import proofs.«136587_j28235115004171_1_alg».proof.Proof.Gen.KernelIdeal.Launch
import proofs.«136587_j28235115004171_1_alg».proof.Proof.Gen.KernelIdeal.Points
import proofs.«136587_j28235115004171_1_alg».proof.Proof.Gen.KernelIdeal.Frame
import proofs.«136587_j28235115004171_1_alg».proof.Proof.Gen.ReferenceIdeal
import proofs.«136587_j28235115004171_1_alg».proof.Proof.Gen.ReferenceIdeal.Run
import proofs.«136587_j28235115004171_1_alg».proof.Proof.Gen.ReferenceIdeal.Read
import proofs.«136587_j28235115004171_1_alg».proof.Proof.Gen.Pre_finite_inputs
import proofs.«136587_j28235115004171_1_alg».proof.Proof.KernelRun
import proofs.«136587_j28235115004171_1_alg».proof.Proof.Chain
import Idealize.ShloMosaic.Adequacy
import Idealize.ShloMosaic.Init

set_option maxRecDepth 16384

noncomputable section

namespace Cert.Proof

open Idealize.ShloMosaic Idealize.SL.Sem

/-- The word-level kernel runs and keeps its arguments: the generated frame. -/
theorem frame_k : Cert.frame_Kernel := fun m ρ _ => Cert.Kernel.Gen.frame m ρ

/-- The idealized kernel runs and keeps its arguments: the generated frame. -/
theorem frame_ki : Cert.frame_KernelIdeal := fun m ρ _ => Cert.KernelIdeal.Gen.frame m ρ

/-- The reference runs and keeps its arguments: its generated run with the results dropped. -/
theorem frame_ri : Cert.frame_ReferenceIdeal := fun m ρ _ =>
  (θ_run Cert.ReferenceIdeal.defs _ _).mono (fun _ h c => (h c).2.2.2) (Cert.ReferenceIdeal.Value.run (F := Ideal) m ρ)

/-- The three result stages of the reference's operations, as functions of the kernel's argument arrays on core `c`:
    the pooled class scores, the embedding, and the cosine scores. -/
def outScores (m : (ℓ : Loc Cert.KernelIdeal.nD Cert.KernelIdeal.τ Cert.KernelIdeal.sig) → Buf (Elt Ideal) ℓ) (c : Dev Cert.KernelIdeal.nD) :
    Buf (Elt Ideal) ((c.tc : Thread Cert.KernelIdeal.nD Cert.KernelIdeal.τ).loc Cert.KernelIdeal.main_v89) :=
  Cert.ReferenceIdeal.Read.val_main_v160 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))
def outEmbs (m : (ℓ : Loc Cert.KernelIdeal.nD Cert.KernelIdeal.τ Cert.KernelIdeal.sig) → Buf (Elt Ideal) ℓ) (c : Dev Cert.KernelIdeal.nD) :
    Buf (Elt Ideal) ((c.tc : Thread Cert.KernelIdeal.nD Cert.KernelIdeal.τ).loc Cert.KernelIdeal.main_v76_0) :=
  Cert.ReferenceIdeal.Read.val_main_v141 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))
def outCosine (m : (ℓ : Loc Cert.KernelIdeal.nD Cert.KernelIdeal.τ Cert.KernelIdeal.sig) → Buf (Elt Ideal) ℓ) (c : Dev Cert.KernelIdeal.nD) :
    Buf (Elt Ideal) ((c.tc : Thread Cert.KernelIdeal.nD Cert.KernelIdeal.τ).loc Cert.KernelIdeal.main_v76_1) :=
  Cert.ReferenceIdeal.Read.val_main_v147 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))

set_option maxHeartbeats 2000000 in
/-- The kernel's run ends with its three results at those stages and its arguments as launched: the run's final memory
    read at the results (module Chain) and at the arguments (the generated frame's lemmas). -/
theorem kernel_run (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v89) = outScores m c
      ∧ r.2.mem ((c.tc : Thread Cert.KernelIdeal.nD Cert.KernelIdeal.τ).loc Cert.KernelIdeal.main_v76_0) = outEmbs m c
      ∧ r.2.mem ((c.tc : Thread Cert.KernelIdeal.nD Cert.KernelIdeal.τ).loc Cert.KernelIdeal.main_v76_1) = outCosine m c
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)) :=
  (θ_run Cert.KernelIdeal.defs _ _).mono (fun r h c =>
    ⟨(h c Cert.KernelIdeal.main_v89 (by decide)).trans (Cert.KernelIdeal.Chain.end_v89 m ρ c),
      (h c Cert.KernelIdeal.main_v76_0 (by decide)).trans (Cert.KernelIdeal.Chain.end_v76_0 m ρ c),
      (h c Cert.KernelIdeal.main_v76_1 (by decide)).trans (Cert.KernelIdeal.Chain.end_v76_1 m ρ c),
      (h c Cert.KernelIdeal.main_arg0 (by decide)).trans (Cert.KernelIdeal.Gen.W13_main_arg0 m ρ c),
      (h c Cert.KernelIdeal.main_arg1 (by decide)).trans (Cert.KernelIdeal.Gen.W13_main_arg1 m ρ c),
      (h c Cert.KernelIdeal.main_arg2 (by decide)).trans (Cert.KernelIdeal.Gen.W13_main_arg2 m ρ c),
      (h c Cert.KernelIdeal.main_arg3 (by decide)).trans (Cert.KernelIdeal.Gen.W13_main_arg3 m ρ c),
      (h c Cert.KernelIdeal.main_arg4 (by decide)).trans (Cert.KernelIdeal.Gen.W13_main_arg4 m ρ c),
      (h c Cert.KernelIdeal.main_arg5 (by decide)).trans (Cert.KernelIdeal.Gen.W13_main_arg5 m ρ c),
      (h c Cert.KernelIdeal.main_arg6 (by decide)).trans (Cert.KernelIdeal.Gen.W13_main_arg6 m ρ c),
      (h c Cert.KernelIdeal.main_arg7 (by decide)).trans (Cert.KernelIdeal.Gen.W13_main_arg7 m ρ c),
      (h c Cert.KernelIdeal.main_arg8 (by decide)).trans (Cert.KernelIdeal.Gen.W13_main_arg8 m ρ c),
      (h c Cert.KernelIdeal.main_arg9 (by decide)).trans (Cert.KernelIdeal.Gen.W13_main_arg9 m ρ c),
      (h c Cert.KernelIdeal.main_arg10 (by decide)).trans (Cert.KernelIdeal.Gen.W13_main_arg10 m ρ c),
      (h c Cert.KernelIdeal.main_arg11 (by decide)).trans (Cert.KernelIdeal.Gen.W13_main_arg11 m ρ c),
      (h c Cert.KernelIdeal.main_arg12 (by decide)).trans (Cert.KernelIdeal.Gen.W13_main_arg12 m ρ c),
      (h c Cert.KernelIdeal.main_arg13 (by decide)).trans (Cert.KernelIdeal.Gen.W13_main_arg13 m ρ c)⟩)
    (Cert.KernelIdeal.WholeRun.run_end m ρ)

set_option maxHeartbeats 2000000 in
/-- The reference's three result stages at arguments that agree with the kernel's are the kernel's stages. -/
theorem stages_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) (c : Dev Cert.ReferenceIdeal.nD) :
    Cert.ReferenceIdeal.Value.res_main_v160 m' c = outScores m c ∧ Cert.ReferenceIdeal.Value.res_main_v141 m' c = outEmbs m c
      ∧ Cert.ReferenceIdeal.Value.res_main_v147 m' c = outCosine m c := by
  obtain ⟨e0, e1, e2, e3, e4, e5, e6, e7, e8, e9, e10, e11, e12, e13⟩ := hagree c
  exact ⟨(Cert.ReferenceIdeal.Read.val_main_v160_eq m' c).trans (congr (congr (congr (congr (congr (congr (congr (congr (congr (congr (congr (congr (congr (congrArg (Cert.ReferenceIdeal.Read.val_main_v160 (F := Ideal)) e0) e1) e2) e3) e4) e5) e6) e7) e8) e9) e10) e11) e12) e13),
    (Cert.ReferenceIdeal.Read.val_main_v141_eq m' c).trans (congr (congr (congr (congr (congr (congr (congr (congr (congr (congr (congrArg (Cert.ReferenceIdeal.Read.val_main_v141 (F := Ideal)) e0) e1) e2) e4) e5) e6) e7) e8) e9) e10) e11),
    (Cert.ReferenceIdeal.Read.val_main_v147_eq m' c).trans (congr (congr (congr (congr (congr (congr (congr (congr (congr (congr (congr (congrArg (Cert.ReferenceIdeal.Read.val_main_v147 (F := Ideal)) e0) e1) e2) e4) e5) e6) e7) e8) e9) e10) e11) e12)⟩

set_option maxHeartbeats 2000000 in
/-- Both programs, from memories agreeing on the arguments, end with the same three results. -/
theorem algebraic : Cert.algebraic_KernelIdeal_ReferenceIdeal := by
  intro m ρ m' ρ' _ hagree
  refine ⟨outScores m, outEmbs m, outCosine m, kernel_run m ρ, ?_⟩
  refine (θ_run Cert.ReferenceIdeal.defs _ _).mono (fun r h c => ?_) (Cert.ReferenceIdeal.Value.run (F := Ideal) m' ρ')
  obtain ⟨s0, s1, s2⟩ := stages_agree m m' hagree c
  exact ⟨(h c).1.trans s0, (h c).2.1.trans s1, (h c).2.2.1.trans s2, (h c).2.2.2⟩

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
